-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x262144 : Shape := ⟨2, ![2, 262144]⟩
abbrev S8192x512 : Shape := ⟨2, ![8192, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S2x262144 : S_.BroadcastsInDim S2x262144 (![] : Fin 0 → Fin S2x262144.rank)
  reducesTo_S2x262144_S_d0_1 : S2x262144.ReducesTo [0, 1] S_

variable [Facts]

def fn_part2 {F : FTy → Type} [FloatOps F] (main_arg0 : IVec S2x262144 32) (main_v33 : IVec S_ 1) : IVec S_ 1 :=
  let main_c_12 : IVec S_ 32 := constantI S_ 32 0#32
  let main_v34 : IVec S2x262144 32 := broadcastInDim S2x262144 ![] bcast_S_S2x262144 main_c_12
  let main_v35 : IVec S2x262144 1 := cmpi .sge main_arg0 main_v34
  let main_c_13 : IVec S_ 32 := constantI S_ 32 8192#32
  let main_v36 : IVec S2x262144 32 := broadcastInDim S2x262144 ![] bcast_S_S2x262144 main_c_13
  let main_v37 : IVec S2x262144 1 := cmpi .slt main_arg0 main_v36
  let main_v38 : IVec S2x262144 1 := andi main_v35 main_v37
  let main_c_14 : IVec S_ 1 := constantI S_ 1 1#1
  let main_v39 : IVec S_ 1 := (fun x v => Host.reduce IntOp.andi x v reducesTo_S2x262144_S_d0_1 h_S_) main_v38 main_c_14
  let main_v40 : IVec S_ 1 := andi main_v33 main_v39
  main_v40

def fn_part1 {F : FTy → Type} [FloatOps F] (main_arg0 : IVec S2x262144 32) (main_arg5 : FVec F S128 .f32) (main_arg6 : FVec F S512x128 .f32) (main_arg7 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : IVec S2x262144 32) (main_arg1 : FVec F S8192x512 .f32) (main_arg2 : FVec F S512x512 .f32) (main_arg3 : FVec F S512 .f32) (main_arg4 : FVec F S512x128 .f32) (main_arg5 : FVec F S128 .f32) (main_arg6 : FVec F S512x128 .f32) (main_arg7 : FVec F S128 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg0 main_arg5 main_arg6 main_arg7 main_v13 main_v16
-- ==== Kernel.lean ====
abbrev S2x262144 : Shape := ⟨2, ![2, 262144]⟩
abbrev S8192x512 : Shape := ⟨2, ![8192, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S2048x512 : Shape := ⟨2, ![2048, 512]⟩
abbrev S1x512 : Shape := ⟨2, ![1, 512]⟩
abbrev S1024x1024 : Shape := ⟨2, ![1024, 1024]⟩
abbrev S1024x512 : Shape := ⟨2, ![1024, 512]⟩
abbrev S512x256 : Shape := ⟨2, ![512, 256]⟩
abbrev S256 : Shape := ⟨1, ![256]⟩
abbrev S8192x256 : Shape := ⟨2, ![8192, 256]⟩
abbrev S2048x256 : Shape := ⟨2, ![2048, 256]⟩
abbrev S1x256 : Shape := ⟨2, ![1, 256]⟩
abbrev S1024x256 : Shape := ⟨2, ![1024, 256]⟩
abbrev S8192x128 : Shape := ⟨2, ![8192, 128]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 82
  | .vmem => 32
  | .smem => 0
  | _ => 0

abbrev bufTy : (tb : Table) → Fin (tcTables nBuf tb) → BufTy
  | .hbm, ⟨0, _⟩ => ⟨S2x262144, .i32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S128, .f32⟩
  | .hbm, ⟨8, _⟩ => ⟨S8192, .i32⟩
  | .hbm, ⟨9, _⟩ => ⟨S1x262144, .i32⟩
  | .hbm, ⟨10, _⟩ => ⟨S262144, .i32⟩
  | .hbm, ⟨11, _⟩ => ⟨S270336, .i32⟩
  | .hbm, ⟨12, _⟩ => ⟨S1x262144, .i32⟩
  | .hbm, ⟨13, _⟩ => ⟨S262144, .i32⟩
  | .hbm, ⟨14, _⟩ => ⟨S270336, .i32⟩
  | .hbm, ⟨15, _⟩ => ⟨S_, .f32⟩
  | .hbm, ⟨16, _⟩ => ⟨S270336, .f32⟩
  | .hbm, ⟨17, _⟩ => ⟨S_, .f32⟩
  | .hbm, ⟨18, _⟩ => ⟨S8192, .f32⟩
  | .hbm, ⟨19, _⟩ => ⟨S270336x1, .i32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .i1⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S270336, .i32⟩
  | .hbm, ⟨34, _⟩ => ⟨S270336, .i1⟩
  | .hbm, ⟨35, _⟩ => ⟨S_, .i32⟩
  | .hbm, ⟨36, _⟩ => ⟨S270336, .i32⟩
  | .hbm, ⟨37, _⟩ => ⟨S270336, .i32⟩
  | .hbm, ⟨38, _⟩ => ⟨S270336, .i32⟩
  | .hbm, ⟨39, _⟩ => ⟨S270336x1, .i32⟩
  | .hbm, ⟨40, _⟩ => ⟨S270336, .f32⟩
  | .hbm, ⟨41, _⟩ => ⟨S_, .i32⟩
  | .hbm, ⟨42, _⟩ => ⟨S270336, .i32⟩
  | .hbm, ⟨43, _⟩ => ⟨S270336, .i1⟩
  | .hbm, ⟨44, _⟩ => ⟨S_, .i32⟩
  | .hbm, ⟨45, _⟩ => ⟨S270336, .i32⟩
  | .hbm, ⟨46, _⟩ => ⟨S270336, .i32⟩
  | .hbm, ⟨47, _⟩ => ⟨S270336, .i32⟩
  | .hbm, ⟨48, _⟩ => ⟨S270336x1, .i32⟩
  | .hbm, ⟨49, _⟩ => ⟨S270336, .f32⟩
  | .hbm, ⟨50, _⟩ => ⟨S270336, .f32⟩
  | .hbm, ⟨51, _⟩ => ⟨S_, .f32⟩
  | .hbm, ⟨52, _⟩ => ⟨S8192x8192, .f32⟩
  | .hbm, ⟨53, _⟩ => ⟨S_, .i32⟩
  | .hbm, ⟨54, _⟩ => ⟨S270336, .i32⟩
  | .hbm, ⟨55, _⟩ => ⟨S270336, .i1⟩
  | .hbm, ⟨56, _⟩ => ⟨S_, .i32⟩
  | .hbm, ⟨57, _⟩ => ⟨S270336, .i32⟩
  | .hbm, ⟨58, _⟩ => ⟨S270336, .i32⟩
  | .hbm, ⟨59, _⟩ => ⟨S270336, .i32⟩
  | .hbm, ⟨60, _⟩ => ⟨S_, .i32⟩
  | .hbm, ⟨61, _⟩ => ⟨S270336, .i32⟩
  | .hbm, ⟨62, _⟩ => ⟨S270336, .i1⟩
  | .hbm, ⟨63, _⟩ => ⟨S_, .i32⟩
  | .hbm, ⟨64, _⟩ => ⟨S270336, .i32⟩
  | .hbm, ⟨65, _⟩ => ⟨S270336, .i32⟩
  | .hbm, ⟨66, _⟩ => ⟨S270336, .i32⟩
  | .hbm, ⟨67, _⟩ => ⟨S270336x1, .i32⟩
  | .hbm, ⟨68, _⟩ => ⟨S270336x1, .i32⟩
  | .hbm, ⟨69, _⟩ => ⟨S270336x2, .i32⟩
  | .hbm, ⟨70, _⟩ => ⟨S8192x8192, .f32⟩
  | .hbm, ⟨71, _⟩ => ⟨S8192x512, .f32⟩
  | .hbm, ⟨72, _⟩ => ⟨S1x512, .f32⟩
  | .hbm, ⟨73, _⟩ => ⟨S8192x512, .f32⟩
  | .hbm, ⟨74, _⟩ => ⟨S512x256, .f32⟩
  | .hbm, ⟨75, _⟩ => ⟨S256, .f32⟩
  | .hbm, ⟨76, _⟩ => ⟨S8192x256, .f32⟩
  | .hbm, ⟨77, _⟩ => ⟨S1x256, .f32⟩
  | .hbm, ⟨78, _⟩ => ⟨S8192x256, .f32⟩
  | .hbm, ⟨79, _⟩ => ⟨S8192x128, .f32⟩
  | .hbm, ⟨80, _⟩ => ⟨S8192x128, .f32⟩
  | .hbm, ⟨81, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S1024x1024, .f32⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S2048x512, .f32⟩
  | .local _ .vmem, ⟨14, _⟩ => ⟨S2048x512, .f32⟩
  | .local _ .vmem, ⟨15, _⟩ => ⟨S512x256, .f32⟩
  | .local _ .vmem, ⟨16, _⟩ => ⟨S2048x256, .f32⟩
  | .local _ .vmem, ⟨17, _⟩ => ⟨S2048x256, .f32⟩
  | .local _ .vmem, ⟨18, _⟩ => ⟨S1024x1024, .f32⟩
  | .local _ .vmem, ⟨19, _⟩ => ⟨S1024x1024, .f32⟩
  | .local _ .vmem, ⟨20, _⟩ => ⟨S1024x256, .f32⟩
  | .local _ .vmem, ⟨21, _⟩ => ⟨S1024x256, .f32⟩
  | .local _ .vmem, ⟨22, _⟩ => ⟨S1x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x128, .f32⟩
  | .local _ .vmem, ⟨27, _⟩ => ⟨S1024x128, .f32⟩
  | .local _ .vmem, ⟨28, _⟩ => ⟨S2048x128, .f32⟩
  | .local _ .vmem, ⟨29, _⟩ => ⟨S2048x128, .f32⟩
  | .local _ .vmem, ⟨30, _⟩ => ⟨S1024x2048, .f32⟩
  | .local _ .vmem, ⟨31, _⟩ => ⟨S1024x2048, .f32⟩
  | _, _ => ⟨S2x262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  concatenates_S512x128_S512x128_S512x256_d1 : Shape.Concatenates [S512x128, S512x128] S512x256 1
  concatenates_S128_S128_S256_d0 : Shape.Concatenates [S128, S128] S256 0
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S8192x256_S8192x128_0_0 : S8192x256.Slices ![0, 0] S8192x128
  slices_S8192x256_S8192x128_0_128 : S8192x256.Slices ![0, 128] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S2048x512_S512x512_S2048x512_1_0_0_1_n_n_wf : DotDims.WF S2048x512 S512x512 S2048x512 [1] [0] [0] [1] [] []
  dot_S1024x1024_S1024x512_S1024x512_1_0_0_1_n_n_wf : DotDims.WF S1024x1024 S1024x512 S1024x512 [1] [0] [0] [1] [] []
  dot_S2048x512_S512x256_S2048x256_1_0_0_1_n_n_wf : DotDims.WF S2048x512 S512x256 S2048x256 [1] [0] [0] [1] [] []
  dot_S1024x1024_S1024x256_S1024x256_1_0_0_1_n_n_wf : DotDims.WF S1024x1024 S1024x256 S1024x256 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x512.size a
  hwx0_2 : ∀ i : grid0.Coords, EltTy.bits .f32 = 32 ∨ (Rect.block (s := S8192x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .f32 = 32 ∨ (Rect.block (s := S8192x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .f32 = 32 ∨ (Rect.block (s := S8192x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S8192x256.size a
  hwx3_1 : ∀ i : grid3.Coords, EltTy.bits .f32 = 32 ∨ (Rect.block (s := S8192x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S8192x128.size a
  hwx4_1 : ∀ i : grid4.Coords, EltTy.bits .f32 = 32 ∨ (Rect.block (s := S8192x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S8192x8192.size a
  hwx4_2 : ∀ i : grid4.Coords, EltTy.bits .f32 = 32 ∨ (Rect.block (s := S8192x8192) S1024x2048.size (cc4_transform_2 i) (hinb4_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v49) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v55) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1024x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x262144 : Shape := ⟨2, ![2, 262144]⟩
abbrev S8192x512 : Shape := ⟨2, ![8192, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x512 : Shape := ⟨2, ![270336, 512]⟩
abbrev S1x512 : Shape := ⟨2, ![1, 512]⟩
abbrev S8192x128 : Shape := ⟨2, ![8192, 128]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 196
  | .vmem => 0
  | .smem => 0
  | _ => 0

abbrev hbmTy0_0 (i : Nat) : BufTy := match i % 128 with
  | 0 => ⟨S2x262144, .i32⟩
  | 1 => ⟨S8192x512, .f32⟩
  | 2 => ⟨S512x512, .f32⟩
  | 3 => ⟨S512, .f32⟩
  | 4 => ⟨S512x128, .f32⟩
  | 5 => ⟨S128, .f32⟩
  | 6 => ⟨S512x128, .f32⟩
  | 7 => ⟨S128, .f32⟩
  | 8 => ⟨S8192, .i32⟩
  | 9 => ⟨S1x262144, .i32⟩
  | 10 => ⟨S262144, .i32⟩
  | 11 => ⟨S270336, .i32⟩
  | 12 => ⟨S1x262144, .i32⟩
  | 13 => ⟨S262144, .i32⟩
  | 14 => ⟨S270336, .i32⟩
  | 15 => ⟨S8192x512, .f32⟩
  | 16 => ⟨S_, .f32⟩
  | 17 => ⟨S270336, .f32⟩
  | 18 => ⟨S_, .f32⟩
  | 19 => ⟨S8192, .f32⟩
  | 20 => ⟨S270336x1, .i32⟩
  | 21 => ⟨S8192, .f32⟩
  | 22 => ⟨S_, .f32⟩
  | 23 => ⟨S8192, .f32⟩
  | 24 => ⟨S8192, .i1⟩
  | 25 => ⟨S_, .f32⟩
  | 26 => ⟨S8192, .f32⟩
  | 27 => ⟨S8192, .f32⟩
  | 28 => ⟨S8192, .f32⟩
  | 29 => ⟨S_, .f32⟩
  | 30 => ⟨S_, .f32⟩
  | 31 => ⟨S8192, .f32⟩
  | 32 => ⟨S8192, .f32⟩
  | 33 => ⟨S_, .i32⟩
  | 34 => ⟨S270336, .i32⟩
  | 35 => ⟨S270336, .i1⟩
  | 36 => ⟨S_, .i32⟩
  | 37 => ⟨S270336, .i32⟩
  | 38 => ⟨S270336, .i32⟩
  | 39 => ⟨S270336, .i32⟩
  | 40 => ⟨S270336x1, .i32⟩
  | 41 => ⟨S270336, .f32⟩
  | 42 => ⟨S_, .i32⟩
  | 43 => ⟨S270336, .i32⟩
  | 44 => ⟨S270336, .i1⟩
  | 45 => ⟨S_, .i32⟩
  | 46 => ⟨S270336, .i32⟩
  | 47 => ⟨S270336, .i32⟩
  | 48 => ⟨S270336, .i32⟩
  | 49 => ⟨S270336x1, .i32⟩
  | 50 => ⟨S270336, .f32⟩
  | 51 => ⟨S270336, .f32⟩
  | 52 => ⟨S270336x1, .f32⟩
  | 53 => ⟨S_, .i32⟩
  | 54 => ⟨S270336, .i32⟩
  | 55 => ⟨S270336, .i1⟩
  | 56 => ⟨S_, .i32⟩
  | 57 => ⟨S270336, .i32⟩
  | 58 => ⟨S270336, .i32⟩
  | 59 => ⟨S270336, .i32⟩
  | 60 => ⟨S270336x1, .i32⟩
  | 61 => ⟨S270336x512, .f32⟩
  | 62 => ⟨S270336x512, .f32⟩
  | 63 => ⟨S270336x512, .f32⟩
  | 64 => ⟨S_, .f32⟩
  | 65 => ⟨S8192x512, .f32⟩
  | 66 => ⟨S270336x1, .i32⟩
  | 67 => ⟨S8192x512, .f32⟩
  | 68 => ⟨S1x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x128, .f32⟩
  | 75 => ⟨S_, .f32⟩
  | 76 => ⟨S270336, .f32⟩
  | 77 => ⟨S_, .f32⟩
  | 78 => ⟨S8192, .f32⟩
  | 79 => ⟨S270336x1, .i32⟩
  | 80 => ⟨S8192, .f32⟩
  | 81 => ⟨S_, .f32⟩
  | 82 => ⟨S8192, .f32⟩
  | 83 => ⟨S8192, .i1⟩
  | 84 => ⟨S_, .f32⟩
  | 85 => ⟨S8192, .f32⟩
  | 86 => ⟨S8192, .f32⟩
  | 87 => ⟨S8192, .f32⟩
  | 88 => ⟨S_, .f32⟩
  | 89 => ⟨S_, .f32⟩
  | 90 => ⟨S8192, .f32⟩
  | 91 => ⟨S8192, .f32⟩
  | 92 => ⟨S_, .i32⟩
  | 93 => ⟨S270336, .i32⟩
  | 94 => ⟨S270336, .i1⟩
  | 95 => ⟨S_, .i32⟩
  | 96 => ⟨S270336, .i32⟩
  | 97 => ⟨S270336, .i32⟩
  | 98 => ⟨S270336, .i32⟩
  | 99 => ⟨S270336x1, .i32⟩
  | 100 => ⟨S270336, .f32⟩
  | 101 => ⟨S_, .i32⟩
  | 102 => ⟨S270336, .i32⟩
  | 103 => ⟨S270336, .i1⟩
  | 104 => ⟨S_, .i32⟩
  | 105 => ⟨S270336, .i32⟩
  | 106 => ⟨S270336, .i32⟩
  | 107 => ⟨S270336, .i32⟩
  | 108 => ⟨S270336x1, .i32⟩
  | 109 => ⟨S270336, .f32⟩
  | 110 => ⟨S270336, .f32⟩
  | 111 => ⟨S270336x1, .f32⟩
  | 112 => ⟨S_, .i32⟩
  | 113 => ⟨S270336, .i32⟩
  | 114 => ⟨S270336, .i1⟩
  | 115 => ⟨S_, .i32⟩
  | 116 => ⟨S270336, .i32⟩
  | 117 => ⟨S270336, .i32⟩
  | 118 => ⟨S270336, .i32⟩
  | 119 => ⟨S270336x1, .i32⟩
  | 120 => ⟨S270336x128, .f32⟩
  | 121 => ⟨S270336x128, .f32⟩
  | 122 => ⟨S270336x128, .f32⟩
  | 123 => ⟨S_, .f32⟩
  | 124 => ⟨S8192x128, .f32⟩
  | 125 => ⟨S270336x1, .i32⟩
  | 126 => ⟨S8192x128, .f32⟩
  | 127 => ⟨S1x128, .f32⟩
  | _ => ⟨S2x262144, .i32⟩

abbrev hbmTy0_1 (i : Nat) : BufTy := match i % 128 with
  | 0 => ⟨S8192x128, .f32⟩
  | 1 => ⟨S8192x128, .f32⟩
  | 2 => ⟨S8192x128, .f32⟩
  | 3 => ⟨S_, .f32⟩
  | 4 => ⟨S270336, .f32⟩
  | 5 => ⟨S_, .f32⟩
  | 6 => ⟨S8192, .f32⟩
  | 7 => ⟨S270336x1, .i32⟩
  | 8 => ⟨S8192, .f32⟩
  | 9 => ⟨S_, .f32⟩
  | 10 => ⟨S8192, .f32⟩
  | 11 => ⟨S8192, .i1⟩
  | 12 => ⟨S_, .f32⟩
  | 13 => ⟨S8192, .f32⟩
  | 14 => ⟨S8192, .f32⟩
  | 15 => ⟨S8192, .f32⟩
  | 16 => ⟨S_, .f32⟩
  | 17 => ⟨S_, .f32⟩
  | 18 => ⟨S8192, .f32⟩
  | 19 => ⟨S8192, .f32⟩
  | 20 => ⟨S_, .i32⟩
  | 21 => ⟨S270336, .i32⟩
  | 22 => ⟨S270336, .i1⟩
  | 23 => ⟨S_, .i32⟩
  | 24 => ⟨S270336, .i32⟩
  | 25 => ⟨S270336, .i32⟩
  | 26 => ⟨S270336, .i32⟩
  | 27 => ⟨S270336x1, .i32⟩
  | 28 => ⟨S270336, .f32⟩
  | 29 => ⟨S_, .i32⟩
  | 30 => ⟨S270336, .i32⟩
  | 31 => ⟨S270336, .i1⟩
  | 32 => ⟨S_, .i32⟩
  | 33 => ⟨S270336, .i32⟩
  | 34 => ⟨S270336, .i32⟩
  | 35 => ⟨S270336, .i32⟩
  | 36 => ⟨S270336x1, .i32⟩
  | 37 => ⟨S270336, .f32⟩
  | 38 => ⟨S270336, .f32⟩
  | 39 => ⟨S270336x1, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336x128, .f32⟩
  | 49 => ⟨S270336x128, .f32⟩
  | 50 => ⟨S270336x128, .f32⟩
  | 51 => ⟨S_, .f32⟩
  | 52 => ⟨S8192x128, .f32⟩
  | 53 => ⟨S270336x1, .i32⟩
  | 54 => ⟨S8192x128, .f32⟩
  | 55 => ⟨S1x128, .f32⟩
  | 56 => ⟨S8192x128, .f32⟩
  | 57 => ⟨S8192x128, .f32⟩
  | 58 => ⟨S128x8192, .f32⟩
  | 59 => ⟨S8192x8192, .f32⟩
  | 60 => ⟨S8192x8192, .f32⟩
  | 61 => ⟨S8192x8192, .f32⟩
  | 62 => ⟨S_, .f32⟩
  | 63 => ⟨S8192x8192, .f32⟩
  | 64 => ⟨S8192x8192, .f32⟩
  | 65 => ⟨S_, .f32⟩
  | 66 => ⟨S8192x8192, .f32⟩
  | 67 => ⟨S8192x8192, .f32⟩
  | _ => ⟨S2x262144, .i32⟩

abbrev hbmTy (i : Nat) : BufTy := match i / 128 with
  | 0 => hbmTy0_0 i
  | 1 => hbmTy0_1 i
  | _ => ⟨S2x262144, .i32⟩

abbrev bufTy : (tb : Table) → Fin (tcTables nBuf tb) → BufTy
  | .hbm, ⟨i, _⟩ => hbmTy i
  | _, _ => ⟨S2x262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_c_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_cst_23 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_24 : Ref sig .tc := ⟨.hbm, 137, rfl⟩
abbrev main_v97 : Ref sig .tc := ⟨.hbm, 138, rfl⟩
abbrev main_v98 : Ref sig .tc := ⟨.hbm, 139, rfl⟩
abbrev main_cst_25 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_26 : Ref sig .tc := ⟨.hbm, 144, rfl⟩
abbrev main_call3_v0 : Ref sig .tc := ⟨.hbm, 145, rfl⟩
abbrev main_call3_v1 : Ref sig .tc := ⟨.hbm, 146, rfl⟩
abbrev main_v102 : Ref sig .tc := ⟨.hbm, 147, rfl⟩
abbrev main_c_27 : Ref sig .tc := ⟨.hbm, 148, rfl⟩
abbrev main_v103 : Ref sig .tc := ⟨.hbm, 149, rfl⟩
abbrev main_v104 : Ref sig .tc := ⟨.hbm, 150, rfl⟩
abbrev main_c_28 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_29 : Ref sig .tc := ⟨.hbm, 157, rfl⟩
abbrev main_v110 : Ref sig .tc := ⟨.hbm, 158, rfl⟩
abbrev main_v111 : Ref sig .tc := ⟨.hbm, 159, rfl⟩
abbrev main_c_30 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_31 : Ref sig .tc := ⟨.hbm, 168, rfl⟩
abbrev main_v119 : Ref sig .tc := ⟨.hbm, 169, rfl⟩
abbrev main_v120 : Ref sig .tc := ⟨.hbm, 170, rfl⟩
abbrev main_c_32 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_33 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_34 : Ref sig .tc := ⟨.hbm, 190, rfl⟩
abbrev main_v138 : Ref sig .tc := ⟨.hbm, 191, rfl⟩
abbrev main_v139 : Ref sig .tc := ⟨.hbm, 192, rfl⟩
abbrev main_cst_35 : Ref sig .tc := ⟨.hbm, 193, rfl⟩
abbrev main_v140 : Ref sig .tc := ⟨.hbm, 194, rfl⟩
abbrev main_v141 : Ref sig .tc := ⟨.hbm, 195, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x512_S512x512_S8192x512_1_0_0_1_n_n_wf : DotDims.WF S8192x512 S512x512 S8192x512 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x128_S8192x128_1_0_0_1_n_n_wf : DotDims.WF S8192x512 S512x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Reg0.lean ====
/- REGION 0 of the program: the matrix product of a row block of the left array with the whole right array, one
   row block per grid point. Stated at a parameter `V`, the core's buffer contents when the region is entered: each
   window's block at a point, what the body leaves in the output window's buffer, the body's triple, the pipeline's
   proof data and the body obligation at every point. Generic in the number type. -/
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left array's row block) holds its block at every point, fetched there or not, for any proof
    data whose array is `V`'s (`hA`) and whose body leaves the block in place (`hafter`): where it is not fetched the
    block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole right array, the same block at every point: fetched at the first point only) holds its
    block at every point, by the same argument. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S2048x512 := Rect.unit (s := S2048x512) ![0, 0] S2048x512.size inb_S2048x512_S2048x512_0_0

/-! ## What the body leaves in the output window's buffer -/

/-- Window 2's buffer after the body, from the input windows' blocks: its one store, of the product of the two
    blocks read, as a piece covering the buffer. -/
def out0_2 (x0 : Vec F S2048x512 .f32) (x1 : Vec F S512x512 .f32) : Vec F S2048x512 .f32 :=
  View.canon [⟨r0_2, k0_pay1 (View.ld x0 r0_0) (View.ld x1 r0_1)⟩]

/-- The store's rectangle is the whole buffer, so it covers it. -/
theorem cover0_2 (p0 : Vec F S2048x512 .f32) (y : S2048x512.Idx) :
    ∃ pc ∈ ([⟨r0_2, p0⟩] : List (View.Piece (Elt F) S2048x512 .f32)), y ∈ pc.1.set :=
  View.cover_of_tiled [⟨r0_2, p0⟩] S2048x512.size (by rfl) y

/-! ## The body's triple -/

set_option maxHeartbeats 1000000 in
/-- The body on whole buffers, the inputs' at contents `x0`, `x1` and the output's at anything, runs to the continuation
    holding the inputs' as they were and the output's at `out0_2 x0 x1`. The body reads the output buffer before
    storing to it; the value read is not used. -/
theorem sound_kernel0 (c : Dev nD) (E : Set ℕ) (i : grid0.Coords) (arg0 : Memref sig .tc .vmem S2048x512 .f32) (harg0 : arg0.IsWhole) (arg1 : Memref sig .tc .vmem S512x512 .f32) (harg1 : arg1.IsWhole) (arg2 : Memref sig .tc .vmem S2048x512 .f32) (harg2 : arg2.IsWhole)
    (x0 : Vec F S2048x512 .f32) (x1 : Vec F S512x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point `t`
    each input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the aggregation kernel on the grid (8, 8)

The block row `i` of the output is the sum over the eight column blocks `k` of the products of the blocks
`(i, k)` of the left operand with the row blocks `k` of the right operand, accumulated in a scratch buffer that
is reset at `k = 0`; at `k = 7` the row vector is added and the result stored. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, in closed form over the grid -/

/-- The condition of the first conditional: the column coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the second conditional: the column coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last column it is live. -/
theorem liveAt1_3 : ∀ t : Fin cfg1.N, cond1_1 (grid1.coords t) → cfg1.idle 3 (grid1.coords t) = false := by decide +kernel

/-! ## The staging memrefs and the scratch -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole scoped buffer passed beside the windows. -/
abbrev scM1 : Memref sig .tc .vmem S1024x512 .f32 := Memref.whole cc1_scratch0

/-- The class invariant with the accumulator split off at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case -/

theorem zeroOff1 : (![0, 0] : Fin 2 → Nat) = fun _ => 0 := funext fun a => by fin_cases a <;> rfl

set_option maxHeartbeats 1000000 in
/-- First column, not the last: the accumulator is reset, then holds the product of the two blocks added to the
    zero block; the output window is handed back untouched. -/
theorem run1_A (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x1024 .f32) (x1 : Vec F S1024x512 .f32) (x2 : Vec F S1x512 .f32) (xi3 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1, View.readCov_unit_zero _ zeroOff1]
  simp only [View.readAt_eq_ld, View.ld_unit_zero (S := S1024x1024) zeroOff1, View.ld_unit_zero (S := S1024x512) zeroOff1, View.ld_unit_zero (S := S1x512) zeroOff1]

set_option maxHeartbeats 1000000 in
/-- Neither the first column nor the last: the product of the two blocks is added to the accumulator; the output
    window is handed back untouched. -/
theorem run1_B (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x1024 .f32) (x1 : Vec F S1024x512 .f32) (x2 : Vec F S1x512 .f32) (xi3 : Vec F S1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1]
  simp only [View.readAt_eq_ld, View.ld_unit_zero (S := S1024x1024) zeroOff1, View.ld_unit_zero (S := S1024x512) zeroOff1, View.ld_unit_zero (S := S1x512) zeroOff1]

set_option maxHeartbeats 1000000 in
/-- The last column: the product of the two blocks is added to the accumulator, and the output window receives
    the maximum with zero of the accumulator with the row vector added to every row. -/
theorem run1_C (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x1024 .f32) (x1 : Vec F S1024x512 .f32) (x2 : Vec F S1x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff1 inb_S1024x512_S1024x512_0_0 y⟩)]
    rw [View.canon_cons_unit_zero zeroOff1, View.readCov_unit_zero _ zeroOff1]
    simp only [View.readAt_eq_ld, View.ld_unit_zero (S := S1024x1024) zeroOff1, View.ld_unit_zero (S := S1024x512) zeroOff1, View.ld_unit_zero (S := S1x512) zeroOff1]
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1]
  simp only [View.readAt_eq_ld, View.ld_unit_zero (S := S1024x1024) zeroOff1, View.ld_unit_zero (S := S1024x512) zeroOff1, View.ld_unit_zero (S := S1x512) zeroOff1]

/-! ## The accumulator, point by point -/

/-- What the accumulator holds after the body at position `n`: on a first column the product of the point's two
    blocks added to the zero block, elsewhere added to what the point before left. -/
def acc1 (c : Dev nD) : (n : ℕ) → n < cfg1.N → Vec F S1024x512 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class invariant (the accumulator at anything);
    afterwards the accumulator at what the point before left, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare (acc1 V c (n - 1) (by omega))) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data on core `c`: the arrays as the region finds them; after the body each input's buffer at its
    block and the output's at the accumulator with the row vector added (consulted on the last column only: elsewhere
    the window is idle); the invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in;
    the invariant hands the body the accumulator at what the point before left (at anything at the very first point)
    and takes it back at this point's contents; off the last column the output window goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [acc1_next V c t h0]
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [acc1_first V c t h0]
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc1_next V c t h0]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with is the invariant before the first point. -/
theorem hin1 (c : Dev nD) :
    iprop((∃ r, prngReg c r) ∗ Pipeline.prefHeld (pcfgs (F := F) 1).pre c (fun _ => fullShare) ((cfgs 1).toPCfg_adm).1 ∗ Pipeline.scopedRest spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives the scoped buffers back, the accumulator's contents forgotten. -/
theorem hout1 (c : Dev nD) :
    (dat1 V c).Φ (Fin.last cfg1.N)
      ⊢ iprop((∃ r, prngReg c r) ∗ Pipeline.ownSems0 (fun k : PEmpty => k.elim) c ∗ Pipeline.scopedRest spec1 c) := by
  have hne : (Fin.last cfg1.N).val ≠ 0 := by rw [Fin.val_last]; have : cfg1.N = 64 := N_1; omega
  rw [Pipeline.ownSems0_none, show (dat1 V c).Φ (Fin.last cfg1.N) = PhiS1 V c (Fin.last cfg1.N).val (Nat.le_of_lt_succ (Fin.last cfg1.N).isLt) from rfl,
    PhiS1_pos V c _ _ hne]
  rw [scopedRest1_split]
  simp only [scM1, owns_whole]
  iintro ⟨⟨HS, Hrest⟩, Hg⟩
  isplitl [Hg]; · iexact Hg
  isplitr; · iempintro
  isplitl [HS]; · iexists _; iexact HS
  iexact Hrest

end Cert.Kernel.Hand

end
-- ==== Proof.K.Reg2.lean ====
/- REGION 2 of the program: the matrix product of a row block of the left array with the whole right array, one
   row block per grid point. Stated at a parameter `V`, the core's buffer contents when the region is entered: each
   window's block at a point, what the body leaves in the output window's buffer, the body's triple, the pipeline's
   proof data and the body obligation at every point. Generic in the number type. -/
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left array's row block) holds its block at every point, fetched there or not, for any proof
    data whose array is `V`'s (`hA`) and whose body leaves the block in place (`hafter`): where it is not fetched the
    block index has not moved. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (the whole right array, the same block at every point: fetched at the first point only) holds its
    block at every point, by the same argument. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2048x512 := Rect.unit (s := S2048x512) ![0, 0] S2048x512.size inb_S2048x512_S2048x512_0_0
abbrev r2_1 : Rect S512x256 := Rect.unit (s := S512x256) ![0, 0] S512x256.size inb_S512x256_S512x256_0_0
abbrev r2_2 : Rect S2048x256 := Rect.unit (s := S2048x256) ![0, 0] S2048x256.size inb_S2048x256_S2048x256_0_0

/-! ## What the body leaves in the output window's buffer -/

/-- Window 2's buffer after the body, from the input windows' blocks: its one store, of the product of the two
    blocks read, as a piece covering the buffer. -/
def out2_2 (x0 : Vec F S2048x512 .f32) (x1 : Vec F S512x256 .f32) : Vec F S2048x256 .f32 :=
  View.canon [⟨r2_2, k2_pay1 (View.ld x0 r2_0) (View.ld x1 r2_1)⟩]

/-- The store's rectangle is the whole buffer, so it covers it. -/
theorem cover2_2 (p0 : Vec F S2048x256 .f32) (y : S2048x256.Idx) :
    ∃ pc ∈ ([⟨r2_2, p0⟩] : List (View.Piece (Elt F) S2048x256 .f32)), y ∈ pc.1.set :=
  View.cover_of_tiled [⟨r2_2, p0⟩] S2048x256.size (by rfl) y

/-! ## The body's triple -/

set_option maxHeartbeats 1000000 in
/-- The body on whole buffers, the inputs' at contents `x0`, `x1` and the output's at anything, runs to the continuation
    holding the inputs' as they were and the output's at `out2_2 x0 x1`. The body reads the output buffer before
    storing to it; the value read is not used. -/
theorem sound_kernel2 (c : Dev nD) (E : Set ℕ) (i : grid2.Coords) (arg0 : Memref sig .tc .vmem S2048x512 .f32) (harg0 : arg0.IsWhole) (arg1 : Memref sig .tc .vmem S512x256 .f32) (harg1 : arg1.IsWhole) (arg2 : Memref sig .tc .vmem S2048x256 .f32) (harg2 : arg2.IsWhole)
    (x0 : Vec F S2048x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them (`V`); after the body at point `t`
    each input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks (`before2_W`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: the aggregation kernel on the grid (8, 8)

The block row `i` of the output is the sum over the eight column blocks `k` of the products of the blocks
`(i, k)` of the left operand with the row blocks `k` of the right operand, accumulated in a scratch buffer that
is reset at `k = 0`; at `k = 7` the row vector is added and the result stored. -/

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions, in closed form over the grid -/

/-- The condition of the first conditional: the column coordinate is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The condition of the second conditional: the column coordinate is the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last column the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- On the last column it is live. -/
theorem liveAt3_3 : ∀ t : Fin cfg3.N, cond3_1 (grid3.coords t) → cfg3.idle 3 (grid3.coords t) = false := by decide +kernel

/-! ## The staging memrefs and the scratch -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x256 .f32 := win3_3.stage (cfg3.slots t 3)
abbrev hs3_3 (t : Fin cfg3.N) : (ms3_3 t).IsWhole := hstage3_3 ((cfg3.slots t 3).cast nbuf3_3)
/-- The accumulator: a whole scoped buffer passed beside the windows. -/
abbrev scM3 : Memref sig .tc .vmem S1024x256 .f32 := Memref.whole cc3_scratch0

/-- The class invariant with the accumulator split off at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

theorem zeroOff3 : (![0, 0] : Fin 2 → Nat) = fun _ => 0 := funext fun a => by fin_cases a <;> rfl

set_option maxHeartbeats 1000000 in
/-- First column, not the last: the accumulator is reset, then holds the product of the two blocks added to the
    zero block; the output window is handed back untouched. -/
theorem run3_A (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond3_0 i) (hc1 : ¬cond3_1 i)
    (x0 : Vec F S1024x1024 .f32) (x1 : Vec F S1024x256 .f32) (x2 : Vec F S1x256 .f32) (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k3_pay2 x0 x1 (k3_pay1 (F := F)))) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3, View.readCov_unit_zero _ zeroOff3]
  simp only [View.readAt_eq_ld, View.ld_unit_zero (S := S1024x1024) zeroOff3, View.ld_unit_zero (S := S1024x256) zeroOff3, View.ld_unit_zero (S := S1x256) zeroOff3]

set_option maxHeartbeats 1000000 in
/-- Neither the first column nor the last: the product of the two blocks is added to the accumulator; the output
    window is handed back untouched. -/
theorem run3_B (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond3_0 i) (hc1 : ¬cond3_1 i)
    (x0 : Vec F S1024x1024 .f32) (x1 : Vec F S1024x256 .f32) (x2 : Vec F S1x256 .f32) (xi3 : Vec F S1024x256 .f32) (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k3_pay2 x0 x1 xs)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3]
  simp only [View.readAt_eq_ld, View.ld_unit_zero (S := S1024x1024) zeroOff3, View.ld_unit_zero (S := S1024x256) zeroOff3, View.ld_unit_zero (S := S1x256) zeroOff3]

set_option maxHeartbeats 1000000 in
/-- The last column: the product of the two blocks is added to the accumulator, and the output window receives
    the accumulator with the row vector added to every row. -/
theorem run3_C (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond3_0 i) (hc1 : cond3_1 i)
    (x0 : Vec F S1024x1024 .f32) (x1 : Vec F S1024x256 .f32) (x2 : Vec F S1x256 .f32) (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 x0 x1 xs) x2)
            ∗ owns (c : Thread nD τ) arg6 fullShare (k3_pay2 x0 x1 xs)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff3 inb_S1024x256_S1024x256_0_0 y⟩)]
    rw [View.canon_cons_unit_zero zeroOff3, View.readCov_unit_zero _ zeroOff3]
    simp only [View.readAt_eq_ld, View.ld_unit_zero (S := S1024x1024) zeroOff3, View.ld_unit_zero (S := S1024x256) zeroOff3, View.ld_unit_zero (S := S1x256) zeroOff3]
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3]
  simp only [View.readAt_eq_ld, View.ld_unit_zero (S := S1024x1024) zeroOff3, View.ld_unit_zero (S := S1024x256) zeroOff3, View.ld_unit_zero (S := S1x256) zeroOff3]

/-! ## The accumulator, point by point -/

/-- What the accumulator holds after the body at position `n`: on a first column the product of the point's two
    blocks added to the zero block, elsewhere added to what the point before left. -/
def acc3 (c : Dev nD) : (n : ℕ) → n < cfg3.N → Vec F S1024x256 .f32
  | 0, h => k3_pay2 (iblk3 V c 0 ⟨0, h⟩) (iblk3 V c 1 ⟨0, h⟩) (k3_pay1 (F := F))
  | n + 1, h =>
    if (n + 1) % 8 = 0 then k3_pay2 (iblk3 V c 0 ⟨n + 1, h⟩) (iblk3 V c 1 ⟨n + 1, h⟩) (k3_pay1 (F := F))
    else k3_pay2 (iblk3 V c 0 ⟨n + 1, h⟩) (iblk3 V c 1 ⟨n + 1, h⟩) (acc3 c n (Nat.lt_of_succ_lt h))

theorem acc3_first (c : Dev nD) (t : Fin cfg3.N) (h0 : t.val % 8 = 0) :
    acc3 V c t.val t.isLt = k3_pay2 (iblk3 V c 0 t) (iblk3 V c 1 t) (k3_pay1 (F := F)) := by
  obtain ⟨n, hn⟩ := t
  cases n with
  | zero => rfl
  | succ n => exact if_pos h0

theorem acc3_next (c : Dev nD) (t : Fin cfg3.N) (h0 : ¬t.val % 8 = 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class invariant (the accumulator at anything);
    afterwards the accumulator at what the point before left, the other scoped buffers unopened, and the generator
    register at some state. -/
def PhiS3 (c : Dev nD) : (n : ℕ) → n ≤ cfg3.N → sProp 𝕄
  | 0, _ => Pipeline.ΦA spec3 c
  | n + 1, hn => iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3 fullShare (acc3 V c (n - 1) (by omega))) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data on core `c`: the arrays as the region finds them; after the body each input's buffer at its
    block and the output's at the accumulator with the row vector added (consulted on the last column only: elsewhere
    the window is idle); the invariant carries the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in;
    the invariant hands the body the accumulator at what the point before left (at anything at the very first point)
    and takes it back at this point's contents; off the last column the output window goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 8 = 7
  · have h0 : ¬t.val % 8 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [acc3_next V c t h0]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply (run3_C c (grid3.coords t) _ _ _ _ _ _ _ _ _ _ (fun h => h0 ((hcond3_0 t).mp h)) ((hcond3_1 t).mpr h1) (iblk3 V c 0 t) (iblk3 V c 1 t) (iblk3 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 8 = 0
    · rw [acc3_first V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_next V c t h0]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the region is entered with is the invariant before the first point. -/
theorem hin3 (c : Dev nD) :
    iprop((∃ r, prngReg c r) ∗ Pipeline.prefHeld (pcfgs (F := F) 3).pre c (fun _ => fullShare) ((cfgs 3).toPCfg_adm).1 ∗ Pipeline.scopedRest spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives the scoped buffers back, the accumulator's contents forgotten. -/
theorem hout3 (c : Dev nD) :
    (dat3 V c).Φ (Fin.last cfg3.N)
      ⊢ iprop((∃ r, prngReg c r) ∗ Pipeline.ownSems0 (fun k : PEmpty => k.elim) c ∗ Pipeline.scopedRest spec3 c) := by
  have hne : (Fin.last cfg3.N).val ≠ 0 := by rw [Fin.val_last]; have : cfg3.N = 64 := N_3; omega
  rw [Pipeline.ownSems0_none, show (dat3 V c).Φ (Fin.last cfg3.N) = PhiS3 V c (Fin.last cfg3.N).val (Nat.le_of_lt_succ (Fin.last cfg3.N).isLt) from rfl,
    PhiS3_pos V c _ _ hne]
  rw [scopedRest3_split]
  simp only [scM3, owns_whole]
  iintro ⟨⟨HS, Hrest⟩, Hg⟩
  isplitl [Hg]; · iexact Hg
  isplitr; · iempintro
  isplitl [HS]; · iexists _; iexact HS
  iexact Hrest

end Cert.Kernel.Hand

end
-- ==== Proof.K.Reg4.lean ====
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One array behind two windows: how its share is dealt

Windows 0 and 1 read one array. Each holds one half of the array's full share, the output window its array outright;
the two halves compose to the full share, so the array leaves the region whole, at the contents it entered with. -/

/-- The buffers behind the windows' arrays: two, for three windows. -/
theorem arrImage4 : Finset.univ.image (Pipeline.arrRef spec4) = {main_v55, main_v57} := by decide

theorem share4_0 {c : Dev nD} (dat : Dat τ (Elt F) Unit ℕ (UR sig nD τ) ℕ cfg4 c) (hq0 : dat.q 0 = fullShare.left) : dat.share 0 = fullShare.left := by
  unfold Dat.share; exact hq0
theorem share4_1 {c : Dev nD} (dat : Dat τ (Elt F) Unit ℕ (UR sig nD τ) ℕ cfg4 c) (hq1 : dat.q 1 = fullShare.right) : dat.share 1 = fullShare.right := by
  unfold Dat.share; exact hq1
theorem share4_2 {c : Dev nD} (dat : Dat τ (Elt F) Unit ℕ (UR sig nD τ) ℕ cfg4 c) : dat.share 2 = fullShare := rfl

/-- The windows' arrays, one by one: the shared array at the left half for window 0 and at the right half for window 1,
    the output's array at the full share. -/
theorem arrays4_eq {c : Dev nD} (dat : Dat τ (Elt F) Unit ℕ (UR sig nD τ) ℕ cfg4 c) (hq0 : dat.q 0 = fullShare.left) (hq1 : dat.q 1 = fullShare.right)
    (G : (w : Fin cfg4.W) → Buf (Elt F) ((cfg4.win w).arr.view.loc (c : Thread nD τ))) :
    (dat.arrays G : sProp 𝕄) = iprop((((c : Thread nD τ).loc main_v55) ↦{fullShare.left} G 0) ∗ (((c : Thread nD τ).loc main_v55) ↦{fullShare.right} G 1)
      ∗ (((c : Thread nD τ).loc main_v57) ↦{fullShare} G 2)) := by
  unfold Dat.arrays
  rw [bigSep_W4, (arr_whole4 0).set_eq_univ, (arr_whole4 2).set_eq_univ, share4_0 dat hq0, share4_1 dat hq1, share4_2 dat]

/-- The two buffers behind the arrays, each whole at the full share. -/
theorem arrBufs4_eq (c : Dev nD) (Vc : (b : Ref sig .tc) → Buf (Elt F) ((c : Thread nD τ).loc b)) :
    (Pipeline.arrBufs spec4 c Vc : sProp 𝕄) = iprop((((c : Thread nD τ).loc main_v55) ↦{fullShare} Vc main_v55) ∗ (((c : Thread nD τ).loc main_v57) ↦{fullShare} Vc main_v57)) := by
  unfold Pipeline.arrBufs
  rw [arrImage4, BI.bigSep_insert (by decide), BI.bigSep_singleton]
  rfl

/-- A core's unscoped buffers are those two and the rest. -/
theorem unscopedBufs_split4 (c : Dev nD) (Vc : (b : Ref sig .tc) → Buf (Elt F) ((c : Thread nD τ).loc b)) :
    (unscopedBufs c Vc : sProp 𝕄) = iprop(Pipeline.arrBufs spec4 c Vc ∗ Pipeline.unscopedRest spec4 c Vc) :=
  Pipeline.unscopedBufs_split₀ cfgs 4 winFacts₀4.arr_unscoped c Vc

/-- ENTRY, the arrays' part: out of a core's unscoped buffers at contents `Vc`, the region's arrays at the proof data's
    entry contents — the shared array's full share cut in two, a half to each window on it — and the unscoped rest. -/
theorem arrays4_of_unscopedBufs {c : Dev nD} (dat : Dat τ (Elt F) Unit ℕ (UR sig nD τ) ℕ cfg4 c) (hq0 : dat.q 0 = fullShare.left) (hq1 : dat.q 1 = fullShare.right)
    (Vc : (b : Ref sig .tc) → Buf (Elt F) ((c : Thread nD τ).loc b)) (hA : ∀ w, dat.A w = Vc (Pipeline.arrRef spec4 w)) :
    (unscopedBufs c Vc : sProp 𝕄) ⊢ iprop(dat.arrays (dat.arrAt · 0) ∗ Pipeline.unscopedRest spec4 c Vc) := by
  rw [unscopedBufs_split4, arrBufs4_eq, arrays4_eq dat hq0 hq1,
    show dat.arrAt 0 0 = Vc main_v55 from hA 0, show dat.arrAt 1 0 = Vc main_v55 from hA 1, show dat.arrAt 2 0 = Vc main_v57 from hA 2]
  iintro ⟨⟨H55, H57⟩, Hrest⟩
  ihave H := (pointsTo_share (PosShare.mem_left_op_right fullShare)).1 $$ H55
  icases H with ⟨Hl, Hr⟩
  isplitr [Hrest]
  · isplitl [Hl]; · iexact Hl
    isplitl [Hr]; · iexact Hr
    iexact H57
  iexact Hrest

/-- EXIT, the arrays' part: the region's arrays at contents `G` — the two windows on the shared array agreeing — and the
    unscoped rest at `Vc` are the core's unscoped buffers at any contents `V'` that has the arrays at `G` and agrees
    with `Vc` off them: the two halves of the shared array's share joined. -/
theorem unscopedBufs_of_arrays4 {c : Dev nD} (dat : Dat τ (Elt F) Unit ℕ (UR sig nD τ) ℕ cfg4 c) (hq0 : dat.q 0 = fullShare.left) (hq1 : dat.q 1 = fullShare.right)
    (Vc V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = Vc b) :
    iprop(dat.arrays G ∗ Pipeline.unscopedRest spec4 c Vc) ⊢ (unscopedBufs c V' : sProp 𝕄) := by
  rw [unscopedBufs_split4, arrBufs4_eq, arrays4_eq dat hq0 hq1,
    show G 0 = V' main_v55 from hG 0, show G 1 = V' main_v55 from hG 1, show G 2 = V' main_v57 from hG 2]
  have hr : (Pipeline.unscopedRest spec4 c Vc : sProp 𝕄) = Pipeline.unscopedRest spec4 c V' := by
    unfold Pipeline.unscopedRest
    exact bigSep_congr fun b hb => by rw [hrest b (Finset.mem_sdiff.mp hb).2]
  rw [hr]
  iintro ⟨⟨Hl, Hr, H57⟩, Hrest⟩
  isplitr [Hrest]
  · isplitr [H57]
    · iapply (pointsTo_share (PosShare.mem_left_op_right fullShare)).2
      isplitl [Hl] <;> iassumption
    iexact H57
  iexact Hrest

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read or written whole -/

abbrev r4_0 : Rect S1024x128 := Rect.unit (s := S1024x128) ![0, 0] S1024x128.size inb_S1024x128_S1024x128_0_0
abbrev r4_1 : Rect S2048x128 := Rect.unit (s := S2048x128) ![0, 0] S2048x128.size inb_S2048x128_S2048x128_0_0
abbrev r4_2 : Rect S1024x2048 := Rect.unit (s := S1024x2048) ![0, 0] S1024x2048.size inb_S1024x2048_S1024x2048_0_0

/-! ## What the body leaves in the output window's buffer -/

/-- Window 2's staging buffer after the body, from the input windows' blocks: its one store, of the logistic of
    the product of the first block with the transpose of the second. -/
def out4_2 (x0 : Vec F S1024x128 .f32) (x1 : Vec F S2048x128 .f32) : Vec F S1024x2048 .f32 :=
  View.canon [⟨r4_2, k4_pay1 (View.ld x0 r4_0) (View.ld x1 r4_1)⟩]

/-- The store is of the whole buffer, so it covers it. -/
theorem cover4_2 (p0 : Vec F S1024x2048 .f32) (y : S1024x2048.Idx) :
    ∃ pc ∈ ([⟨r4_2, p0⟩] : List (View.Piece (Elt F) S1024x2048 .f32)), y ∈ pc.1.set :=
  View.cover_of_tiled [⟨r4_2, p0⟩] S1024x2048.size (by rfl) y

/-! ## The body's triple -/

set_option maxHeartbeats 1000000 in
/-- The kernel body on whole staging memrefs, the inputs' at read contents `x0`, `x1` and the output's at anything,
    runs to the continuation holding the inputs' as they were and the output's at `out4_2` of the inputs'. -/
theorem sound_kernel4 (c : Dev nD) (E : Set ℕ) (i : grid4.Coords) (arg2 : Memref sig .tc .vmem S1024x128 .f32) (harg2 : arg2.IsWhole)
    (arg3 : Memref sig .tc .vmem S2048x128 .f32) (harg3 : arg3.IsWhole) (arg4 : Memref sig .tc .vmem S1024x2048 .f32) (harg4 : arg4.IsWhole)
    (x0 : Vec F S1024x128 .f32) (x1 : Vec F S2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__decode_kernel i arg2 harg2 arg3 harg3 arg4 harg4) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them (`V`); after the body at point `t`
    each input's buffer at its block and the output's at `out4_2` of the input blocks; the invariant the scoped rest
    and the random-number register, untouched; nothing owed. The two input windows read ONE array: each holds a half of
    its full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- The shares of the two windows on the shared array. -/
theorem q4_0 (c : Dev nD) : (dat4 V c).q 0 = fullShare.left := by dsimp only [dat4]
theorem q4_1 (c : Dev nD) : (dat4 V c).q 1 = fullShare.right := by dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's entry and exit, the arrays' part -/

/-- ENTRY: a core's unscoped buffers at `V c` are the region's arrays at the proof data's entry contents and the rest. -/
theorem hentry4 (c : Dev nD) :
    (unscopedBufs c (V c) : sProp 𝕄) ⊢ iprop((dat4 V c).arrays ((dat4 V c).arrAt · 0) ∗ Pipeline.unscopedRest spec4 c (V c)) :=
  arrays4_of_unscopedBufs (dat4 V c) (q4_0 V c) (q4_1 V c) (V c) (A_eq4 V c)

/-- EXIT: the region's arrays at what the pipeline leaves and the rest at `V c` are the core's unscoped buffers at any
    contents `V'` that has the arrays at what the pipeline leaves and agrees with `V c` off them. -/
theorem hexit4 (c : Dev nD) (V' : (b : Ref sig .tc) → Buf (Elt F) ((c : Thread nD τ).loc b))
    (hG : ∀ w, (dat4 V c).arrAt w cfg4.N = V' (Pipeline.arrRef spec4 w))
    (hrest : ∀ b, b ∉ Finset.univ.image (Pipeline.arrRef spec4) → V' b = V c b) :
    iprop((dat4 V c).arrays ((dat4 V c).arrAt · cfg4.N) ∗ Pipeline.unscopedRest spec4 c (V c)) ⊢ (unscopedBufs c V' : sProp 𝕄) :=
  unscopedBufs_of_arrays4 (dat4 V c) (q4_0 V c) (q4_1 V c) (V c) V' ((dat4 V c).arrAt · cfg4.N) hG hrest

/-- The two windows on the shared array end at the contents it entered with. -/
theorem arrAt4_0 (c : Dev nD) (n : Nat) : (dat4 V c).arrAt 0 n = V c main_v55 := ((dat4 V c).arrAt_in 0 rfl n).trans (A_eq4 V c 0)
theorem arrAt4_1 (c : Dev nD) (n : Nat) : (dat4 V c).arrAt 1 n = V c main_v55 := ((dat4 V c).arrAt_in 1 rfl n).trans (A_eq4 V c 1)

end Region

end Cert.Kernel.Hand
-- ==== Proof.K.Run.lean ====
/-
  The run of the whole program: five kernel regions among seven stretches of host operations.

  Between two items of @main every unscoped buffer of a core is held whole at known contents: the launch memory, then,
  item by item, what a stretch of host operations computes from the contents before it, and what a kernel region
  leaves — its output array at what the grid's write-backs add up to, every other buffer as the region found it.
  Each region is entered from that state and left at the next; the last state, read against the final memory, gives
  every buffer's final contents at once — the arguments unchanged (no item writes one) and the results at the last
  contents of their buffers.
-/
import proofs.«155600_j21663815041514_2_alg».proof.Proof.Gen.Kernel.Launch
import proofs.«155600_j21663815041514_2_alg».proof.Proof.Gen.Kernel.Skeleton
import proofs.«155600_j21663815041514_2_alg».proof.Proof.Gen.Kernel.Points
import proofs.«155600_j21663815041514_2_alg».proof.Proof.Gen.Kernel.Regions
import proofs.«155600_j21663815041514_2_alg».proof.Proof.K.Reg0
import proofs.«155600_j21663815041514_2_alg».proof.Proof.K.Reg1
import proofs.«155600_j21663815041514_2_alg».proof.Proof.K.Reg2
import proofs.«155600_j21663815041514_2_alg».proof.Proof.K.Reg3
import proofs.«155600_j21663815041514_2_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- After region 0: its arrays at what the pipeline leaves, every other buffer as the region found it. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- The same read at the TensorCore's references. -/
abbrev V5 : (c : Dev nD) → (b : Ref sig .tc) → Buf (Elt F) ((c : Thread nD τ).loc b) := fun c b => W5 m ρ c b
/-- After region 1: its arrays at what the pipeline leaves, every other buffer as the region found it. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b
/-- After region 2: its arrays at what the pipeline leaves, every other buffer as the region found it. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- The same read at the TensorCore's references. -/
abbrev V9 : (c : Dev nD) → (b : Ref sig .tc) → Buf (Elt F) ((c : Thread nD τ).loc b) := fun c b => W9 m ρ c b
/-- After region 3: its arrays at what the pipeline leaves, every other buffer as the region found it. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- The same read at the TensorCore's references. -/
abbrev V11 : (c : Dev nD) → (b : Ref sig .tc) → Buf (Elt F) ((c : Thread nD τ).loc b) := fun c b => W11 m ρ c b
/-- After region 4: the decoded matrix's buffer at what the pipeline leaves, every other buffer as the region found it
    (its two input windows read one array and write nothing back). -/
def W12 (c : Dev nD) : Valuation τ sig (Elt F) :=
  Function.update (W11 m ρ c) (Proc.devRef .tc main_v57) ((dat4 (V11 m ρ) c).arrAt 2 cfg4.N)
theorem W12_out (c : Dev nD) : W12 m ρ c (Proc.devRef .tc main_v57) = (dat4 (V11 m ρ) c).arrAt 2 cfg4.N := by
  unfold W12; exact Function.update_self _ _ _
theorem W12_of_ne (c : Dev nD) (b : Ref sig .tc) (hb : b ≠ main_v57) :
    W12 m ρ c (Proc.devRef .tc b) = W11 m ρ c (Proc.devRef .tc b) := by
  unfold W12; exact Function.update_of_ne (StableHlo.devRef_ne_of_ne hb) _ _
/-- The same read at the TensorCore's references. -/
abbrev V12 : (c : Dev nD) → (b : Ref sig .tc) → Buf (Elt F) ((c : Thread nD τ).loc b) := fun c b => W12 m ρ c b
/-- At region 4's exit each window's array holds what the pipeline leaves: the two input windows' one array as the region
    found it, the decoded matrix's at the write-backs' sum. -/
theorem hG4 (c : Dev nD) (w : Fin cfg4.W) : (dat4 (V11 m ρ) c).arrAt w cfg4.N = V12 m ρ c (Pipeline.arrRef spec4 w) := by
  match w with
  | ⟨0, _⟩ => exact (((dat4 (V11 m ρ) c).arrAt_in 0 rfl _).trans (A_eq4 (V11 m ρ) c 0)).trans (W12_of_ne m ρ c main_v55 (by decide)).symm
  | ⟨1, _⟩ => exact (((dat4 (V11 m ρ) c).arrAt_in 1 rfl _).trans (A_eq4 (V11 m ρ) c 1)).trans (W12_of_ne m ρ c main_v55 (by decide)).symm
  | ⟨2, _⟩ => exact (W12_out m ρ c).symm
theorem hrest4 (c : Dev nD) : ∀ b, b ∉ Finset.univ.image (Pipeline.arrRef spec4) → V12 m ρ c b = V11 m ρ c b :=
  fun b hb => W12_of_ne m ρ c b (by rintro rfl; exact hb (Finset.mem_image.mpr ⟨2, Finset.mem_univ _, rfl⟩))

/-! ## The arguments end as launched

No host operation and no region writes an argument (a region reads one through an input window or not at all), so the
contents at an argument's buffer walk back to the launch memory. -/

theorem W12_main_arg0 (c : Dev nD) : W12 m ρ c (Proc.devRef .tc main_arg0) = m ((c : Thread nD τ).loc main_arg0) :=
  (W12_of_ne m ρ c main_arg0 (by decide)).trans <|
  ((StableHlo.after_of_writes_sub hostOps4 (W10 m ρ c) hostOps4_writes (by decide) : W11 m ρ c (Proc.devRef .tc main_arg0) = W10 m ρ c (Proc.devRef .tc main_arg0))).trans <|
  (W10_of_ne m ρ c main_arg0 (by decide)).trans <|
  ((StableHlo.after_of_writes_sub hostOps3 (W8 m ρ c) hostOps3_writes (by decide) : W9 m ρ c (Proc.devRef .tc main_arg0) = W8 m ρ c (Proc.devRef .tc main_arg0))).trans <|
  (W8_of_ne m ρ c main_arg0 (by decide)).trans <|
  ((StableHlo.after_of_writes_sub hostOps2 (W6 m ρ c) hostOps2_writes (by decide) : W7 m ρ c (Proc.devRef .tc main_arg0) = W6 m ρ c (Proc.devRef .tc main_arg0))).trans <|
  (W6_of_ne m ρ c main_arg0 (by decide)).trans <|
  ((StableHlo.after_of_writes_sub hostOps1 (W4 m ρ c) hostOps1_writes (by decide) : W5 m ρ c (Proc.devRef .tc main_arg0) = W4 m ρ c (Proc.devRef .tc main_arg0))).trans <|
  (W4_of_ne m ρ c main_arg0 (by decide)).trans <|
  ((StableHlo.after_of_writes_sub hostOps0_2 (W2 m ρ c) hostOps0_2_writes (by decide) : W3 m ρ c (Proc.devRef .tc main_arg0) = W2 m ρ c (Proc.devRef .tc main_arg0))).trans <|
  ((StableHlo.after_of_writes_sub hostOps0_1 (W1 m ρ c) hostOps0_1_writes (by decide) : W2 m ρ c (Proc.devRef .tc main_arg0) = W1 m ρ c (Proc.devRef .tc main_arg0))).trans <|
  ((StableHlo.after_of_writes_sub hostOps0 (W0 m ρ c) hostOps0_writes (by decide) : W1 m ρ c (Proc.devRef .tc main_arg0) = W0 m ρ c (Proc.devRef .tc main_arg0))).trans <| rfl
theorem W12_main_arg1 (c : Dev nD) : W12 m ρ c (Proc.devRef .tc main_arg1) = m ((c : Thread nD τ).loc main_arg1) :=
  (W12_of_ne m ρ c main_arg1 (by decide)).trans <|
  ((StableHlo.after_of_writes_sub hostOps4 (W10 m ρ c) hostOps4_writes (by decide) : W11 m ρ c (Proc.devRef .tc main_arg1) = W10 m ρ c (Proc.devRef .tc main_arg1))).trans <|
  (W10_of_ne m ρ c main_arg1 (by decide)).trans <|
  ((StableHlo.after_of_writes_sub hostOps3 (W8 m ρ c) hostOps3_writes (by decide) : W9 m ρ c (Proc.devRef .tc main_arg1) = W8 m ρ c (Proc.devRef .tc main_arg1))).trans <|
  (W8_of_ne m ρ c main_arg1 (by decide)).trans <|
  ((StableHlo.after_of_writes_sub hostOps2 (W6 m ρ c) hostOps2_writes (by decide) : W7 m ρ c (Proc.devRef .tc main_arg1) = W6 m ρ c (Proc.devRef .tc main_arg1))).trans <|
  (W6_of_ne m ρ c main_arg1 (by decide)).trans <|
  ((StableHlo.after_of_writes_sub hostOps1 (W4 m ρ c) hostOps1_writes (by decide) : W5 m ρ c (Proc.devRef .tc main_arg1) = W4 m ρ c (Proc.devRef .tc main_arg1))).trans <|
  ((W4_arr m ρ c 0).trans (((dat0 (V3 m ρ) c).arrAt_in 0 rfl _).trans (A_eq0 (V3 m ρ) c 0))).trans <|
  ((StableHlo.after_of_writes_sub hostOps0_2 (W2 m ρ c) hostOps0_2_writes (by decide) : W3 m ρ c (Proc.devRef .tc main_arg1) = W2 m ρ c (Proc.devRef .tc main_arg1))).trans <|
  ((StableHlo.after_of_writes_sub hostOps0_1 (W1 m ρ c) hostOps0_1_writes (by decide) : W2 m ρ c (Proc.devRef .tc main_arg1) = W1 m ρ c (Proc.devRef .tc main_arg1))).trans <|
  ((StableHlo.after_of_writes_sub hostOps0 (W0 m ρ c) hostOps0_writes (by decide) : W1 m ρ c (Proc.devRef .tc main_arg1) = W0 m ρ c (Proc.devRef .tc main_arg1))).trans <| rfl
theorem W12_main_arg2 (c : Dev nD) : W12 m ρ c (Proc.devRef .tc main_arg2) = m ((c : Thread nD τ).loc main_arg2) :=
  (W12_of_ne m ρ c main_arg2 (by decide)).trans <|
  ((StableHlo.after_of_writes_sub hostOps4 (W10 m ρ c) hostOps4_writes (by decide) : W11 m ρ c (Proc.devRef .tc main_arg2) = W10 m ρ c (Proc.devRef .tc main_arg2))).trans <|
  (W10_of_ne m ρ c main_arg2 (by decide)).trans <|
  ((StableHlo.after_of_writes_sub hostOps3 (W8 m ρ c) hostOps3_writes (by decide) : W9 m ρ c (Proc.devRef .tc main_arg2) = W8 m ρ c (Proc.devRef .tc main_arg2))).trans <|
  (W8_of_ne m ρ c main_arg2 (by decide)).trans <|
  ((StableHlo.after_of_writes_sub hostOps2 (W6 m ρ c) hostOps2_writes (by decide) : W7 m ρ c (Proc.devRef .tc main_arg2) = W6 m ρ c (Proc.devRef .tc main_arg2))).trans <|
  (W6_of_ne m ρ c main_arg2 (by decide)).trans <|
  ((StableHlo.after_of_writes_sub hostOps1 (W4 m ρ c) hostOps1_writes (by decide) : W5 m ρ c (Proc.devRef .tc main_arg2) = W4 m ρ c (Proc.devRef .tc main_arg2))).trans <|
  ((W4_arr m ρ c 1).trans (((dat0 (V3 m ρ) c).arrAt_in 1 rfl _).trans (A_eq0 (V3 m ρ) c 1))).trans <|
  ((StableHlo.after_of_writes_sub hostOps0_2 (W2 m ρ c) hostOps0_2_writes (by decide) : W3 m ρ c (Proc.devRef .tc main_arg2) = W2 m ρ c (Proc.devRef .tc main_arg2))).trans <|
  ((StableHlo.after_of_writes_sub hostOps0_1 (W1 m ρ c) hostOps0_1_writes (by decide) : W2 m ρ c (Proc.devRef .tc main_arg2) = W1 m ρ c (Proc.devRef .tc main_arg2))).trans <|
  ((StableHlo.after_of_writes_sub hostOps0 (W0 m ρ c) hostOps0_writes (by decide) : W1 m ρ c (Proc.devRef .tc main_arg2) = W0 m ρ c (Proc.devRef .tc main_arg2))).trans <| rfl
theorem W12_main_arg3 (c : Dev nD) : W12 m ρ c (Proc.devRef .tc main_arg3) = m ((c : Thread nD τ).loc main_arg3) :=
  (W12_of_ne m ρ c main_arg3 (by decide)).trans <|
  ((StableHlo.after_of_writes_sub hostOps4 (W10 m ρ c) hostOps4_writes (by decide) : W11 m ρ c (Proc.devRef .tc main_arg3) = W10 m ρ c (Proc.devRef .tc main_arg3))).trans <|
  (W10_of_ne m ρ c main_arg3 (by decide)).trans <|
  ((StableHlo.after_of_writes_sub hostOps3 (W8 m ρ c) hostOps3_writes (by decide) : W9 m ρ c (Proc.devRef .tc main_arg3) = W8 m ρ c (Proc.devRef .tc main_arg3))).trans <|
  (W8_of_ne m ρ c main_arg3 (by decide)).trans <|
  ((StableHlo.after_of_writes_sub hostOps2 (W6 m ρ c) hostOps2_writes (by decide) : W7 m ρ c (Proc.devRef .tc main_arg3) = W6 m ρ c (Proc.devRef .tc main_arg3))).trans <|
  (W6_of_ne m ρ c main_arg3 (by decide)).trans <|
  ((StableHlo.after_of_writes_sub hostOps1 (W4 m ρ c) hostOps1_writes (by decide) : W5 m ρ c (Proc.devRef .tc main_arg3) = W4 m ρ c (Proc.devRef .tc main_arg3))).trans <|
  (W4_of_ne m ρ c main_arg3 (by decide)).trans <|
  ((StableHlo.after_of_writes_sub hostOps0_2 (W2 m ρ c) hostOps0_2_writes (by decide) : W3 m ρ c (Proc.devRef .tc main_arg3) = W2 m ρ c (Proc.devRef .tc main_arg3))).trans <|
  ((StableHlo.after_of_writes_sub hostOps0_1 (W1 m ρ c) hostOps0_1_writes (by decide) : W2 m ρ c (Proc.devRef .tc main_arg3) = W1 m ρ c (Proc.devRef .tc main_arg3))).trans <|
  ((StableHlo.after_of_writes_sub hostOps0 (W0 m ρ c) hostOps0_writes (by decide) : W1 m ρ c (Proc.devRef .tc main_arg3) = W0 m ρ c (Proc.devRef .tc main_arg3))).trans <| rfl
theorem W12_main_arg4 (c : Dev nD) : W12 m ρ c (Proc.devRef .tc main_arg4) = m ((c : Thread nD τ).loc main_arg4) :=
  (W12_of_ne m ρ c main_arg4 (by decide)).trans <|
  ((StableHlo.after_of_writes_sub hostOps4 (W10 m ρ c) hostOps4_writes (by decide) : W11 m ρ c (Proc.devRef .tc main_arg4) = W10 m ρ c (Proc.devRef .tc main_arg4))).trans <|
  (W10_of_ne m ρ c main_arg4 (by decide)).trans <|
  ((StableHlo.after_of_writes_sub hostOps3 (W8 m ρ c) hostOps3_writes (by decide) : W9 m ρ c (Proc.devRef .tc main_arg4) = W8 m ρ c (Proc.devRef .tc main_arg4))).trans <|
  (W8_of_ne m ρ c main_arg4 (by decide)).trans <|
  ((StableHlo.after_of_writes_sub hostOps2 (W6 m ρ c) hostOps2_writes (by decide) : W7 m ρ c (Proc.devRef .tc main_arg4) = W6 m ρ c (Proc.devRef .tc main_arg4))).trans <|
  (W6_of_ne m ρ c main_arg4 (by decide)).trans <|
  ((StableHlo.after_of_writes_sub hostOps1 (W4 m ρ c) hostOps1_writes (by decide) : W5 m ρ c (Proc.devRef .tc main_arg4) = W4 m ρ c (Proc.devRef .tc main_arg4))).trans <|
  (W4_of_ne m ρ c main_arg4 (by decide)).trans <|
  ((StableHlo.after_of_writes_sub hostOps0_2 (W2 m ρ c) hostOps0_2_writes (by decide) : W3 m ρ c (Proc.devRef .tc main_arg4) = W2 m ρ c (Proc.devRef .tc main_arg4))).trans <|
  ((StableHlo.after_of_writes_sub hostOps0_1 (W1 m ρ c) hostOps0_1_writes (by decide) : W2 m ρ c (Proc.devRef .tc main_arg4) = W1 m ρ c (Proc.devRef .tc main_arg4))).trans <|
  ((StableHlo.after_of_writes_sub hostOps0 (W0 m ρ c) hostOps0_writes (by decide) : W1 m ρ c (Proc.devRef .tc main_arg4) = W0 m ρ c (Proc.devRef .tc main_arg4))).trans <| rfl
theorem W12_main_arg5 (c : Dev nD) : W12 m ρ c (Proc.devRef .tc main_arg5) = m ((c : Thread nD τ).loc main_arg5) :=
  (W12_of_ne m ρ c main_arg5 (by decide)).trans <|
  ((StableHlo.after_of_writes_sub hostOps4 (W10 m ρ c) hostOps4_writes (by decide) : W11 m ρ c (Proc.devRef .tc main_arg5) = W10 m ρ c (Proc.devRef .tc main_arg5))).trans <|
  (W10_of_ne m ρ c main_arg5 (by decide)).trans <|
  ((StableHlo.after_of_writes_sub hostOps3 (W8 m ρ c) hostOps3_writes (by decide) : W9 m ρ c (Proc.devRef .tc main_arg5) = W8 m ρ c (Proc.devRef .tc main_arg5))).trans <|
  (W8_of_ne m ρ c main_arg5 (by decide)).trans <|
  ((StableHlo.after_of_writes_sub hostOps2 (W6 m ρ c) hostOps2_writes (by decide) : W7 m ρ c (Proc.devRef .tc main_arg5) = W6 m ρ c (Proc.devRef .tc main_arg5))).trans <|
  (W6_of_ne m ρ c main_arg5 (by decide)).trans <|
  ((StableHlo.after_of_writes_sub hostOps1 (W4 m ρ c) hostOps1_writes (by decide) : W5 m ρ c (Proc.devRef .tc main_arg5) = W4 m ρ c (Proc.devRef .tc main_arg5))).trans <|
  (W4_of_ne m ρ c main_arg5 (by decide)).trans <|
  ((StableHlo.after_of_writes_sub hostOps0_2 (W2 m ρ c) hostOps0_2_writes (by decide) : W3 m ρ c (Proc.devRef .tc main_arg5) = W2 m ρ c (Proc.devRef .tc main_arg5))).trans <|
  ((StableHlo.after_of_writes_sub hostOps0_1 (W1 m ρ c) hostOps0_1_writes (by decide) : W2 m ρ c (Proc.devRef .tc main_arg5) = W1 m ρ c (Proc.devRef .tc main_arg5))).trans <|
  ((StableHlo.after_of_writes_sub hostOps0 (W0 m ρ c) hostOps0_writes (by decide) : W1 m ρ c (Proc.devRef .tc main_arg5) = W0 m ρ c (Proc.devRef .tc main_arg5))).trans <| rfl
theorem W12_main_arg6 (c : Dev nD) : W12 m ρ c (Proc.devRef .tc main_arg6) = m ((c : Thread nD τ).loc main_arg6) :=
  (W12_of_ne m ρ c main_arg6 (by decide)).trans <|
  ((StableHlo.after_of_writes_sub hostOps4 (W10 m ρ c) hostOps4_writes (by decide) : W11 m ρ c (Proc.devRef .tc main_arg6) = W10 m ρ c (Proc.devRef .tc main_arg6))).trans <|
  (W10_of_ne m ρ c main_arg6 (by decide)).trans <|
  ((StableHlo.after_of_writes_sub hostOps3 (W8 m ρ c) hostOps3_writes (by decide) : W9 m ρ c (Proc.devRef .tc main_arg6) = W8 m ρ c (Proc.devRef .tc main_arg6))).trans <|
  (W8_of_ne m ρ c main_arg6 (by decide)).trans <|
  ((StableHlo.after_of_writes_sub hostOps2 (W6 m ρ c) hostOps2_writes (by decide) : W7 m ρ c (Proc.devRef .tc main_arg6) = W6 m ρ c (Proc.devRef .tc main_arg6))).trans <|
  (W6_of_ne m ρ c main_arg6 (by decide)).trans <|
  ((StableHlo.after_of_writes_sub hostOps1 (W4 m ρ c) hostOps1_writes (by decide) : W5 m ρ c (Proc.devRef .tc main_arg6) = W4 m ρ c (Proc.devRef .tc main_arg6))).trans <|
  (W4_of_ne m ρ c main_arg6 (by decide)).trans <|
  ((StableHlo.after_of_writes_sub hostOps0_2 (W2 m ρ c) hostOps0_2_writes (by decide) : W3 m ρ c (Proc.devRef .tc main_arg6) = W2 m ρ c (Proc.devRef .tc main_arg6))).trans <|
  ((StableHlo.after_of_writes_sub hostOps0_1 (W1 m ρ c) hostOps0_1_writes (by decide) : W2 m ρ c (Proc.devRef .tc main_arg6) = W1 m ρ c (Proc.devRef .tc main_arg6))).trans <|
  ((StableHlo.after_of_writes_sub hostOps0 (W0 m ρ c) hostOps0_writes (by decide) : W1 m ρ c (Proc.devRef .tc main_arg6) = W0 m ρ c (Proc.devRef .tc main_arg6))).trans <| rfl
theorem W12_main_arg7 (c : Dev nD) : W12 m ρ c (Proc.devRef .tc main_arg7) = m ((c : Thread nD τ).loc main_arg7) :=
  (W12_of_ne m ρ c main_arg7 (by decide)).trans <|
  ((StableHlo.after_of_writes_sub hostOps4 (W10 m ρ c) hostOps4_writes (by decide) : W11 m ρ c (Proc.devRef .tc main_arg7) = W10 m ρ c (Proc.devRef .tc main_arg7))).trans <|
  (W10_of_ne m ρ c main_arg7 (by decide)).trans <|
  ((StableHlo.after_of_writes_sub hostOps3 (W8 m ρ c) hostOps3_writes (by decide) : W9 m ρ c (Proc.devRef .tc main_arg7) = W8 m ρ c (Proc.devRef .tc main_arg7))).trans <|
  (W8_of_ne m ρ c main_arg7 (by decide)).trans <|
  ((StableHlo.after_of_writes_sub hostOps2 (W6 m ρ c) hostOps2_writes (by decide) : W7 m ρ c (Proc.devRef .tc main_arg7) = W6 m ρ c (Proc.devRef .tc main_arg7))).trans <|
  (W6_of_ne m ρ c main_arg7 (by decide)).trans <|
  ((StableHlo.after_of_writes_sub hostOps1 (W4 m ρ c) hostOps1_writes (by decide) : W5 m ρ c (Proc.devRef .tc main_arg7) = W4 m ρ c (Proc.devRef .tc main_arg7))).trans <|
  (W4_of_ne m ρ c main_arg7 (by decide)).trans <|
  ((StableHlo.after_of_writes_sub hostOps0_2 (W2 m ρ c) hostOps0_2_writes (by decide) : W3 m ρ c (Proc.devRef .tc main_arg7) = W2 m ρ c (Proc.devRef .tc main_arg7))).trans <|
  ((StableHlo.after_of_writes_sub hostOps0_1 (W1 m ρ c) hostOps0_1_writes (by decide) : W2 m ρ c (Proc.devRef .tc main_arg7) = W1 m ρ c (Proc.devRef .tc main_arg7))).trans <|
  ((StableHlo.after_of_writes_sub hostOps0 (W0 m ρ c) hostOps0_writes (by decide) : W1 m ρ c (Proc.devRef .tc main_arg7) = W0 m ρ c (Proc.devRef .tc main_arg7))).trans <| rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V5 m ρ) c
  hout c := hout1 (V5 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split out
    of the unscoped buffers and put back at the exit contents; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V9 m ρ) c
  hout c := hout3 (V9 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12` (what the launch reads at the
    end). Its two input windows read ONE array, each at its own share of it; the decoded matrix's array is the third window's. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := hentry4 (V11 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := hexit4 (V11 m ρ) c (V12 m ρ c) (hG4 m ρ c) (hrest4 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's 12 items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state every unscoped buffer of every core holds the last contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c)⟩) (run_all m ρ)

end Cert.Kernel.Hand

end
-- ==== Proof.KI.Reg0.lean ====
/- REGION 0 of the program: the matrix product of a row block of the left array with the whole right array, one
   row block per grid point. Stated at a parameter `V`, the core's buffer contents when the region is entered: each
   window's block at a point, what the body leaves in the output window's buffer, the body's triple, the pipeline's
   proof data and the body obligation at every point. Generic in the number type. -/
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left array's row block) holds its block at every point, fetched there or not, for any proof
    data whose array is `V`'s (`hA`) and whose body leaves the block in place (`hafter`): where it is not fetched the
    block index has not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole right array, the same block at every point: fetched at the first point only) holds its
    block at every point, by the same argument. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2048x512 := Rect.unit (s := S2048x512) ![0, 0] S2048x512.size inb_S2048x512_S2048x512_0_0
abbrev r0_1 : Rect S512x512 := Rect.unit (s := S512x512) ![0, 0] S512x512.size inb_S512x512_S512x512_0_0
abbrev r0_2 : Rect S2048x512 := Rect.unit (s := S2048x512) ![0, 0] S2048x512.size inb_S2048x512_S2048x512_0_0

/-! ## What the body leaves in the output window's buffer -/

/-- Window 2's buffer after the body, from the input windows' blocks: its one store, of the product of the two
    blocks read, as a piece covering the buffer. -/
def out0_2 (x0 : Vec F S2048x512 .f32) (x1 : Vec F S512x512 .f32) : Vec F S2048x512 .f32 :=
  View.canon [⟨r0_2, k0_pay1 (View.ld x0 r0_0) (View.ld x1 r0_1)⟩]

/-- The store's rectangle is the whole buffer, so it covers it. -/
theorem cover0_2 (p0 : Vec F S2048x512 .f32) (y : S2048x512.Idx) :
    ∃ pc ∈ ([⟨r0_2, p0⟩] : List (View.Piece (Elt F) S2048x512 .f32)), y ∈ pc.1.set :=
  View.cover_of_tiled [⟨r0_2, p0⟩] S2048x512.size (by rfl) y

/-! ## The body's triple -/

set_option maxHeartbeats 1000000 in
/-- The body on whole buffers, the inputs' at contents `x0`, `x1` and the output's at anything, runs to the continuation
    holding the inputs' as they were and the output's at `out0_2 x0 x1`. The body reads the output buffer before
    storing to it; the value read is not used. -/
theorem sound_kernel0 (c : Dev nD) (E : Set ℕ) (i : grid0.Coords) (arg0 : Memref sig .tc .vmem S2048x512 .f32) (harg0 : arg0.IsWhole) (arg1 : Memref sig .tc .vmem S512x512 .f32) (harg1 : arg1.IsWhole) (arg2 : Memref sig .tc .vmem S2048x512 .f32) (harg2 : arg2.IsWhole)
    (x0 : Vec F S2048x512 .f32) (x1 : Vec F S512x512 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point `t`
    each input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the aggregation kernel on the grid (8, 8)

The block row `i` of the output is the sum over the eight column blocks `k` of the products of the blocks
`(i, k)` of the left operand with the row blocks `k` of the right operand, accumulated in a scratch buffer that
is reset at `k = 0`; at `k = 7` the row vector is added and the result stored. -/

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, in closed form over the grid -/

/-- The condition of the first conditional: the column coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the second conditional: the column coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last column the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- On the last column it is live. -/
theorem liveAt1_3 : ∀ t : Fin cfg1.N, cond1_1 (grid1.coords t) → cfg1.idle 3 (grid1.coords t) = false := by decide +kernel

/-! ## The staging memrefs and the scratch -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
/-- The accumulator: a whole scoped buffer passed beside the windows. -/
abbrev scM1 : Memref sig .tc .vmem S1024x512 .f32 := Memref.whole cc1_scratch0

/-- The class invariant with the accumulator split off at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's triple, case by case -/

theorem zeroOff1 : (![0, 0] : Fin 2 → Nat) = fun _ => 0 := funext fun a => by fin_cases a <;> rfl

set_option maxHeartbeats 1000000 in
/-- First column, not the last: the accumulator is reset, then holds the product of the two blocks added to the
    zero block; the output window is handed back untouched. -/
theorem run1_A (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x1024 .f32) (x1 : Vec F S1024x512 .f32) (x2 : Vec F S1x512 .f32) (xi3 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1, View.readCov_unit_zero _ zeroOff1]
  simp only [View.readAt_eq_ld, View.ld_unit_zero (S := S1024x1024) zeroOff1, View.ld_unit_zero (S := S1024x512) zeroOff1, View.ld_unit_zero (S := S1x512) zeroOff1]

set_option maxHeartbeats 1000000 in
/-- Neither the first column nor the last: the product of the two blocks is added to the accumulator; the output
    window is handed back untouched. -/
theorem run1_B (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x1024 .f32) (x1 : Vec F S1024x512 .f32) (x2 : Vec F S1x512 .f32) (xi3 : Vec F S1024x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1]
  simp only [View.readAt_eq_ld, View.ld_unit_zero (S := S1024x1024) zeroOff1, View.ld_unit_zero (S := S1024x512) zeroOff1, View.ld_unit_zero (S := S1x512) zeroOff1]

set_option maxHeartbeats 1000000 in
/-- The last column: the product of the two blocks is added to the accumulator, and the output window receives
    the maximum with zero of the accumulator with the row vector added to every row. -/
theorem run1_C (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x1024 .f32) (x1 : Vec F S1024x512 .f32) (x2 : Vec F S1x512 .f32) (xs : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff1 inb_S1024x512_S1024x512_0_0 y⟩)]
    rw [View.canon_cons_unit_zero zeroOff1, View.readCov_unit_zero _ zeroOff1]
    simp only [View.readAt_eq_ld, View.ld_unit_zero (S := S1024x1024) zeroOff1, View.ld_unit_zero (S := S1024x512) zeroOff1, View.ld_unit_zero (S := S1x512) zeroOff1]
  iexists _; isplitr
  swap; · iexact HS
  ipureintro
  sl_unfold_words
  rw [View.read_writes_eq_canon _ _ _ (fun y => ⟨_, List.mem_cons.mpr (Or.inl rfl), View.mem_set_unit_zero zeroOff1 inb_S1024x512_S1024x512_0_0 y⟩)]
  rw [View.canon_cons_unit_zero zeroOff1]
  simp only [View.readAt_eq_ld, View.ld_unit_zero (S := S1024x1024) zeroOff1, View.ld_unit_zero (S := S1024x512) zeroOff1, View.ld_unit_zero (S := S1x512) zeroOff1]

/-! ## The accumulator, point by point -/

/-- What the accumulator holds after the body at position `n`: on a first column the product of the point's two
    blocks added to the zero block, elsewhere added to what the point before left. -/
def acc1 (c : Dev nD) : (n : ℕ) → n < cfg1.N → Vec F S1024x512 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class invariant (the accumulator at anything);
    afterwards the accumulator at what the point before left, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1 fullShare (acc1 V c n hn)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1 fullShare (acc1 V c (n - 1) (by omega))) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data on core `c`: the arrays as the region finds them; after the body each input's buffer at its
    block and the output's at the accumulator with the row vector added (consulted on the last column only: elsewhere
    the window is idle); the invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in;
    the invariant hands the body the accumulator at what the point before left (at anything at the very first point)
    and takes it back at this point's contents; off the last column the output window goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [acc1_next V c t h0]
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 8 = 0
    · rw [acc1_first V c t h0]
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc1_next V c t h0]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with is the invariant before the first point. -/
theorem hin1 (c : Dev nD) :
    iprop((∃ r, prngReg c r) ∗ Pipeline.prefHeld (pcfgs (F := F) 1).pre c (fun _ => fullShare) ((cfgs 1).toPCfg_adm).1 ∗ Pipeline.scopedRest spec1 c)
      ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives the scoped buffers back, the accumulator's contents forgotten. -/
theorem hout1 (c : Dev nD) :
    (dat1 V c).Φ (Fin.last cfg1.N)
      ⊢ iprop((∃ r, prngReg c r) ∗ Pipeline.ownSems0 (fun k : PEmpty => k.elim) c ∗ Pipeline.scopedRest spec1 c) := by
  have hne : (Fin.last cfg1.N).val ≠ 0 := by rw [Fin.val_last]; have : cfg1.N = 64 := N_1; omega
  rw [Pipeline.ownSems0_none, show (dat1 V c).Φ (Fin.last cfg1.N) = PhiS1 V c (Fin.last cfg1.N).val (Nat.le_of_lt_succ (Fin.last cfg1.N).isLt) from rfl,
    PhiS1_pos V c _ _ hne]
  rw [scopedRest1_split]
  simp only [scM1, owns_whole]
  iintro ⟨⟨HS, Hrest⟩, Hg⟩
  isplitl [Hg]; · iexact Hg
  isplitr; · iempintro
  isplitl [HS]; · iexists _; iexact HS
  iexact Hrest

end Cert.KernelIdeal.Hand

end
-- ==== Proof.KI.Reg2.lean ====
/- REGION 2 of the program: the matrix product of a row block of the left array with the whole right array, one
   row block per grid point. Stated at a parameter `V`, the core's buffer contents when the region is entered: each
   window's block at a point, what the body leaves in the output window's buffer, the body's triple, the pipeline's
   proof data and the body obligation at every point. Generic in the number type. -/
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left array's row block) holds its block at every point, fetched there or not, for any proof
    data whose array is `V`'s (`hA`) and whose body leaves the block in place (`hafter`): where it is not fetched the
    block index has not moved. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (the whole right array, the same block at every point: fetched at the first point only) holds its
    block at every point, by the same argument. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2048x512 := Rect.unit (s := S2048x512) ![0, 0] S2048x512.size inb_S2048x512_S2048x512_0_0
abbrev r2_1 : Rect S512x256 := Rect.unit (s := S512x256) ![0, 0] S512x256.size inb_S512x256_S512x256_0_0
abbrev r2_2 : Rect S2048x256 := Rect.unit (s := S2048x256) ![0, 0] S2048x256.size inb_S2048x256_S2048x256_0_0

/-! ## What the body leaves in the output window's buffer -/

/-- Window 2's buffer after the body, from the input windows' blocks: its one store, of the product of the two
    blocks read, as a piece covering the buffer. -/
def out2_2 (x0 : Vec F S2048x512 .f32) (x1 : Vec F S512x256 .f32) : Vec F S2048x256 .f32 :=
  View.canon [⟨r2_2, k2_pay1 (View.ld x0 r2_0) (View.ld x1 r2_1)⟩]

/-- The store's rectangle is the whole buffer, so it covers it. -/
theorem cover2_2 (p0 : Vec F S2048x256 .f32) (y : S2048x256.Idx) :
    ∃ pc ∈ ([⟨r2_2, p0⟩] : List (View.Piece (Elt F) S2048x256 .f32)), y ∈ pc.1.set :=
  View.cover_of_tiled [⟨r2_2, p0⟩] S2048x256.size (by rfl) y

/-! ## The body's triple -/

set_option maxHeartbeats 1000000 in
/-- The body on whole buffers, the inputs' at contents `x0`, `x1` and the output's at anything, runs to the continuation
    holding the inputs' as they were and the output's at `out2_2 x0 x1`. The body reads the output buffer before
    storing to it; the value read is not used. -/
theorem sound_kernel2 (c : Dev nD) (E : Set ℕ) (i : grid2.Coords) (arg0 : Memref sig .tc .vmem S2048x512 .f32) (harg0 : arg0.IsWhole) (arg1 : Memref sig .tc .vmem S512x256 .f32) (harg1 : arg1.IsWhole) (arg2 : Memref sig .tc .vmem S2048x256 .f32) (harg2 : arg2.IsWhole)
    (x0 : Vec F S2048x512 .f32) (x1 : Vec F S512x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them (`V`); after the body at point `t`
    each input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks (`before2_W`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: the aggregation kernel on the grid (8, 8)

The block row `i` of the output is the sum over the eight column blocks `k` of the products of the blocks
`(i, k)` of the left operand with the row blocks `k` of the right operand, accumulated in a scratch buffer that
is reset at `k = 0`; at `k = 7` the row vector is added and the result stored. -/

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions, in closed form over the grid -/

/-- The condition of the first conditional: the column coordinate is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The condition of the second conditional: the column coordinate is the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last column the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- On the last column it is live. -/
theorem liveAt3_3 : ∀ t : Fin cfg3.N, cond3_1 (grid3.coords t) → cfg3.idle 3 (grid3.coords t) = false := by decide +kernel

/-! ## The staging memrefs and the scratch -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x256 .f32 := win3_3.stage (cfg3.slots t 3)
abbrev hs3_3 (t : Fin cfg3.N) : (ms3_3 t).IsWhole := hstage3_3 ((cfg3.slots t 3).cast nbuf3_3)
/-- The accumulator: a whole scoped buffer passed beside the windows. -/
abbrev scM3 : Memref sig .tc .vmem S1024x256 .f32 := Memref.whole cc3_scratch0

/-- The class invariant with the accumulator split off at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

theorem zeroOff3 : (![0, 0] : Fin 2 → Nat) = fun _ => 0 := funext fun a => by fin_cases a <;> rfl

set_option maxHeartbeats 1000000 in
/-- First column, not the last: the accumulator is reset, then holds the product of the two blocks added to the
    zero block; the output window is handed back untouched. -/
theorem run3_A (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond3_0 i) (hc1 : ¬cond3_1 i)
    (x0 : Vec F S1024x1024 .f32) (x1 : Vec F S1024x256 .f32) (x2 : Vec F S1x256 .f32) (xi3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k3_pay2 x0 x1 (k3_pay1 (F := F)))) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3, View.readCov_unit_zero _ zeroOff3]
  simp only [View.readAt_eq_ld, View.ld_unit_zero (S := S1024x1024) zeroOff3, View.ld_unit_zero (S := S1024x256) zeroOff3, View.ld_unit_zero (S := S1x256) zeroOff3]

set_option maxHeartbeats 1000000 in
/-- Neither the first column nor the last: the product of the two blocks is added to the accumulator; the output
    window is handed back untouched. -/
theorem run3_B (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond3_0 i) (hc1 : ¬cond3_1 i)
    (x0 : Vec F S1024x1024 .f32) (x1 : Vec F S1024x256 .f32) (x2 : Vec F S1x256 .f32) (xi3 : Vec F S1024x256 .f32) (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k3_pay2 x0 x1 xs)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3]
  simp only [View.readAt_eq_ld, View.ld_unit_zero (S := S1024x1024) zeroOff3, View.ld_unit_zero (S := S1024x256) zeroOff3, View.ld_unit_zero (S := S1x256) zeroOff3]

set_option maxHeartbeats 1000000 in
/-- The last column: the product of the two blocks is added to the accumulator, and the output window receives
    the accumulator with the row vector added to every row. -/
theorem run3_C (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond3_0 i) (hc1 : cond3_1 i)
    (x0 : Vec F S1024x1024 .f32) (x1 : Vec F S1024x256 .f32) (x2 : Vec F S1x256 .f32) (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 x0 x1 xs) x2)
            ∗ owns (c : Thread nD τ) arg6 fullShare (k3_pay2 x0 x1 xs)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff3 inb_S1024x256_S1024x256_0_0 y⟩)]
    rw [View.canon_cons_unit_zero zeroOff3, View.readCov_unit_zero _ zeroOff3]
    simp only [View.readAt_eq_ld, View.ld_unit_zero (S := S1024x1024) zeroOff3, View.ld_unit_zero (S := S1024x256) zeroOff3, View.ld_unit_zero (S := S1x256) zeroOff3]
  iexists _; isplitr
  swap; · iexact HS
  ipureintro
  sl_unfold_words
  rw [View.read_writes_eq_canon _ _ _ (fun y => ⟨_, List.mem_cons.mpr (Or.inl rfl), View.mem_set_unit_zero zeroOff3 inb_S1024x256_S1024x256_0_0 y⟩)]
  rw [View.canon_cons_unit_zero zeroOff3]
  simp only [View.readAt_eq_ld, View.ld_unit_zero (S := S1024x1024) zeroOff3, View.ld_unit_zero (S := S1024x256) zeroOff3, View.ld_unit_zero (S := S1x256) zeroOff3]

/-! ## The accumulator, point by point -/

/-- What the accumulator holds after the body at position `n`: on a first column the product of the point's two
    blocks added to the zero block, elsewhere added to what the point before left. -/
def acc3 (c : Dev nD) : (n : ℕ) → n < cfg3.N → Vec F S1024x256 .f32
  | 0, h => k3_pay2 (iblk3 V c 0 ⟨0, h⟩) (iblk3 V c 1 ⟨0, h⟩) (k3_pay1 (F := F))
  | n + 1, h =>
    if (n + 1) % 8 = 0 then k3_pay2 (iblk3 V c 0 ⟨n + 1, h⟩) (iblk3 V c 1 ⟨n + 1, h⟩) (k3_pay1 (F := F))
    else k3_pay2 (iblk3 V c 0 ⟨n + 1, h⟩) (iblk3 V c 1 ⟨n + 1, h⟩) (acc3 c n (Nat.lt_of_succ_lt h))

theorem acc3_first (c : Dev nD) (t : Fin cfg3.N) (h0 : t.val % 8 = 0) :
    acc3 V c t.val t.isLt = k3_pay2 (iblk3 V c 0 t) (iblk3 V c 1 t) (k3_pay1 (F := F)) := by
  obtain ⟨n, hn⟩ := t
  cases n with
  | zero => rfl
  | succ n => exact if_pos h0

theorem acc3_next (c : Dev nD) (t : Fin cfg3.N) (h0 : ¬t.val % 8 = 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class invariant (the accumulator at anything);
    afterwards the accumulator at what the point before left, the other scoped buffers unopened, and the generator
    register at some state. -/
def PhiS3 (c : Dev nD) : (n : ℕ) → n ≤ cfg3.N → sProp 𝕄
  | 0, _ => Pipeline.ΦA spec3 c
  | n + 1, hn => iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3 fullShare (acc3 V c n hn)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3 fullShare (acc3 V c (n - 1) (by omega))) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data on core `c`: the arrays as the region finds them; after the body each input's buffer at its
    block and the output's at the accumulator with the row vector added (consulted on the last column only: elsewhere
    the window is idle); the invariant carries the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in;
    the invariant hands the body the accumulator at what the point before left (at anything at the very first point)
    and takes it back at this point's contents; off the last column the output window goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h1 : t.val % 8 = 7
  · have h0 : ¬t.val % 8 = 0 := by omega
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [acc3_next V c t h0]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply (run3_C c (grid3.coords t) _ _ _ _ _ _ _ _ _ _ (fun h => h0 ((hcond3_0 t).mp h)) ((hcond3_1 t).mpr h1) (iblk3 V c 0 t) (iblk3 V c 1 t) (iblk3 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Dat.leavesExact_idle (dat3 V c) 3 t (idleAt3_3 t (fun h => h1 ((hcond3_1 t).mp h))) (noFlush3_3 t (fun h => h1 ((hcond3_1 t).mp h)))]
    by_cases h0 : t.val % 8 = 0
    · rw [acc3_first V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩⟩
        iapply (run3_A c (grid3.coords t) _ _ _ _ _ _ _ _ _ _ ((hcond3_0 t).mpr h0) (fun h => h1 ((hcond3_1 t).mp h)) (iblk3 V c 0 t) (iblk3 V c 1 t) (iblk3 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc3_next V c t h0]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h)) (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the region is entered with is the invariant before the first point. -/
theorem hin3 (c : Dev nD) :
    iprop((∃ r, prngReg c r) ∗ Pipeline.prefHeld (pcfgs (F := F) 3).pre c (fun _ => fullShare) ((cfgs 3).toPCfg_adm).1 ∗ Pipeline.scopedRest spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- After the last point the invariant gives the scoped buffers back, the accumulator's contents forgotten. -/
theorem hout3 (c : Dev nD) :
    (dat3 V c).Φ (Fin.last cfg3.N)
      ⊢ iprop((∃ r, prngReg c r) ∗ Pipeline.ownSems0 (fun k : PEmpty => k.elim) c ∗ Pipeline.scopedRest spec3 c) := by
  have hne : (Fin.last cfg3.N).val ≠ 0 := by rw [Fin.val_last]; have : cfg3.N = 64 := N_3; omega
  rw [Pipeline.ownSems0_none, show (dat3 V c).Φ (Fin.last cfg3.N) = PhiS3 V c (Fin.last cfg3.N).val (Nat.le_of_lt_succ (Fin.last cfg3.N).isLt) from rfl,
    PhiS3_pos V c _ _ hne]
  rw [scopedRest3_split]
  simp only [scM3, owns_whole]
  iintro ⟨⟨HS, Hrest⟩, Hg⟩
  isplitl [Hg]; · iexact Hg
  isplitr; · iempintro
  isplitl [HS]; · iexists _; iexact HS
  iexact Hrest

end Cert.KernelIdeal.Hand

end
-- ==== Proof.KI.Reg4.lean ====
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One array behind two windows: how its share is dealt

Windows 0 and 1 read one array. Each holds one half of the array's full share, the output window its array outright;
the two halves compose to the full share, so the array leaves the region whole, at the contents it entered with. -/

/-- The buffers behind the windows' arrays: two, for three windows. -/
theorem arrImage4 : Finset.univ.image (Pipeline.arrRef spec4) = {main_v55, main_v57} := by decide

theorem share4_0 {c : Dev nD} (dat : Dat τ (Elt F) Unit ℕ (UR sig nD τ) ℕ cfg4 c) (hq0 : dat.q 0 = fullShare.left) : dat.share 0 = fullShare.left := by
  unfold Dat.share; exact hq0
theorem share4_1 {c : Dev nD} (dat : Dat τ (Elt F) Unit ℕ (UR sig nD τ) ℕ cfg4 c) (hq1 : dat.q 1 = fullShare.right) : dat.share 1 = fullShare.right := by
  unfold Dat.share; exact hq1
theorem share4_2 {c : Dev nD} (dat : Dat τ (Elt F) Unit ℕ (UR sig nD τ) ℕ cfg4 c) : dat.share 2 = fullShare := rfl

/-- The windows' arrays, one by one: the shared array at the left half for window 0 and at the right half for window 1,
    the output's array at the full share. -/
theorem arrays4_eq {c : Dev nD} (dat : Dat τ (Elt F) Unit ℕ (UR sig nD τ) ℕ cfg4 c) (hq0 : dat.q 0 = fullShare.left) (hq1 : dat.q 1 = fullShare.right)
    (G : (w : Fin cfg4.W) → Buf (Elt F) ((cfg4.win w).arr.view.loc (c : Thread nD τ))) :
    (dat.arrays G : sProp 𝕄) = iprop((((c : Thread nD τ).loc main_v55) ↦{fullShare.left} G 0) ∗ (((c : Thread nD τ).loc main_v55) ↦{fullShare.right} G 1)
      ∗ (((c : Thread nD τ).loc main_v57) ↦{fullShare} G 2)) := by
  unfold Dat.arrays
  rw [bigSep_W4, (arr_whole4 0).set_eq_univ, (arr_whole4 2).set_eq_univ, share4_0 dat hq0, share4_1 dat hq1, share4_2 dat]

/-- The two buffers behind the arrays, each whole at the full share. -/
theorem arrBufs4_eq (c : Dev nD) (Vc : (b : Ref sig .tc) → Buf (Elt F) ((c : Thread nD τ).loc b)) :
    (Pipeline.arrBufs spec4 c Vc : sProp 𝕄) = iprop((((c : Thread nD τ).loc main_v55) ↦{fullShare} Vc main_v55) ∗ (((c : Thread nD τ).loc main_v57) ↦{fullShare} Vc main_v57)) := by
  unfold Pipeline.arrBufs
  rw [arrImage4, BI.bigSep_insert (by decide), BI.bigSep_singleton]
  rfl

/-- A core's unscoped buffers are those two and the rest. -/
theorem unscopedBufs_split4 (c : Dev nD) (Vc : (b : Ref sig .tc) → Buf (Elt F) ((c : Thread nD τ).loc b)) :
    (unscopedBufs c Vc : sProp 𝕄) = iprop(Pipeline.arrBufs spec4 c Vc ∗ Pipeline.unscopedRest spec4 c Vc) :=
  Pipeline.unscopedBufs_split₀ cfgs 4 winFacts₀4.arr_unscoped c Vc

/-- ENTRY, the arrays' part: out of a core's unscoped buffers at contents `Vc`, the region's arrays at the proof data's
    entry contents — the shared array's full share cut in two, a half to each window on it — and the unscoped rest. -/
theorem arrays4_of_unscopedBufs {c : Dev nD} (dat : Dat τ (Elt F) Unit ℕ (UR sig nD τ) ℕ cfg4 c) (hq0 : dat.q 0 = fullShare.left) (hq1 : dat.q 1 = fullShare.right)
    (Vc : (b : Ref sig .tc) → Buf (Elt F) ((c : Thread nD τ).loc b)) (hA : ∀ w, dat.A w = Vc (Pipeline.arrRef spec4 w)) :
    (unscopedBufs c Vc : sProp 𝕄) ⊢ iprop(dat.arrays (dat.arrAt · 0) ∗ Pipeline.unscopedRest spec4 c Vc) := by
  rw [unscopedBufs_split4, arrBufs4_eq, arrays4_eq dat hq0 hq1,
    show dat.arrAt 0 0 = Vc main_v55 from hA 0, show dat.arrAt 1 0 = Vc main_v55 from hA 1, show dat.arrAt 2 0 = Vc main_v57 from hA 2]
  iintro ⟨⟨H55, H57⟩, Hrest⟩
  ihave H := (pointsTo_share (PosShare.mem_left_op_right fullShare)).1 $$ H55
  icases H with ⟨Hl, Hr⟩
  isplitr [Hrest]
  · isplitl [Hl]; · iexact Hl
    isplitl [Hr]; · iexact Hr
    iexact H57
  iexact Hrest

/-- EXIT, the arrays' part: the region's arrays at contents `G` — the two windows on the shared array agreeing — and the
    unscoped rest at `Vc` are the core's unscoped buffers at any contents `V'` that has the arrays at `G` and agrees
    with `Vc` off them: the two halves of the shared array's share joined. -/
theorem unscopedBufs_of_arrays4 {c : Dev nD} (dat : Dat τ (Elt F) Unit ℕ (UR sig nD τ) ℕ cfg4 c) (hq0 : dat.q 0 = fullShare.left) (hq1 : dat.q 1 = fullShare.right)
    (Vc V' : (b : Ref sig .tc) → Buf (Elt F) ((c : Thread nD τ).loc b))
    (G : (w : Fin cfg4.W) → Buf (Elt F) ((cfg4.win w).arr.view.loc (c : Thread nD τ)))
    (hG : ∀ w, G w = V' (Pipeline.arrRef spec4 w))
    (hrest : ∀ b, b ∉ Finset.univ.image (Pipeline.arrRef spec4) → V' b = Vc b) :
    iprop(dat.arrays G ∗ Pipeline.unscopedRest spec4 c Vc) ⊢ (unscopedBufs c V' : sProp 𝕄) := by
  rw [unscopedBufs_split4, arrBufs4_eq, arrays4_eq dat hq0 hq1,
    show G 0 = V' main_v55 from hG 0, show G 1 = V' main_v55 from hG 1, show G 2 = V' main_v57 from hG 2]
  have hr : (Pipeline.unscopedRest spec4 c Vc : sProp 𝕄) = Pipeline.unscopedRest spec4 c V' := by
    unfold Pipeline.unscopedRest
    exact bigSep_congr fun b hb => by rw [hrest b (Finset.mem_sdiff.mp hb).2]
  rw [hr]
  iintro ⟨⟨Hl, Hr, H57⟩, Hrest⟩
  isplitr [Hrest]
  · isplitr [H57]
    · iapply (pointsTo_share (PosShare.mem_left_op_right fullShare)).2
      isplitl [Hl] <;> iassumption
    iexact H57
  iexact Hrest

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer read or written whole -/

abbrev r4_0 : Rect S1024x128 := Rect.unit (s := S1024x128) ![0, 0] S1024x128.size inb_S1024x128_S1024x128_0_0
abbrev r4_1 : Rect S2048x128 := Rect.unit (s := S2048x128) ![0, 0] S2048x128.size inb_S2048x128_S2048x128_0_0
abbrev r4_2 : Rect S1024x2048 := Rect.unit (s := S1024x2048) ![0, 0] S1024x2048.size inb_S1024x2048_S1024x2048_0_0

/-! ## What the body leaves in the output window's buffer -/

/-- Window 2's staging buffer after the body, from the input windows' blocks: its one store, of the logistic of
    the product of the first block with the transpose of the second. -/
def out4_2 (x0 : Vec F S1024x128 .f32) (x1 : Vec F S2048x128 .f32) : Vec F S1024x2048 .f32 :=
  View.canon [⟨r4_2, k4_pay1 (View.ld x0 r4_0) (View.ld x1 r4_1)⟩]

/-- The store is of the whole buffer, so it covers it. -/
theorem cover4_2 (p0 : Vec F S1024x2048 .f32) (y : S1024x2048.Idx) :
    ∃ pc ∈ ([⟨r4_2, p0⟩] : List (View.Piece (Elt F) S1024x2048 .f32)), y ∈ pc.1.set :=
  View.cover_of_tiled [⟨r4_2, p0⟩] S1024x2048.size (by rfl) y

/-! ## The body's triple -/

set_option maxHeartbeats 1000000 in
/-- The kernel body on whole staging memrefs, the inputs' at read contents `x0`, `x1` and the output's at anything,
    runs to the continuation holding the inputs' as they were and the output's at `out4_2` of the inputs'. -/
theorem sound_kernel4 (c : Dev nD) (E : Set ℕ) (i : grid4.Coords) (arg2 : Memref sig .tc .vmem S1024x128 .f32) (harg2 : arg2.IsWhole)
    (arg3 : Memref sig .tc .vmem S2048x128 .f32) (harg3 : arg3.IsWhole) (arg4 : Memref sig .tc .vmem S1024x2048 .f32) (harg4 : arg4.IsWhole)
    (x0 : Vec F S1024x128 .f32) (x1 : Vec F S2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__decode_kernel i arg2 harg2 arg3 harg3 arg4 harg4) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them (`V`); after the body at point `t`
    each input's buffer at its block and the output's at `out4_2` of the input blocks; the invariant the scoped rest
    and the random-number register, untouched; nothing owed. The two input windows read ONE array: each holds a half of
    its full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- The shares of the two windows on the shared array. -/
theorem q4_0 (c : Dev nD) : (dat4 V c).q 0 = fullShare.left := by dsimp only [dat4]
theorem q4_1 (c : Dev nD) : (dat4 V c).q 1 = fullShare.right := by dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's entry and exit, the arrays' part -/

/-- ENTRY: a core's unscoped buffers at `V c` are the region's arrays at the proof data's entry contents and the rest. -/
theorem hentry4 (c : Dev nD) :
    (unscopedBufs c (V c) : sProp 𝕄) ⊢ iprop((dat4 V c).arrays ((dat4 V c).arrAt · 0) ∗ Pipeline.unscopedRest spec4 c (V c)) :=
  arrays4_of_unscopedBufs (dat4 V c) (q4_0 V c) (q4_1 V c) (V c) (A_eq4 V c)

/-- EXIT: the region's arrays at what the pipeline leaves and the rest at `V c` are the core's unscoped buffers at any
    contents `V'` that has the arrays at what the pipeline leaves and agrees with `V c` off them. -/
theorem hexit4 (c : Dev nD) (V' : (b : Ref sig .tc) → Buf (Elt F) ((c : Thread nD τ).loc b))
    (hG : ∀ w, (dat4 V c).arrAt w cfg4.N = V' (Pipeline.arrRef spec4 w))
    (hrest : ∀ b, b ∉ Finset.univ.image (Pipeline.arrRef spec4) → V' b = V c b) :
    iprop((dat4 V c).arrays ((dat4 V c).arrAt · cfg4.N) ∗ Pipeline.unscopedRest spec4 c (V c)) ⊢ (unscopedBufs c V' : sProp 𝕄) :=
  unscopedBufs_of_arrays4 (dat4 V c) (q4_0 V c) (q4_1 V c) (V c) V' ((dat4 V c).arrAt · cfg4.N) hG hrest

/-- The two windows on the shared array end at the contents it entered with. -/
theorem arrAt4_0 (c : Dev nD) (n : Nat) : (dat4 V c).arrAt 0 n = V c main_v55 := ((dat4 V c).arrAt_in 0 rfl n).trans (A_eq4 V c 0)
theorem arrAt4_1 (c : Dev nD) (n : Nat) : (dat4 V c).arrAt 1 n = V c main_v55 := ((dat4 V c).arrAt_in 1 rfl n).trans (A_eq4 V c 1)

end Region

end Cert.KernelIdeal.Hand
-- ==== Proof.KI.Run.lean ====
/-
  The run of the whole program: five kernel regions among seven stretches of host operations.

  Between two items of @main every unscoped buffer of a core is held whole at known contents: the launch memory, then,
  item by item, what a stretch of host operations computes from the contents before it, and what a kernel region
  leaves — its output array at what the grid's write-backs add up to, every other buffer as the region found it.
  Each region is entered from that state and left at the next; the last state, read against the final memory, gives
  every buffer's final contents at once — the arguments unchanged (no item writes one) and the results at the last
  contents of their buffers.
-/
import proofs.«155600_j21663815041514_2_alg».proof.Proof.Gen.KernelIdeal.Launch
import proofs.«155600_j21663815041514_2_alg».proof.Proof.Gen.KernelIdeal.Skeleton
import proofs.«155600_j21663815041514_2_alg».proof.Proof.Gen.KernelIdeal.Points
import proofs.«155600_j21663815041514_2_alg».proof.Proof.Gen.KernelIdeal.Regions
import proofs.«155600_j21663815041514_2_alg».proof.Proof.KI.Reg0
import proofs.«155600_j21663815041514_2_alg».proof.Proof.KI.Reg1
import proofs.«155600_j21663815041514_2_alg».proof.Proof.KI.Reg2
import proofs.«155600_j21663815041514_2_alg».proof.Proof.KI.Reg3
import proofs.«155600_j21663815041514_2_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- After region 0: its arrays at what the pipeline leaves, every other buffer as the region found it. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- The same read at the TensorCore's references. -/
abbrev V5 : (c : Dev nD) → (b : Ref sig .tc) → Buf (Elt F) ((c : Thread nD τ).loc b) := fun c b => W5 m ρ c b
/-- After region 1: its arrays at what the pipeline leaves, every other buffer as the region found it. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b
/-- After region 2: its arrays at what the pipeline leaves, every other buffer as the region found it. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- The same read at the TensorCore's references. -/
abbrev V9 : (c : Dev nD) → (b : Ref sig .tc) → Buf (Elt F) ((c : Thread nD τ).loc b) := fun c b => W9 m ρ c b
/-- After region 3: its arrays at what the pipeline leaves, every other buffer as the region found it. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- The same read at the TensorCore's references. -/
abbrev V11 : (c : Dev nD) → (b : Ref sig .tc) → Buf (Elt F) ((c : Thread nD τ).loc b) := fun c b => W11 m ρ c b
/-- After region 4: the decoded matrix's buffer at what the pipeline leaves, every other buffer as the region found it
    (its two input windows read one array and write nothing back). -/
def W12 (c : Dev nD) : Valuation τ sig (Elt F) :=
  Function.update (W11 m ρ c) (Proc.devRef .tc main_v57) ((dat4 (V11 m ρ) c).arrAt 2 cfg4.N)
theorem W12_out (c : Dev nD) : W12 m ρ c (Proc.devRef .tc main_v57) = (dat4 (V11 m ρ) c).arrAt 2 cfg4.N := by
  unfold W12; exact Function.update_self _ _ _
theorem W12_of_ne (c : Dev nD) (b : Ref sig .tc) (hb : b ≠ main_v57) :
    W12 m ρ c (Proc.devRef .tc b) = W11 m ρ c (Proc.devRef .tc b) := by
  unfold W12; exact Function.update_of_ne (StableHlo.devRef_ne_of_ne hb) _ _
/-- The same read at the TensorCore's references. -/
abbrev V12 : (c : Dev nD) → (b : Ref sig .tc) → Buf (Elt F) ((c : Thread nD τ).loc b) := fun c b => W12 m ρ c b
/-- At region 4's exit each window's array holds what the pipeline leaves: the two input windows' one array as the region
    found it, the decoded matrix's at the write-backs' sum. -/
theorem hG4 (c : Dev nD) (w : Fin cfg4.W) : (dat4 (V11 m ρ) c).arrAt w cfg4.N = V12 m ρ c (Pipeline.arrRef spec4 w) := by
  match w with
  | ⟨0, _⟩ => exact (((dat4 (V11 m ρ) c).arrAt_in 0 rfl _).trans (A_eq4 (V11 m ρ) c 0)).trans (W12_of_ne m ρ c main_v55 (by decide)).symm
  | ⟨1, _⟩ => exact (((dat4 (V11 m ρ) c).arrAt_in 1 rfl _).trans (A_eq4 (V11 m ρ) c 1)).trans (W12_of_ne m ρ c main_v55 (by decide)).symm
  | ⟨2, _⟩ => exact (W12_out m ρ c).symm
theorem hrest4 (c : Dev nD) : ∀ b, b ∉ Finset.univ.image (Pipeline.arrRef spec4) → V12 m ρ c b = V11 m ρ c b :=
  fun b hb => W12_of_ne m ρ c b (by rintro rfl; exact hb (Finset.mem_image.mpr ⟨2, Finset.mem_univ _, rfl⟩))

/-! ## The arguments end as launched

No host operation and no region writes an argument (a region reads one through an input window or not at all), so the
contents at an argument's buffer walk back to the launch memory. -/

theorem W12_main_arg0 (c : Dev nD) : W12 m ρ c (Proc.devRef .tc main_arg0) = m ((c : Thread nD τ).loc main_arg0) :=
  (W12_of_ne m ρ c main_arg0 (by decide)).trans <|
  ((StableHlo.after_of_writes_sub hostOps4 (W10 m ρ c) hostOps4_writes (by decide) : W11 m ρ c (Proc.devRef .tc main_arg0) = W10 m ρ c (Proc.devRef .tc main_arg0))).trans <|
  (W10_of_ne m ρ c main_arg0 (by decide)).trans <|
  ((StableHlo.after_of_writes_sub hostOps3 (W8 m ρ c) hostOps3_writes (by decide) : W9 m ρ c (Proc.devRef .tc main_arg0) = W8 m ρ c (Proc.devRef .tc main_arg0))).trans <|
  (W8_of_ne m ρ c main_arg0 (by decide)).trans <|
  ((StableHlo.after_of_writes_sub hostOps2 (W6 m ρ c) hostOps2_writes (by decide) : W7 m ρ c (Proc.devRef .tc main_arg0) = W6 m ρ c (Proc.devRef .tc main_arg0))).trans <|
  (W6_of_ne m ρ c main_arg0 (by decide)).trans <|
  ((StableHlo.after_of_writes_sub hostOps1 (W4 m ρ c) hostOps1_writes (by decide) : W5 m ρ c (Proc.devRef .tc main_arg0) = W4 m ρ c (Proc.devRef .tc main_arg0))).trans <|
  (W4_of_ne m ρ c main_arg0 (by decide)).trans <|
  ((StableHlo.after_of_writes_sub hostOps0_2 (W2 m ρ c) hostOps0_2_writes (by decide) : W3 m ρ c (Proc.devRef .tc main_arg0) = W2 m ρ c (Proc.devRef .tc main_arg0))).trans <|
  ((StableHlo.after_of_writes_sub hostOps0_1 (W1 m ρ c) hostOps0_1_writes (by decide) : W2 m ρ c (Proc.devRef .tc main_arg0) = W1 m ρ c (Proc.devRef .tc main_arg0))).trans <|
  ((StableHlo.after_of_writes_sub hostOps0 (W0 m ρ c) hostOps0_writes (by decide) : W1 m ρ c (Proc.devRef .tc main_arg0) = W0 m ρ c (Proc.devRef .tc main_arg0))).trans <| rfl
theorem W12_main_arg1 (c : Dev nD) : W12 m ρ c (Proc.devRef .tc main_arg1) = m ((c : Thread nD τ).loc main_arg1) :=
  (W12_of_ne m ρ c main_arg1 (by decide)).trans <|
  ((StableHlo.after_of_writes_sub hostOps4 (W10 m ρ c) hostOps4_writes (by decide) : W11 m ρ c (Proc.devRef .tc main_arg1) = W10 m ρ c (Proc.devRef .tc main_arg1))).trans <|
  (W10_of_ne m ρ c main_arg1 (by decide)).trans <|
  ((StableHlo.after_of_writes_sub hostOps3 (W8 m ρ c) hostOps3_writes (by decide) : W9 m ρ c (Proc.devRef .tc main_arg1) = W8 m ρ c (Proc.devRef .tc main_arg1))).trans <|
  (W8_of_ne m ρ c main_arg1 (by decide)).trans <|
  ((StableHlo.after_of_writes_sub hostOps2 (W6 m ρ c) hostOps2_writes (by decide) : W7 m ρ c (Proc.devRef .tc main_arg1) = W6 m ρ c (Proc.devRef .tc main_arg1))).trans <|
  (W6_of_ne m ρ c main_arg1 (by decide)).trans <|
  ((StableHlo.after_of_writes_sub hostOps1 (W4 m ρ c) hostOps1_writes (by decide) : W5 m ρ c (Proc.devRef .tc main_arg1) = W4 m ρ c (Proc.devRef .tc main_arg1))).trans <|
  ((W4_arr m ρ c 0).trans (((dat0 (V3 m ρ) c).arrAt_in 0 rfl _).trans (A_eq0 (V3 m ρ) c 0))).trans <|
  ((StableHlo.after_of_writes_sub hostOps0_2 (W2 m ρ c) hostOps0_2_writes (by decide) : W3 m ρ c (Proc.devRef .tc main_arg1) = W2 m ρ c (Proc.devRef .tc main_arg1))).trans <|
  ((StableHlo.after_of_writes_sub hostOps0_1 (W1 m ρ c) hostOps0_1_writes (by decide) : W2 m ρ c (Proc.devRef .tc main_arg1) = W1 m ρ c (Proc.devRef .tc main_arg1))).trans <|
  ((StableHlo.after_of_writes_sub hostOps0 (W0 m ρ c) hostOps0_writes (by decide) : W1 m ρ c (Proc.devRef .tc main_arg1) = W0 m ρ c (Proc.devRef .tc main_arg1))).trans <| rfl
theorem W12_main_arg2 (c : Dev nD) : W12 m ρ c (Proc.devRef .tc main_arg2) = m ((c : Thread nD τ).loc main_arg2) :=
  (W12_of_ne m ρ c main_arg2 (by decide)).trans <|
  ((StableHlo.after_of_writes_sub hostOps4 (W10 m ρ c) hostOps4_writes (by decide) : W11 m ρ c (Proc.devRef .tc main_arg2) = W10 m ρ c (Proc.devRef .tc main_arg2))).trans <|
  (W10_of_ne m ρ c main_arg2 (by decide)).trans <|
  ((StableHlo.after_of_writes_sub hostOps3 (W8 m ρ c) hostOps3_writes (by decide) : W9 m ρ c (Proc.devRef .tc main_arg2) = W8 m ρ c (Proc.devRef .tc main_arg2))).trans <|
  (W8_of_ne m ρ c main_arg2 (by decide)).trans <|
  ((StableHlo.after_of_writes_sub hostOps2 (W6 m ρ c) hostOps2_writes (by decide) : W7 m ρ c (Proc.devRef .tc main_arg2) = W6 m ρ c (Proc.devRef .tc main_arg2))).trans <|
  (W6_of_ne m ρ c main_arg2 (by decide)).trans <|
  ((StableHlo.after_of_writes_sub hostOps1 (W4 m ρ c) hostOps1_writes (by decide) : W5 m ρ c (Proc.devRef .tc main_arg2) = W4 m ρ c (Proc.devRef .tc main_arg2))).trans <|
  ((W4_arr m ρ c 1).trans (((dat0 (V3 m ρ) c).arrAt_in 1 rfl _).trans (A_eq0 (V3 m ρ) c 1))).trans <|
  ((StableHlo.after_of_writes_sub hostOps0_2 (W2 m ρ c) hostOps0_2_writes (by decide) : W3 m ρ c (Proc.devRef .tc main_arg2) = W2 m ρ c (Proc.devRef .tc main_arg2))).trans <|
  ((StableHlo.after_of_writes_sub hostOps0_1 (W1 m ρ c) hostOps0_1_writes (by decide) : W2 m ρ c (Proc.devRef .tc main_arg2) = W1 m ρ c (Proc.devRef .tc main_arg2))).trans <|
  ((StableHlo.after_of_writes_sub hostOps0 (W0 m ρ c) hostOps0_writes (by decide) : W1 m ρ c (Proc.devRef .tc main_arg2) = W0 m ρ c (Proc.devRef .tc main_arg2))).trans <| rfl
theorem W12_main_arg3 (c : Dev nD) : W12 m ρ c (Proc.devRef .tc main_arg3) = m ((c : Thread nD τ).loc main_arg3) :=
  (W12_of_ne m ρ c main_arg3 (by decide)).trans <|
  ((StableHlo.after_of_writes_sub hostOps4 (W10 m ρ c) hostOps4_writes (by decide) : W11 m ρ c (Proc.devRef .tc main_arg3) = W10 m ρ c (Proc.devRef .tc main_arg3))).trans <|
  (W10_of_ne m ρ c main_arg3 (by decide)).trans <|
  ((StableHlo.after_of_writes_sub hostOps3 (W8 m ρ c) hostOps3_writes (by decide) : W9 m ρ c (Proc.devRef .tc main_arg3) = W8 m ρ c (Proc.devRef .tc main_arg3))).trans <|
  (W8_of_ne m ρ c main_arg3 (by decide)).trans <|
  ((StableHlo.after_of_writes_sub hostOps2 (W6 m ρ c) hostOps2_writes (by decide) : W7 m ρ c (Proc.devRef .tc main_arg3) = W6 m ρ c (Proc.devRef .tc main_arg3))).trans <|
  (W6_of_ne m ρ c main_arg3 (by decide)).trans <|
  ((StableHlo.after_of_writes_sub hostOps1 (W4 m ρ c) hostOps1_writes (by decide) : W5 m ρ c (Proc.devRef .tc main_arg3) = W4 m ρ c (Proc.devRef .tc main_arg3))).trans <|
  (W4_of_ne m ρ c main_arg3 (by decide)).trans <|
  ((StableHlo.after_of_writes_sub hostOps0_2 (W2 m ρ c) hostOps0_2_writes (by decide) : W3 m ρ c (Proc.devRef .tc main_arg3) = W2 m ρ c (Proc.devRef .tc main_arg3))).trans <|
  ((StableHlo.after_of_writes_sub hostOps0_1 (W1 m ρ c) hostOps0_1_writes (by decide) : W2 m ρ c (Proc.devRef .tc main_arg3) = W1 m ρ c (Proc.devRef .tc main_arg3))).trans <|
  ((StableHlo.after_of_writes_sub hostOps0 (W0 m ρ c) hostOps0_writes (by decide) : W1 m ρ c (Proc.devRef .tc main_arg3) = W0 m ρ c (Proc.devRef .tc main_arg3))).trans <| rfl
theorem W12_main_arg4 (c : Dev nD) : W12 m ρ c (Proc.devRef .tc main_arg4) = m ((c : Thread nD τ).loc main_arg4) :=
  (W12_of_ne m ρ c main_arg4 (by decide)).trans <|
  ((StableHlo.after_of_writes_sub hostOps4 (W10 m ρ c) hostOps4_writes (by decide) : W11 m ρ c (Proc.devRef .tc main_arg4) = W10 m ρ c (Proc.devRef .tc main_arg4))).trans <|
  (W10_of_ne m ρ c main_arg4 (by decide)).trans <|
  ((StableHlo.after_of_writes_sub hostOps3 (W8 m ρ c) hostOps3_writes (by decide) : W9 m ρ c (Proc.devRef .tc main_arg4) = W8 m ρ c (Proc.devRef .tc main_arg4))).trans <|
  (W8_of_ne m ρ c main_arg4 (by decide)).trans <|
  ((StableHlo.after_of_writes_sub hostOps2 (W6 m ρ c) hostOps2_writes (by decide) : W7 m ρ c (Proc.devRef .tc main_arg4) = W6 m ρ c (Proc.devRef .tc main_arg4))).trans <|
  (W6_of_ne m ρ c main_arg4 (by decide)).trans <|
  ((StableHlo.after_of_writes_sub hostOps1 (W4 m ρ c) hostOps1_writes (by decide) : W5 m ρ c (Proc.devRef .tc main_arg4) = W4 m ρ c (Proc.devRef .tc main_arg4))).trans <|
  (W4_of_ne m ρ c main_arg4 (by decide)).trans <|
  ((StableHlo.after_of_writes_sub hostOps0_2 (W2 m ρ c) hostOps0_2_writes (by decide) : W3 m ρ c (Proc.devRef .tc main_arg4) = W2 m ρ c (Proc.devRef .tc main_arg4))).trans <|
  ((StableHlo.after_of_writes_sub hostOps0_1 (W1 m ρ c) hostOps0_1_writes (by decide) : W2 m ρ c (Proc.devRef .tc main_arg4) = W1 m ρ c (Proc.devRef .tc main_arg4))).trans <|
  ((StableHlo.after_of_writes_sub hostOps0 (W0 m ρ c) hostOps0_writes (by decide) : W1 m ρ c (Proc.devRef .tc main_arg4) = W0 m ρ c (Proc.devRef .tc main_arg4))).trans <| rfl
theorem W12_main_arg5 (c : Dev nD) : W12 m ρ c (Proc.devRef .tc main_arg5) = m ((c : Thread nD τ).loc main_arg5) :=
  (W12_of_ne m ρ c main_arg5 (by decide)).trans <|
  ((StableHlo.after_of_writes_sub hostOps4 (W10 m ρ c) hostOps4_writes (by decide) : W11 m ρ c (Proc.devRef .tc main_arg5) = W10 m ρ c (Proc.devRef .tc main_arg5))).trans <|
  (W10_of_ne m ρ c main_arg5 (by decide)).trans <|
  ((StableHlo.after_of_writes_sub hostOps3 (W8 m ρ c) hostOps3_writes (by decide) : W9 m ρ c (Proc.devRef .tc main_arg5) = W8 m ρ c (Proc.devRef .tc main_arg5))).trans <|
  (W8_of_ne m ρ c main_arg5 (by decide)).trans <|
  ((StableHlo.after_of_writes_sub hostOps2 (W6 m ρ c) hostOps2_writes (by decide) : W7 m ρ c (Proc.devRef .tc main_arg5) = W6 m ρ c (Proc.devRef .tc main_arg5))).trans <|
  (W6_of_ne m ρ c main_arg5 (by decide)).trans <|
  ((StableHlo.after_of_writes_sub hostOps1 (W4 m ρ c) hostOps1_writes (by decide) : W5 m ρ c (Proc.devRef .tc main_arg5) = W4 m ρ c (Proc.devRef .tc main_arg5))).trans <|
  (W4_of_ne m ρ c main_arg5 (by decide)).trans <|
  ((StableHlo.after_of_writes_sub hostOps0_2 (W2 m ρ c) hostOps0_2_writes (by decide) : W3 m ρ c (Proc.devRef .tc main_arg5) = W2 m ρ c (Proc.devRef .tc main_arg5))).trans <|
  ((StableHlo.after_of_writes_sub hostOps0_1 (W1 m ρ c) hostOps0_1_writes (by decide) : W2 m ρ c (Proc.devRef .tc main_arg5) = W1 m ρ c (Proc.devRef .tc main_arg5))).trans <|
  ((StableHlo.after_of_writes_sub hostOps0 (W0 m ρ c) hostOps0_writes (by decide) : W1 m ρ c (Proc.devRef .tc main_arg5) = W0 m ρ c (Proc.devRef .tc main_arg5))).trans <| rfl
theorem W12_main_arg6 (c : Dev nD) : W12 m ρ c (Proc.devRef .tc main_arg6) = m ((c : Thread nD τ).loc main_arg6) :=
  (W12_of_ne m ρ c main_arg6 (by decide)).trans <|
  ((StableHlo.after_of_writes_sub hostOps4 (W10 m ρ c) hostOps4_writes (by decide) : W11 m ρ c (Proc.devRef .tc main_arg6) = W10 m ρ c (Proc.devRef .tc main_arg6))).trans <|
  (W10_of_ne m ρ c main_arg6 (by decide)).trans <|
  ((StableHlo.after_of_writes_sub hostOps3 (W8 m ρ c) hostOps3_writes (by decide) : W9 m ρ c (Proc.devRef .tc main_arg6) = W8 m ρ c (Proc.devRef .tc main_arg6))).trans <|
  (W8_of_ne m ρ c main_arg6 (by decide)).trans <|
  ((StableHlo.after_of_writes_sub hostOps2 (W6 m ρ c) hostOps2_writes (by decide) : W7 m ρ c (Proc.devRef .tc main_arg6) = W6 m ρ c (Proc.devRef .tc main_arg6))).trans <|
  (W6_of_ne m ρ c main_arg6 (by decide)).trans <|
  ((StableHlo.after_of_writes_sub hostOps1 (W4 m ρ c) hostOps1_writes (by decide) : W5 m ρ c (Proc.devRef .tc main_arg6) = W4 m ρ c (Proc.devRef .tc main_arg6))).trans <|
  (W4_of_ne m ρ c main_arg6 (by decide)).trans <|
  ((StableHlo.after_of_writes_sub hostOps0_2 (W2 m ρ c) hostOps0_2_writes (by decide) : W3 m ρ c (Proc.devRef .tc main_arg6) = W2 m ρ c (Proc.devRef .tc main_arg6))).trans <|
  ((StableHlo.after_of_writes_sub hostOps0_1 (W1 m ρ c) hostOps0_1_writes (by decide) : W2 m ρ c (Proc.devRef .tc main_arg6) = W1 m ρ c (Proc.devRef .tc main_arg6))).trans <|
  ((StableHlo.after_of_writes_sub hostOps0 (W0 m ρ c) hostOps0_writes (by decide) : W1 m ρ c (Proc.devRef .tc main_arg6) = W0 m ρ c (Proc.devRef .tc main_arg6))).trans <| rfl
theorem W12_main_arg7 (c : Dev nD) : W12 m ρ c (Proc.devRef .tc main_arg7) = m ((c : Thread nD τ).loc main_arg7) :=
  (W12_of_ne m ρ c main_arg7 (by decide)).trans <|
  ((StableHlo.after_of_writes_sub hostOps4 (W10 m ρ c) hostOps4_writes (by decide) : W11 m ρ c (Proc.devRef .tc main_arg7) = W10 m ρ c (Proc.devRef .tc main_arg7))).trans <|
  (W10_of_ne m ρ c main_arg7 (by decide)).trans <|
  ((StableHlo.after_of_writes_sub hostOps3 (W8 m ρ c) hostOps3_writes (by decide) : W9 m ρ c (Proc.devRef .tc main_arg7) = W8 m ρ c (Proc.devRef .tc main_arg7))).trans <|
  (W8_of_ne m ρ c main_arg7 (by decide)).trans <|
  ((StableHlo.after_of_writes_sub hostOps2 (W6 m ρ c) hostOps2_writes (by decide) : W7 m ρ c (Proc.devRef .tc main_arg7) = W6 m ρ c (Proc.devRef .tc main_arg7))).trans <|
  (W6_of_ne m ρ c main_arg7 (by decide)).trans <|
  ((StableHlo.after_of_writes_sub hostOps1 (W4 m ρ c) hostOps1_writes (by decide) : W5 m ρ c (Proc.devRef .tc main_arg7) = W4 m ρ c (Proc.devRef .tc main_arg7))).trans <|
  (W4_of_ne m ρ c main_arg7 (by decide)).trans <|
  ((StableHlo.after_of_writes_sub hostOps0_2 (W2 m ρ c) hostOps0_2_writes (by decide) : W3 m ρ c (Proc.devRef .tc main_arg7) = W2 m ρ c (Proc.devRef .tc main_arg7))).trans <|
  ((StableHlo.after_of_writes_sub hostOps0_1 (W1 m ρ c) hostOps0_1_writes (by decide) : W2 m ρ c (Proc.devRef .tc main_arg7) = W1 m ρ c (Proc.devRef .tc main_arg7))).trans <|
  ((StableHlo.after_of_writes_sub hostOps0 (W0 m ρ c) hostOps0_writes (by decide) : W1 m ρ c (Proc.devRef .tc main_arg7) = W0 m ρ c (Proc.devRef .tc main_arg7))).trans <| rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V5 m ρ) c
  hout c := hout1 (V5 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split out
    of the unscoped buffers and put back at the exit contents; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (V9 m ρ) c
  hout c := hout3 (V9 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12` (what the launch reads at the
    end). Its two input windows read ONE array, each at its own share of it; the decoded matrix's array is the third window's. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := hentry4 (V11 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := hexit4 (V11 m ρ) c (V12 m ρ c) (hG4 m ρ c) (hrest4 m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's 12 items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state every unscoped buffer of every core holds the last contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c)⟩) (run_all m ρ)

end Cert.KernelIdeal.Hand

end
-- ==== Proof.LibIndexRange.lean ====
/-
  An index range read back from an "all entries in range" test.

  An array x of w-bit integers is tested for lying in the half-open range [lo, hi) by comparing every
  entry with lo (signed "greater or equal") and with hi (signed "less than"), taking the "and" of the
  two truth values entry by entry, and folding all of them with "and" from the value true. If the fold
  comes out true, every entry passed both comparisons, so lo ≤ x i < hi as signed integers at every
  index i. For 32-bit words with lo = 0 and hi = n < 2^31 the signed value of x i is then its unsigned
  value, and that is below n: x i is a valid position in an axis of extent n.
-/
import Idealize.ShloMosaic.Lib.ReduceAll
import Idealize.ShloMosaic.Lib.Affine
import Idealize.ShloMosaic.PureOps

namespace Cert.LibIndexRange

open Idealize.ShloMosaic

/-- One entry: if both comparisons lo ≤ x (signed) and x < hi (signed) hold as one-bit words whose
    "and" is 1, then lo ≤ x < hi as integers. -/
theorem range_of_entry_test {w : Nat} (x lo hi : BitVec w)
    (h : IntOp.andi (IntOp.cmpi .sge x lo) (IntOp.cmpi .slt x hi) = 1#1) :
    lo.toInt ≤ x.toInt ∧ x.toInt < hi.toInt := by
  obtain ⟨h1, h2⟩ := IntOp.andi_eq_one.mp h
  exact ⟨IntOp.cmpi_sge.mp h1, IntOp.cmpi_slt.mp h2⟩

/-- ALL ENTRIES IN RANGE. For an integer array x of any shape s: if the "and"-fold (a reduction over
    all axes, into a result with a single index) of the entrywise tests lo ≤ x i ∧ x i < hi is the bit
    1, then every entry of x lies in [lo, hi) as a signed integer. The two bounds may be broadcast
    from any shapes along any axes, and the fold may start from any initial array. -/
theorem range_of_allInRange {s t u c c' : Shape} {axes : List (Fin s.rank)} [Subsingleton t.Idx] {w : Nat}
    (x : IVec s w) (lo hi : BitVec w)
    (dims : Fin c.rank → Fin s.rank) (hb : c.BroadcastsInDim s dims)
    (dims' : Fin c'.rank → Fin s.rank) (hb' : c'.BroadcastsInDim s dims')
    (init : IVec u 1) (hr : s.ReducesTo axes t) (hu : 0 < u.numel) (j : t.Idx)
    (h : Host.reduce IntOp.andi
          (andi (cmpi .sge x (broadcastInDim s dims hb (constantI c w lo)))
                (cmpi .slt x (broadcastInDim s dims' hb' (constantI c' w hi))))
          init hr hu j = 1#1) :
    ∀ i, lo.toInt ≤ (x i).toInt ∧ (x i).toInt < hi.toInt := fun i =>
  range_of_entry_test (x i) lo hi (Host.reduce_andi_all _ init hr hu j h i)

/-- A 32-bit word whose signed value lies in [0, n), for a bound n below 2^31 written as a 32-bit
    word, has unsigned value below n: a nonnegative signed value is the unsigned value. -/
theorem toNat_lt_of_signed_range (x : BitVec 32) (n : Nat) (hn : n < 2 ^ 31)
    (h0 : (0#32).toInt ≤ x.toInt) (h1 : x.toInt < (BitVec.ofNat 32 n).toInt) : x.toNat < n := by
  have hx := BitVec.toInt_eq_toNat_cond x
  have hb := BitVec.toInt_eq_toNat_cond (BitVec.ofNat 32 n)
  have hmod : n % 2 ^ 32 = n := Nat.mod_eq_of_lt (by omega)
  simp only [BitVec.toNat_ofNat, hmod] at hb
  have hz : (0#32).toInt = 0 := by decide
  rw [hz] at h0
  have hxl := x.isLt
  split at hx <;> split at hb <;> omega

/-- The two together: under the "all entries in [0, n)" test of a 32-bit index array, every entry's
    unsigned value is below n. -/
theorem toNat_lt_of_allInRange {s t u c c' : Shape} {axes : List (Fin s.rank)} [Subsingleton t.Idx]
    (x : IVec s 32) (n : Nat) (hn : n < 2 ^ 31)
    (dims : Fin c.rank → Fin s.rank) (hb : c.BroadcastsInDim s dims)
    (dims' : Fin c'.rank → Fin s.rank) (hb' : c'.BroadcastsInDim s dims')
    (init : IVec u 1) (hr : s.ReducesTo axes t) (hu : 0 < u.numel) (j : t.Idx)
    (h : Host.reduce IntOp.andi
          (andi (cmpi .sge x (broadcastInDim s dims hb (constantI c 32 0#32)))
                (cmpi .slt x (broadcastInDim s dims' hb' (constantI c' 32 (BitVec.ofNat 32 n)))))
          init hr hu j = 1#1) :
    ∀ i, (x i).toNat < n := fun i =>
  let hi := range_of_allInRange x 0#32 (BitVec.ofNat 32 n) dims hb dims' hb' init hr hu j h i
  toNat_lt_of_signed_range (x i) n hn hi.1 hi.2

end Cert.LibIndexRange
-- ==== Proof.PreRange.lean ====
/-
  The index range, read out of the precondition.

  The precondition is one truth value: the "and" of eight tests, the last of which is the "and"-fold, over all
  entries of the edge array, of  0 ≤ entry  and  entry < 8192  (signed comparisons of 32-bit words). If the
  whole is true the last test is true, so every entry of the edge array lies in [0, 8192).
-/
import proofs.«155600_j21663815041514_2_alg».proof.Pre_finite_inputs
import proofs.«155600_j21663815041514_2_alg».proof.Proof.LibIndexRange

namespace Cert.PreRange

open Idealize.ShloMosaic Cert.Pre_finite_inputs Cert.Pre_finite_inputs.Facts

instance : Subsingleton S_.Idx := ⟨fun a b => funext fun d => d.elim0⟩

/-- Every entry of the edge array is a node index: from the precondition being all ones. -/
theorem edge_range [Cert.Pre_finite_inputs.Facts] {F : FTy → Type} [FloatOps F]
    (a0 : IVec S2x262144 32) (a1 : FVec F S8192x512 .f32) (a2 : FVec F S512x512 .f32) (a3 : FVec F S512 .f32)
    (a4 : FVec F S512x128 .f32) (a5 : FVec F S128 .f32) (a6 : FVec F S512x128 .f32) (a7 : FVec F S128 .f32)
    (h : fn (F := F) a0 a1 a2 a3 a4 a5 a6 a7 = fun _ => 1#1) :
    ∀ i, (0#32).toInt ≤ (a0 i).toInt ∧ (a0 i).toInt < (8192#32).toInt := by
  have i0 : S_.Idx := fun d => d.elim0
  have h1 := congrFun h i0
  unfold fn fn_part1 fn_part2 at h1
  dsimp only at h1
  have h2 := (IntOp.andi_eq_one.mp h1).2
  exact Cert.LibIndexRange.range_of_allInRange a0 0#32 8192#32 _ _ _ _ _ _ _ i0 h2

/-- The same as natural numbers: every entry's signed value is its unsigned value and is below 8192. -/
theorem edge_range_nat [Cert.Pre_finite_inputs.Facts] {F : FTy → Type} [FloatOps F]
    (a0 : IVec S2x262144 32) (a1 : FVec F S8192x512 .f32) (a2 : FVec F S512x512 .f32) (a3 : FVec F S512 .f32)
    (a4 : FVec F S512x128 .f32) (a5 : FVec F S128 .f32) (a6 : FVec F S512x128 .f32) (a7 : FVec F S128 .f32)
    (h : fn (F := F) a0 a1 a2 a3 a4 a5 a6 a7 = fun _ => 1#1) :
    ∀ i, 0 ≤ (a0 i).toInt ∧ (a0 i).toInt < 8192 := fun i => by
  have := edge_range a0 a1 a2 a3 a4 a5 a6 a7 h i
  have h0 : (0#32).toInt = 0 := by decide
  have h8 : (8192#32).toInt = 8192 := by decide
  rw [h0, h8] at this
  exact this

end Cert.PreRange
-- ==== Proof.Spec.lean ====
/-
  The two sides of the claim as mathematics, over the extended reals.

  A graph on 8192 nodes has 270336 directed edges (the given ones followed by one self-loop per node), edge e
  going from its source row e to its target col e with a weight n e (the symmetric normalisation). A graph
  convolution of a node feature matrix H is, at target node i and feature f,

      edge by edge:            ∑ over the edges e with col e = i of  n e * H (row e) f,
      through the dense matrix: ∑ over the nodes j of  adj i j * H j f,   adj i j = ∑ over e with col e = i, row e = j of n e.

  Both sums are written as they arise, accumulated from zero over the edges that hit the place (0 + ∑ …).

  The reference computes the first form three times (hidden layer, mean, log-variance); the kernel builds the dense
  matrix once, multiplies by it twice, computes mean and log-variance side by side as one matrix of doubled width,
  and cuts it in two. Both decode by the logistic function of the Gram matrix of the mean.
-/
import Idealize.ShloMosaic.PureOps.Ideal

noncomputable section

namespace Cert.Spec

open Idealize.ShloMosaic

/-- The number of edges: 262144 given ones and 8192 self-loops. -/
abbrev NE : ℕ := 270336

/-- A matrix product over the extended reals, entry by entry. -/
def mm {a b c : ℕ} (X : Fin a → Fin b → EReal) (Y : Fin b → Fin c → EReal) (i : Fin a) (f : Fin c) : EReal :=
  ∑ k : Fin b, X i k * Y k f

/-- The dense adjacency matrix: entry (i, j) is the sum of the weights of the edges with target i and source j. -/
def adj (col row : Fin NE → Fin 8192) (n : Fin NE → EReal) (i j : Fin 8192) : EReal :=
  0 + ∑ e ∈ Finset.univ.filter (fun e : Fin NE => col e = i ∧ row e = j), n e

/-- Aggregation through the dense matrix. -/
def aggDense (col row : Fin NE → Fin 8192) (n : Fin NE → EReal) {w : ℕ} (H : Fin 8192 → Fin w → EReal)
    (i : Fin 8192) (f : Fin w) : EReal :=
  ∑ j : Fin 8192, adj col row n i j * H j f

/-- Aggregation edge by edge. -/
def aggEdges (col row : Fin NE → Fin 8192) (n : Fin NE → EReal) {w : ℕ} (H : Fin 8192 → Fin w → EReal)
    (i : Fin 8192) (f : Fin w) : EReal :=
  0 + ∑ e ∈ Finset.univ.filter (fun e : Fin NE => col e = i), n e * H (row e) f

/-- Two matrices side by side: columns 0..127 from the first, 128..255 from the second. -/
def sideBySide (P Q : Fin 512 → Fin 128 → EReal) (f : Fin 512) (g : Fin 256) : EReal :=
  if h : g.val < 128 then P f ⟨g.val, h⟩ else Q f ⟨g.val - 128, by omega⟩

/-- Two vectors end to end. -/
def endToEnd (p q : Fin 128 → EReal) (g : Fin 256) : EReal :=
  if h : g.val < 128 then p ⟨g.val, h⟩ else q ⟨g.val - 128, by omega⟩

section
variable (col row : Fin NE → Fin 8192) (n : Fin NE → EReal)
  (x : Fin 8192 → Fin 512 → EReal) (W1 : Fin 512 → Fin 512 → EReal) (b1 : Fin 512 → EReal)
  (Wmu : Fin 512 → Fin 128 → EReal) (bmu : Fin 128 → EReal) (Wlv : Fin 512 → Fin 128 → EReal) (blv : Fin 128 → EReal)

/-! ### The kernel's side -/

/-- The hidden layer through the dense matrix: max (A · (x · W1) + b1) 0. -/
def hidK (i : Fin 8192) (f : Fin 512) : EReal := max (aggDense col row n (mm x W1) i f + b1 f) 0

/-- Mean and log-variance side by side: A · (h · [Wmu | Wlv]) + [bmu ; blv]. -/
def catK (i : Fin 8192) (g : Fin 256) : EReal :=
  aggDense col row n (mm (hidK col row n x W1 b1) (sideBySide Wmu Wlv)) i g + endToEnd bmu blv g

/-- The mean: the left half. -/
def muK (i : Fin 8192) (g : Fin 128) : EReal := catK col row n x W1 b1 Wmu bmu Wlv blv i ⟨g.val, by omega⟩
/-- The log-variance: the right half. -/
def lvK (i : Fin 8192) (g : Fin 128) : EReal := catK col row n x W1 b1 Wmu bmu Wlv blv i ⟨128 + g.val, by omega⟩
/-- The decoded adjacency: the logistic function of the mean's Gram matrix. -/
def predK (i j : Fin 8192) : EReal :=
  Ideal.logistic (∑ k : Fin 128, muK col row n x W1 b1 Wmu bmu Wlv blv i k * muK col row n x W1 b1 Wmu bmu Wlv blv j k)

/-! ### The reference's side -/

/-- The hidden layer edge by edge. -/
def hidR (i : Fin 8192) (f : Fin 512) : EReal := max (aggEdges col row n (mm x W1) i f + b1 f) 0
/-- The mean. -/
def muR (i : Fin 8192) (g : Fin 128) : EReal := aggEdges col row n (mm (hidR col row n x W1 b1) Wmu) i g + bmu g
/-- The log-variance. -/
def lvR (i : Fin 8192) (g : Fin 128) : EReal := aggEdges col row n (mm (hidR col row n x W1 b1) Wlv) i g + blv g
/-- The decoded adjacency. -/
def predR (i j : Fin 8192) : EReal :=
  Ideal.logistic (∑ k : Fin 128, muR col row n x W1 b1 Wmu bmu i k * muR col row n x W1 b1 Wmu bmu j k)

end

end Cert.Spec

end
-- ==== Proof.LibScatterEntries.lean ====
/-
  Reading an accumulating scatter at an entry, when the scatter is by ENTRIES.

  The operand is an `R × C` array, the updates a vector of `U` entries, and the index table has two columns: update
  `u` is added to the operand's entry `(ρ u, σ u)`, where the table's row `u` holds the row number in its first word
  and the column number in its second. (Dimension numbers: the updates have no window axis, both operand axes are
  inserted, start component 0 goes to operand axis 0 and component 1 to axis 1, the index vector is the table's
  axis 1.)  On the extended reals the accumulating scatter is an exact sum, so at an entry `(a, c)` its result is the
  operand's entry plus the sum of `upd u` over the updates `u` whose two words read, signed, as `a` and `c` — in
  whatever order: addition of extended reals is commutative and associative. An update whose words point outside the
  operand lands nowhere and contributes to no entry.
-/
import Idealize.ShloMosaic.PureOps.Ideal
import Idealize.ShloMosaic.Lib.ValueIdx

noncomputable section

namespace ScatterEntries

open Idealize.ShloMosaic Idealize.ShloMosaic.ValueIdx

/-- The operand's shape, `R` rows of `C` entries. -/
abbrev Opnd (R C : Nat) : Shape := ⟨2, ![R, C]⟩
/-- The index table's shape: a row number and a column number per update. -/
abbrev Tbl (U : Nat) : Shape := ⟨2, ![U, 2]⟩
/-- The updates' shape: a vector of `U` entries. -/
abbrev Upd (U : Nat) : Shape := ⟨1, ![U]⟩

variable {R C U w : Nat}

/-- An update index as a plain `Fin U`. -/
abbrev updRow (j : (Upd U).Idx) : Fin U := ⟨(j 0).val, (j 0).isLt⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update `j` is the first word of the table's row `j`, read signed: the
    start component comes from the table, and there is no window. -/
theorem coord_row (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) :
    d.start j idx 0 + (d.window j 0 : Int) = (idx (ix2 (updRow j) (0 : Fin 2))).toInt := by
  obtain ⟨uw, iw, sd, iv, wf⟩ := d
  dsimp only at h1 h2 h3 h4
  subst h1 h2 h3 h4
  have m0 : (0 : Fin 2) ∈ ([0, 1] : List (Fin 2)) := by decide
  have k0 : (0 : Fin 2) ∉ ScatterDims.sKept (⟨[], [0, 1], [0, 1], 1, wf⟩ : ScatterDims (Opnd R C) (Tbl U) (Upd U)) := by
    show (0 : Fin 2) ∉ (List.finRange 2).filter (fun x => decide (x ∉ ([0, 1] : List (Fin 2))))
    decide
  have hu : ScatterDims.uScatter (⟨[], [0, 1], [0, 1], 1, wf⟩ : ScatterDims (Opnd R C) (Tbl U) (Upd U)) = [0] := by
    show (List.finRange 1).filter (fun x => decide (x ∉ ([] : List (Fin 1)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => (j a).val) (getElem_of_eq_singleton _ 0 hu _ _)
  · apply Fin.ext
    simp only [ScatterDims.siIdx]
    split
    · rfl
    · rename_i h
      exact absurd rfl h

/-- On the column axis the target coordinate of update `j` is the second word of the table's row `j`, read signed. -/
theorem coord_col (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) :
    d.start j idx 1 + (d.window j 1 : Int) = (idx (ix2 (updRow j) (1 : Fin 2))).toInt := by
  obtain ⟨uw, iw, sd, iv, wf⟩ := d
  dsimp only at h1 h2 h3 h4
  subst h1 h2 h3 h4
  have m1 : (1 : Fin 2) ∈ ([0, 1] : List (Fin 2)) := by decide
  have k1 : (1 : Fin 2) ∉ ScatterDims.sKept (⟨[], [0, 1], [0, 1], 1, wf⟩ : ScatterDims (Opnd R C) (Tbl U) (Upd U)) := by
    show (1 : Fin 2) ∉ (List.finRange 2).filter (fun x => decide (x ∉ ([0, 1] : List (Fin 2))))
    decide
  have hu : ScatterDims.uScatter (⟨[], [0, 1], [0, 1], 1, wf⟩ : ScatterDims (Opnd R C) (Tbl U) (Upd U)) = [0] := by
    show (List.finRange 1).filter (fun x => decide (x ∉ ([] : List (Fin 1)))) = [0]
    decide
  simp only [ScatterDims.start, ScatterDims.window]
  rw [dif_pos m1, dif_neg k1]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => (j a).val) (getElem_of_eq_singleton _ 0 hu _ _)
  · apply Fin.ext
    simp only [ScatterDims.siIdx]
    split
    · rfl
    · rename_i h
      exact absurd rfl h

/-- WHERE AN UPDATE LANDS. Update `j` lands at entry `(a, c)` exactly when the two words of the table's row `j` read,
    signed, as `a` and as `c`; an update whose words point outside the operand lands nowhere. -/
theorem resultIdx_iff (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) (a : Fin R) (c : Fin C) :
    d.resultIdx? j idx = some (ix2 a c)
      ↔ (idx (ix2 (updRow j) (0 : Fin 2))).toInt = (a.val : Int) ∧ (idx (ix2 (updRow j) (1 : Fin 2))).toInt = (c.val : Int) := by
  have c0 := coord_row d h1 h2 h3 h4 idx j
  have c1 := coord_col d h1 h2 h3 h4 idx j
  unfold ScatterDims.resultIdx?
  split
  · rename_i hall
    have p0 := (hall 0).1
    have p1 := (hall 1).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      rw [← c0, ← c1]
      constructor <;> omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, hc, Int.toNat_natCast]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1, hc]
        exact ⟨Int.natCast_nonneg _, by exact_mod_cast c.isLt⟩

/-- THE SCATTER READ AT AN ENTRY, with no hypothesis on the table: the operand's entry plus the sum of the updates
    whose two words read, signed, as this row and this column. -/
theorem scatterAdd_entries_drop (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w)
    (x : (Opnd R C).Idx → EReal) (upd : (Upd U).Idx → EReal) (a : Fin R) (c : Fin C) :
    Ideal.hostScatterAdd d x idx upd (ix2 a c)
      = x (ix2 a c)
        + ∑ u ∈ Finset.univ.filter (fun u : Fin U =>
            (idx (ix2 u (0 : Fin 2))).toInt = (a.val : Int) ∧ (idx (ix2 u (1 : Fin 2))).toInt = (c.val : Int)), upd (ix1 u) := by
  unfold Ideal.hostScatterAdd
  refine congrArg (x (ix2 a c) + ·) ?_
  refine Finset.sum_bij' (fun j _ => updRow j) (fun u _ => ix1 u) ?_ ?_ ?_ ?_ ?_
  · intro j hj
    rw [Finset.mem_filter] at hj ⊢
    exact ⟨Finset.mem_univ _, (resultIdx_iff d h1 h2 h3 h4 idx j a c).1 hj.2⟩
  · intro u hu
    rw [Finset.mem_filter] at hu ⊢
    refine ⟨Finset.mem_univ _, (resultIdx_iff d h1 h2 h3 h4 idx (ix1 u) a c).2 ?_⟩
    exact hu.2
  · intro j _
    exact (eq_ix1 j).symm
  · intro u _
    exact Fin.ext rfl
  · intro j _
    exact congrArg upd (eq_ix1 j)

/-- THE SCATTER READ AT AN ENTRY, when the table's words are row and column numbers of the operand: the operand's
    entry plus the sum of the updates that the table sends to this entry. -/
theorem scatterAdd_entries (d : ScatterDims (Opnd R C) (Tbl U) (Upd U))
    (h1 : d.updateWindowDims = []) (h2 : d.insertedWindowDims = [0, 1]) (h3 : d.scatterDimsToOperandDims = [0, 1])
    (h4 : d.indexVectorDim = 1) (ρ : Fin U → Fin R) (σ : Fin U → Fin C) (idx : IVec (Tbl U) w)
    (hρ : ∀ u : Fin U, (idx (ix2 u (0 : Fin 2))).toInt = ((ρ u).val : Int))
    (hσ : ∀ u : Fin U, (idx (ix2 u (1 : Fin 2))).toInt = ((σ u).val : Int))
    (x : (Opnd R C).Idx → EReal) (upd : (Upd U).Idx → EReal) (a : Fin R) (c : Fin C) :
    Ideal.hostScatterAdd d x idx upd (ix2 a c)
      = x (ix2 a c) + ∑ u ∈ Finset.univ.filter (fun u : Fin U => ρ u = a ∧ σ u = c), upd (ix1 u) := by
  rw [scatterAdd_entries_drop d h1 h2 h3 h4 idx x upd a c]
  refine congrArg (x (ix2 a c) + ·) (Finset.sum_congr (Finset.filter_congr fun u _ => ?_) fun _ _ => rfl)
  rw [hρ u, hσ u]
  constructor
  · rintro ⟨hr, hc⟩
    exact ⟨Fin.ext (by exact_mod_cast hr), Fin.ext (by exact_mod_cast hc)⟩
  · rintro ⟨hr, hc⟩
    rw [hr, hc]
    exact ⟨rfl, rfl⟩

end ScatterEntries

end
-- ==== Proof.LibRowGather.lean ====
/-
  A host gather of whole rows, read at an index.

  The operand is an N×C matrix, the indices an E×1 column of integers, the result E×C: row `e` of the result is the
  operand's row at the `e`-th index, that index read signed and clamped into `[0, N − 1]` (the one admissible start of a
  one-row window).  So the result at `(e, i)` is the operand at `(clamp (idx e), i)`: the column coordinate passes
  through unchanged.  In particular gathering the rows of two matrices laid side by side is laying the two gathers side
  by side, since the clamp depends on the number of rows only.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows by a column of indices. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index selects: the index read signed, clamped into `[0, N − 1]`. -/
def rowOf {w : Nat} (N : Nat) (hN : 0 < N) (v : BitVec w) : Fin N := ⟨min v.toInt.toNat (N - 1), by omega⟩

/-- THE ROW GATHER READ AT `(e, i)`: the operand at the selected row and the same column. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (i : Fin C) :
    Host.gather (rowDims N C E wf) x idx (ix2 e i) = x (ix2 (rowOf N hN (idx (ix2 e (0 : Fin 1)))) i) := by
  unfold Host.gather
  congr 1
  funext a
  refine Fin.ext ?_
  show (rowDims N C E wf).start (ix2 e i) idx a + (rowDims N C E wf).batchCoord (ix2 e i) a + (rowDims N C E wf).offCoord (ix2 e i) a = _
  rw [GatherDims.batchCoord_eq_zero _ _ _ List.not_mem_nil]
  match a with
  | ⟨0, _⟩ =>
    have hs : (rowDims N C E wf).start (ix2 e i) idx (0 : Fin 2) = min (idx (ix2 e (0 : Fin 1))).toInt.toNat (N - 1) := by
      unfold GatherDims.start
      rw [dif_pos (show (0 : Fin 2) ∈ (rowDims N C E wf).startIndexMap from List.mem_singleton.mpr rfl)]
      have hsi : (rowDims N C E wf).siIdx (ix2 e i) ⟨List.idxOf (0 : Fin 2) (rowDims N C E wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    have ho : (rowDims N C E wf).offCoord (ix2 e i) (0 : Fin 2) = 0 :=
      GatherDims.offCoord_eq_zero _ _ _ (fun h => ((GatherDims.mem_sKept _ _).mp h).1 (List.mem_singleton.mpr rfl))
    show (rowDims N C E wf).start (ix2 e i) idx (0 : Fin 2) + 0 + (rowDims N C E wf).offCoord (ix2 e i) (0 : Fin 2)
      = min (idx (ix2 e (0 : Fin 1))).toInt.toNat (N - 1)
    rw [hs, ho]; rfl
  | ⟨1, _⟩ =>
    have hs : (rowDims N C E wf).start (ix2 e i) idx (1 : Fin 2) = 0 := by
      unfold GatherDims.start
      rw [dif_neg (show (1 : Fin 2) ∉ [(0 : Fin 2)] from by decide)]
    have ho : (rowDims N C E wf).offCoord (ix2 e i) (1 : Fin 2) = i.val := by
      unfold GatherDims.offCoord
      rw [dif_pos ((GatherDims.mem_sKept _ _).mpr ⟨(show (1 : Fin 2) ∉ [(0 : Fin 2)] from by decide), List.not_mem_nil⟩)]
      rfl
    show (rowDims N C E wf).start (ix2 e i) idx (1 : Fin 2) + 0 + (rowDims N C E wf).offCoord (ix2 e i) (1 : Fin 2) = i.val
    rw [hs, ho]; omega

end Cert.LibRowGather

end
-- ==== Proof.LibCuts.lean ====
/-
  Cuts, stacks and side-by-side layouts read at an index.

  A stack of L matrices is a rank-3 array; its member l "cut out and the unit axis dropped" read at (i, k) is the stack
  at (l, i, k), and a run of a member's rows is the stack at the rows moved along.  A stack of L vectors likewise.  Two
  arrays laid side by side along one axis read, at a coordinate in the first's span, the first, and past it the second
  at the coordinate less the first's extent.  And a statement about every position below a + b holds when it holds
  below a and at a + i for every i below b.
-/
import Idealize.ShloMosaic.Lib.ValueIdx
import Idealize.ShloMosaic.Lib.ValueLayout
import Idealize.ShloMosaic.Lib.Pipeline.Value

noncomputable section

namespace Cert.LibCuts

open Idealize.ShloMosaic Idealize.ShloMosaic.ValueIdx

variable {α : Type}

/-- Every position below a + b is below a, or a + i with i below b. -/
theorem forall_fin_add {a b n : ℕ} (h : a + b = n) {P : Fin n → Prop}
    (h0 : ∀ (i : Fin a) (hi : i.val < n), P ⟨i.val, hi⟩) (h1 : ∀ (i : Fin b) (hi : a + i.val < n), P ⟨a + i.val, hi⟩) :
    ∀ i : Fin n, P i := by
  intro i
  by_cases hi : i.val < a
  · exact h0 ⟨i.val, hi⟩ i.isLt
  · have hb : i.val - a < b := by have := i.isLt; omega
    have hn : a + (i.val - a) < n := by have := i.isLt; omega
    have key := h1 ⟨i.val - a, hb⟩ hn
    have e : (⟨a + (i.val - a), hn⟩ : Fin n) = i := Fin.ext (by show a + (i.val - a) = i.val; omega)
    exact e ▸ key

/-- Member l of a stack of matrices, cut out and the unit axis dropped, at (i, k). -/
theorem stackMember_apply {L R C : ℕ} (l : ℕ) (hl : l < L)
    (hs : (⟨3, ![L, R, C]⟩ : Shape).Slices ![l, 0, 0] ⟨3, ![1, R, C]⟩)
    (hc : (⟨3, ![1, R, C]⟩ : Shape).ShapeCasts ⟨2, ![R, C]⟩)
    (a : (⟨3, ![L, R, C]⟩ : Shape).Idx → α) (i : Fin R) (k : Fin C) :
    shapeCast ⟨2, ![R, C]⟩ (extractStridedSlice ⟨3, ![1, R, C]⟩ ![l, 0, 0] a hs) hc (ix2 i k) = a (ix3 ⟨l, hl⟩ i k) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Rows o, o + 1, … of member l of a stack of matrices: the rows cut from the whole stack first, then the member. -/
theorem stackRows_apply {L R0 R C : ℕ} (o l : ℕ) (hl : l < L)
    (h1 : (⟨3, ![L, R0, C]⟩ : Shape).Slices ![0, o, 0] ⟨3, ![L, R, C]⟩)
    (h2 : (⟨3, ![L, R, C]⟩ : Shape).Slices ![l, 0, 0] ⟨3, ![1, R, C]⟩)
    (hc : (⟨3, ![1, R, C]⟩ : Shape).ShapeCasts ⟨2, ![R, C]⟩)
    (a : (⟨3, ![L, R0, C]⟩ : Shape).Idx → α) (i : Fin R) (k : Fin C) (hi : o + i.val < R0) :
    shapeCast ⟨2, ![R, C]⟩ (extractStridedSlice ⟨3, ![1, R, C]⟩ ![l, 0, 0]
        (extractStridedSlice ⟨3, ![L, R, C]⟩ ![0, o, 0] a h1) h2) hc (ix2 i k)
      = a (ix3 ⟨l, hl⟩ ⟨o + i.val, hi⟩ k) := by
  rw [stackMember_apply l hl h2 hc, slice3_axis1_eq]

/-- Member l of a stack of vectors, cut out and the unit axis dropped, at k. -/
theorem stackVec_apply {L C : ℕ} (l : ℕ) (hl : l < L)
    (hs : (⟨2, ![L, C]⟩ : Shape).Slices ![l, 0] ⟨2, ![1, C]⟩) (hc : (⟨2, ![1, C]⟩ : Shape).ShapeCasts ⟨1, ![C]⟩)
    (a : (⟨2, ![L, C]⟩ : Shape).Idx → α) (k : Fin C) :
    shapeCast ⟨1, ![C]⟩ (extractStridedSlice ⟨2, ![1, C]⟩ ![l, 0] a hs) hc (ix1 k) = a (ix2 ⟨l, hl⟩ k) := by
  rw [shapeCast_1a_a_apply]
  exact extractStridedSlice_apply _ _ _ _ _ (fun ax => by
    match ax with
    | ⟨0, _⟩ => exact (Nat.add_zero _).symm
    | ⟨1, _⟩ => exact (Nat.zero_add _).symm)

/-- The same member kept as a one-row matrix (cut out, flattened, and made a row again), at (0, k). -/
theorem stackVecRow_apply {L C : ℕ} (l : ℕ) (hl : l < L)
    (hs : (⟨2, ![L, C]⟩ : Shape).Slices ![l, 0] ⟨2, ![1, C]⟩) (hc : (⟨2, ![1, C]⟩ : Shape).ShapeCasts ⟨1, ![C]⟩)
    (hc' : (⟨1, ![C]⟩ : Shape).ShapeCasts ⟨2, ![1, C]⟩)
    (a : (⟨2, ![L, C]⟩ : Shape).Idx → α) (k : Fin C) :
    shapeCast ⟨2, ![1, C]⟩ (shapeCast ⟨1, ![C]⟩ (extractStridedSlice ⟨2, ![1, C]⟩ ![l, 0] a hs) hc) hc' (ix2 (0 : Fin 1) k)
      = a (ix2 ⟨l, hl⟩ k) := by
  rw [shapeCast_shapeCast]
  exact extractStridedSlice_apply _ _ _ _ _ (fun ax => by
    match ax with
    | ⟨0, _⟩ => exact (Nat.add_zero _).symm
    | ⟨1, _⟩ => exact (Nat.zero_add _).symm)

/-- Two stacks laid side by side along the row axis, read in the first's span. -/
theorem concat3_rows_left {L R1 R2 R C : ℕ} (x₁ : (⟨3, ![L, R1, C]⟩ : Shape).Idx → α) (x₂ : (⟨3, ![L, R2, C]⟩ : Shape).Idx → α)
    (h : Shape.Concatenates [(⟨3, ![L, R1, C]⟩ : Shape), ⟨3, ![L, R2, C]⟩] ⟨3, ![L, R, C]⟩ 1)
    (l : Fin L) (i : Fin R1) (k : Fin C) (hi : i.val < R) :
    concatenate ⟨3, ![L, R, C]⟩ 1 [⟨⟨3, ![L, R1, C]⟩, x₁⟩, ⟨⟨3, ![L, R2, C]⟩, x₂⟩] h (ix3 l ⟨i.val, hi⟩ k) = x₁ (ix3 l i k) :=
  concatenate_pair_apply_left 1 x₁ x₂ h _ rfl _ (fun b => by
    match b with
    | ⟨0, _⟩ => rfl
    | ⟨1, _⟩ => rfl
    | ⟨2, _⟩ => rfl)

/-- Two stacks laid side by side along the row axis, read past the first's span. -/
theorem concat3_rows_right {L R1 R2 R C : ℕ} (x₁ : (⟨3, ![L, R1, C]⟩ : Shape).Idx → α) (x₂ : (⟨3, ![L, R2, C]⟩ : Shape).Idx → α)
    (h : Shape.Concatenates [(⟨3, ![L, R1, C]⟩ : Shape), ⟨3, ![L, R2, C]⟩] ⟨3, ![L, R, C]⟩ 1)
    (l : Fin L) (i : Fin R2) (k : Fin C) (hi : R1 + i.val < R) :
    concatenate ⟨3, ![L, R, C]⟩ 1 [⟨⟨3, ![L, R1, C]⟩, x₁⟩, ⟨⟨3, ![L, R2, C]⟩, x₂⟩] h (ix3 l ⟨R1 + i.val, hi⟩ k) = x₂ (ix3 l i k) :=
  concatenate_pair_apply_right 1 x₁ x₂ h _ rfl rfl _ (fun b hb => by
    match b with
    | ⟨0, _⟩ => rfl
    | ⟨1, _⟩ => exact absurd rfl hb
    | ⟨2, _⟩ => rfl) (by show i.val + R1 = R1 + i.val; omega)

/-- Two matrices laid side by side along the column axis, read in the first's span. -/
theorem concat2_cols_left {N C1 C2 C : ℕ} (x₁ : (⟨2, ![N, C1]⟩ : Shape).Idx → α) (x₂ : (⟨2, ![N, C2]⟩ : Shape).Idx → α)
    (h : Shape.Concatenates [(⟨2, ![N, C1]⟩ : Shape), ⟨2, ![N, C2]⟩] ⟨2, ![N, C]⟩ 1)
    (n : Fin N) (i : Fin C1) (hi : i.val < C) :
    concatenate ⟨2, ![N, C]⟩ 1 [⟨⟨2, ![N, C1]⟩, x₁⟩, ⟨⟨2, ![N, C2]⟩, x₂⟩] h (ix2 n ⟨i.val, hi⟩) = x₁ (ix2 n i) :=
  concatenate_pair_apply_left 1 x₁ x₂ h _ rfl _ (fun b => by
    match b with
    | ⟨0, _⟩ => rfl
    | ⟨1, _⟩ => rfl)

/-- Two matrices laid side by side along the column axis, read past the first's span. -/
theorem concat2_cols_right {N C1 C2 C : ℕ} (x₁ : (⟨2, ![N, C1]⟩ : Shape).Idx → α) (x₂ : (⟨2, ![N, C2]⟩ : Shape).Idx → α)
    (h : Shape.Concatenates [(⟨2, ![N, C1]⟩ : Shape), ⟨2, ![N, C2]⟩] ⟨2, ![N, C]⟩ 1)
    (n : Fin N) (i : Fin C2) (hi : C1 + i.val < C) :
    concatenate ⟨2, ![N, C]⟩ 1 [⟨⟨2, ![N, C1]⟩, x₁⟩, ⟨⟨2, ![N, C2]⟩, x₂⟩] h (ix2 n ⟨C1 + i.val, hi⟩) = x₂ (ix2 n i) :=
  concatenate_pair_apply_right 1 x₁ x₂ h _ rfl rfl _ (fun b hb => by
    match b with
    | ⟨0, _⟩ => rfl
    | ⟨1, _⟩ => exact absurd rfl hb) (by show i.val + C1 = C1 + i.val; omega)

end Cert.LibCuts
-- ==== Proof.LibRowCast.lean ====
/-
  A vector of k entries made into a one-row matrix, two ways.

  Reshaping a vector to a 1×k matrix and broadcasting it along a new leading axis of extent 1 give the same matrix:
  entry (0, c) of either is entry c of the vector.
-/
import Idealize.ShloMosaic.Lib.ValueIdx
import Idealize.ShloMosaic.Lib.Pipeline.Value

noncomputable section

namespace Cert.LibRowCast

open Idealize.ShloMosaic Idealize.ShloMosaic.ValueIdx

/-- A vector of k entries reshaped to a 1×k matrix is the vector broadcast along a new leading unit axis. -/
theorem row_cast_eq {k : Nat} {α : Type} (hs : (⟨1, ![k]⟩ : Shape).ShapeCasts ⟨2, ![1, k]⟩)
    (hb : (⟨1, ![k]⟩ : Shape).BroadcastsInDim ⟨2, ![1, k]⟩ ![1]) (v : (⟨1, ![k]⟩ : Shape).Idx → α) :
    shapeCast ⟨2, ![1, k]⟩ v hs = broadcastInDim ⟨2, ![1, k]⟩ ![1] hb v := by
  funext j
  obtain ⟨a, cc, rfl⟩ : ∃ (a : Fin 1) (cc : Fin k), j = ix2 a cc := ⟨j 0, j 1, eq_ix2 j⟩
  have ha : a.val = 0 := by have := a.isLt; omega
  rw [shapeCast_apply v hs (ix2 a cc) (ix1 cc) (by
        rw [Shape.rowMajor_val_one, Shape.rowMajor_val_two]
        show cc.val = a.val * k + cc.val
        rw [ha, Nat.zero_mul, Nat.zero_add]),
    broadcastInDim_apply ![1] hb v (ix2 a cc) (ix1 cc) (fun x => by
        match x with
        | ⟨0, _⟩ =>
          show cc.val = if k = 1 then 0 else cc.val
          split
          · have := cc.isLt; omega
          · rfl)]

end Cert.LibRowCast

end
-- ==== Proof.Edges.lean ====
/-
  The edge words and the sign of the edge weight.

  A graph on 8192 nodes is given by a 2 × 262144 array of node numbers (sources in row 0, targets in row 1). Each
  row is flattened and followed by the numbers 0, 1, …, 8191 (one self-loop per node): 270336 words. If every
  given number lies in [0, 8192), so does every one of those words: the first 262144 are given numbers, the rest
  count up from 0 to 8191.

  On such words the usual treatment of a negative index ("add the extent if the word is negative") changes
  nothing, and the node a word names is the word's own value: nothing is clamped.

  The weight of an edge is the product of two entries of one array d, where d is, entry by entry, either the
  reciprocal square root of a positive number or zero. Every entry of d is therefore ≥ 0 in the extended reals,
  and so is every weight, whichever entries the two index arrays pick.
-/
import Idealize.ShloMosaic.PureOps.Ideal.Laws
import Idealize.ShloMosaic.Lib.ValueIdx
import Idealize.ShloMosaic.Lib.IdealHost
import Idealize.ShloMosaic.Lib.Affine
import Idealize.ShloMosaic.Lib.DynamicIndex
import proofs.«155600_j21663815041514_2_alg».proof.Proof.LibRowGather

namespace Cert.Edges

open Idealize.ShloMosaic Idealize.ShloMosaic.ValueIdx

/-! ### The sign of the weight -/

/-- The reciprocal square root of an extended real that is not negative is not negative: +∞ goes to 0, 0 to +∞,
    a positive real r to 1 / √r. -/
theorem rsqrt_nonneg {y : EReal} (hy : 0 ≤ y) : 0 ≤ Ideal.rsqrt y := by
  induction y using EReal.rec with
  | bot => exact absurd hy (by simp)
  | top => simp
  | coe r =>
    have hr : 0 ≤ r := by exact_mod_cast hy
    rw [Ideal.rsqrt_coe, if_neg (not_lt.mpr hr)]
    split
    · exact le_top
    · exact_mod_cast inv_nonneg.mpr (Real.sqrt_nonneg r)

/-- One entry of the normalising array: where the degree x is positive, the reciprocal square root of
    max x c (which is at least x, hence positive); elsewhere zero. Either way it is not negative. -/
theorem dinv_entry_nonneg (x c : Ideal .f32) :
    (0 : EReal) ≤ Scalar.select (FloatOps.cmpf .ogt x (Ideal.ofBits .f32 0x00000000#32))
      (FloatOps.hostUnary .rsqrt (FloatOps.maximumf x c)) (Ideal.ofBits .f32 0x00000000#32) := by
  rw [Ideal.ofBits_zero_f32, Ideal.hostUnary_rsqrt_def, Ideal.maximumf_def]
  show (0 : EReal) ≤ if (BitVec.ofBool (decide ((0 : EReal) < x))) = 1 then Ideal.rsqrt (max x c) else 0
  split
  · rename_i h
    have hx : (0 : EReal) < x := by
      by_contra hn
      rw [decide_eq_false hn] at h
      exact absurd h (by decide)
    exact rsqrt_nonneg (le_trans hx.le (le_max_left x c))
  · exact le_refl _

/-- THE NORMALISING ARRAY IS NOT NEGATIVE. For any array deg: the array that holds 1 / √(max deg c) where deg is
    positive and 0 elsewhere has every entry ≥ 0. The three constants are rank-0 arrays broadcast to the shape; the
    clamp c may be any bit pattern. -/
theorem dinv_nonneg {s : Shape} (hb hb' hb'' : (⟨0, ![]⟩ : Shape).BroadcastsInDim s ![]) (c : BitVec 32)
    (deg : FVec Ideal s .f32) (i : s.Idx) :
    (0 : EReal) ≤ select (cmpf .ogt deg (broadcastInDim s ![] hb (constant ⟨0, ![]⟩ .f32 0x00000000#32)))
      (Host.rsqrt (maximumf deg (broadcastInDim s ![] hb' (constant ⟨0, ![]⟩ .f32 c))))
      (broadcastInDim s ![] hb'' (constant ⟨0, ![]⟩ .f32 0x00000000#32)) i :=
  dinv_entry_nonneg (deg i) (Ideal.ofBits .f32 c)

/-- THE EDGE WEIGHT IS NOT NEGATIVE. Two gathers out of an array whose entries are all ≥ 0, multiplied entry by
    entry: each gathered entry is an entry of the array, and a product of two extended reals ≥ 0 is ≥ 0. -/
theorem mul_gather_nonneg {s si si' t : Shape} {w w' : Nat} (d : FVec Ideal s .f32) (hd : ∀ i, (0 : EReal) ≤ d i)
    (gd : GatherDims s si t) (gd' : GatherDims s si' t) (i1 : IVec si w) (i2 : IVec si' w') (e : t.Idx) :
    (0 : EReal) ≤ mulf (Host.gather gd d i1) (Host.gather gd' d i2) e :=
  EReal.mul_nonneg (hd _) (hd _)

/-- The two together, spelled as the programs spell them. -/
theorem weight_nonneg {s si t : Shape} {w : Nat} (hb hb' hb'' : (⟨0, ![]⟩ : Shape).BroadcastsInDim s ![]) (c : BitVec 32)
    (deg : FVec Ideal s .f32) (gd gd' : GatherDims s si t) (i1 i2 : IVec si w) (e : t.Idx) :
    (0 : EReal) ≤ mulf
      (Host.gather gd (select (cmpf .ogt deg (broadcastInDim s ![] hb (constant ⟨0, ![]⟩ .f32 0x00000000#32)))
        (Host.rsqrt (maximumf deg (broadcastInDim s ![] hb' (constant ⟨0, ![]⟩ .f32 c))))
        (broadcastInDim s ![] hb'' (constant ⟨0, ![]⟩ .f32 0x00000000#32))) i1)
      (Host.gather gd' (select (cmpf .ogt deg (broadcastInDim s ![] hb (constant ⟨0, ![]⟩ .f32 0x00000000#32)))
        (Host.rsqrt (maximumf deg (broadcastInDim s ![] hb' (constant ⟨0, ![]⟩ .f32 c))))
        (broadcastInDim s ![] hb'' (constant ⟨0, ![]⟩ .f32 0x00000000#32))) i2) e :=
  mul_gather_nonneg _ (dinv_nonneg hb hb' hb'' c deg) gd gd' i1 i2 e

/-! ### The range of the edge words -/

/-- EVERY ENTRY OF A CONCATENATION IS AN ENTRY OF A PIECE. If a property holds of every entry of every array in
    the list, it holds of every entry of their concatenation along any axis. -/
theorem concatenate_forall {α : Type} (P : α → Prop) (t : Shape) (a : Fin t.rank) (xs : List ((s : Shape) × (s.Idx → α)))
    (h : Shape.Concatenates (xs.map (·.1)) t a) (hall : ∀ p ∈ xs, ∀ i, P (p.2 i)) (j : t.Idx) :
    P (concatenate t a xs h j) := by
  unfold concatenate
  exact hall _ (List.getElem_mem _) _

/-- A 32-bit word whose signed value lies in [0, 8192): the number of a node. -/
def IsNode (v : BitVec 32) : Prop := 0 ≤ v.toInt ∧ v.toInt < 8192

/-- The k-th number of the count 0, 1, …, 8191 as a 32-bit word, read signed, lies in [0, 8192). -/
theorem iota_range (i : (⟨1, ![8192]⟩ : Shape).Idx) : IsNode (iotaInDim ⟨1, ![8192]⟩ 32 0 i) := by
  have hlt : (i 0).val < 8192 := (i 0).isLt
  show 0 ≤ (BitVec.ofNat 32 (i 0).val).toInt ∧ (BitVec.ofNat 32 (i 0).val).toInt < 8192
  rw [toInt_ofNat_of_lt (by omega)]
  omega

/-- 262144 node numbers followed by 0, 1, …, 8191 are 270336 node numbers. -/
theorem words_range_of_piece (A : IVec ⟨1, ![262144]⟩ 32) (hA : ∀ i, IsNode (A i))
    (hcat : Shape.Concatenates [⟨1, ![262144]⟩, ⟨1, ![8192]⟩] ⟨1, ![270336]⟩ 0) (j : (⟨1, ![270336]⟩ : Shape).Idx) :
    IsNode (concatenate ⟨1, ![270336]⟩ 0 [⟨⟨1, ![262144]⟩, A⟩, ⟨⟨1, ![8192]⟩, iotaInDim ⟨1, ![8192]⟩ 32 0⟩] hcat j) := by
  have H := concatenate_forall IsNode (⟨1, ![270336]⟩ : Shape) 0
    [⟨⟨1, ![262144]⟩, A⟩, ⟨⟨1, ![8192]⟩, iotaInDim ⟨1, ![8192]⟩ 32 0⟩] hcat
  apply H
  intro p hp i
  rcases List.mem_cons.mp hp with rfl | hp
  · exact hA _
  · rcases List.mem_cons.mp hp with rfl | hp
    · exact iota_range i
    · exact absurd hp (List.not_mem_nil)

/-- THE EDGE WORDS ARE NODE NUMBERS. If every entry of the 2 × 262144 array lies in [0, 8192), then so does every
    one of the 270336 words "a row of it (a 1 × 262144 slice at any offset, flattened) followed by 0, 1, …, 8191":
    a word is either an entry of the array or one of the counted numbers. -/
theorem words_isNode (off : Fin 2 → Nat) (ei : IVec ⟨2, ![2, 262144]⟩ 32)
    (hr : ∀ i, 0 ≤ (ei i).toInt ∧ (ei i).toInt < 8192)
    (hs : (⟨2, ![2, 262144]⟩ : Shape).Slices off ⟨2, ![1, 262144]⟩)
    (hc : (⟨2, ![1, 262144]⟩ : Shape).ShapeCasts ⟨1, ![262144]⟩)
    (hcat : Shape.Concatenates [⟨1, ![262144]⟩, ⟨1, ![8192]⟩] ⟨1, ![270336]⟩ 0) (j : (⟨1, ![270336]⟩ : Shape).Idx) :
    IsNode (concatenate ⟨1, ![270336]⟩ 0
          [⟨⟨1, ![262144]⟩, shapeCast ⟨1, ![262144]⟩ (extractStridedSlice ⟨2, ![1, 262144]⟩ off ei hs) hc⟩,
           ⟨⟨1, ![8192]⟩, iotaInDim ⟨1, ![8192]⟩ 32 0⟩] hcat j) := by
  have hA : ∀ i, IsNode (shapeCast ⟨1, ![262144]⟩ (extractStridedSlice ⟨2, ![1, 262144]⟩ off ei hs) hc i) := by
    intro i
    show IsNode (ei _)
    exact hr _
  exact words_range_of_piece _ hA hcat j

/-- The same, with the range written out. -/
theorem words_range (off : Fin 2 → Nat) (ei : IVec ⟨2, ![2, 262144]⟩ 32)
    (hr : ∀ i, 0 ≤ (ei i).toInt ∧ (ei i).toInt < 8192)
    (hs : (⟨2, ![2, 262144]⟩ : Shape).Slices off ⟨2, ![1, 262144]⟩)
    (hc : (⟨2, ![1, 262144]⟩ : Shape).ShapeCasts ⟨1, ![262144]⟩)
    (hcat : Shape.Concatenates [⟨1, ![262144]⟩, ⟨1, ![8192]⟩] ⟨1, ![270336]⟩ 0) (j : (⟨1, ![270336]⟩ : Shape).Idx) :
    0 ≤ (concatenate (α := BitVec 32) ⟨1, ![270336]⟩ 0
          [⟨⟨1, ![262144]⟩, shapeCast ⟨1, ![262144]⟩ (extractStridedSlice ⟨2, ![1, 262144]⟩ off ei hs) hc⟩,
           ⟨⟨1, ![8192]⟩, iotaInDim ⟨1, ![8192]⟩ 32 0⟩] hcat j).toInt
      ∧ (concatenate (α := BitVec 32) ⟨1, ![270336]⟩ 0
          [⟨⟨1, ![262144]⟩, shapeCast ⟨1, ![262144]⟩ (extractStridedSlice ⟨2, ![1, 262144]⟩ off ei hs) hc⟩,
           ⟨⟨1, ![8192]⟩, iotaInDim ⟨1, ![8192]⟩ 32 0⟩] hcat j).toInt < 8192 :=
  words_isNode off ei hr hs hc hcat j

/-! ### Words that are not negative -/

/-- THE WRAP IS THE IDENTITY. On an array of words none of which is negative (read signed), "where the word is
    below 0, the word plus the extent, else the word" is the array itself. -/
theorem wrap_id {s : Shape} {w : Nat} (hb hb' : (⟨0, ![]⟩ : Shape).BroadcastsInDim s ![]) (n : BitVec w)
    (x : IVec s w) (hx : ∀ i, 0 ≤ (x i).toInt) :
    select (cmpi .slt x (broadcastInDim s ![] hb (constantI ⟨0, ![]⟩ w 0#w)))
      (addi x (broadcastInDim s ![] hb' (constantI ⟨0, ![]⟩ w n))) x = x := by
  funext i
  show Scalar.select (IntOp.cmpi .slt (x i) 0#w) _ (x i) = x i
  have hc : ¬ IntOp.cmpi .slt (x i) 0#w = 1#1 := by
    rw [IntOp.cmpi_slt, BitVec.toInt_zero]
    exact not_lt.mpr (hx i)
  exact if_neg hc

/-- THE NODE OF A WORD IN RANGE. A word whose signed value lies in [0, 8192) names the node of that value: the
    clamp into [0, 8191] does nothing, and the value is a valid position. -/
theorem node_eq {w : Nat} (v : BitVec w) (h0 : 0 ≤ v.toInt) (h1 : v.toInt < 8192) :
    (Cert.LibRowGather.rowOf 8192 (by decide) v).val = v.toInt.toNat ∧ v.toInt.toNat < 8192 := by
  have : v.toInt.toNat < 8192 := by omega
  refine ⟨?_, this⟩
  show min v.toInt.toNat (8192 - 1) = v.toInt.toNat
  omega

/-- A word that is not negative read signed has the same value read unsigned. -/
theorem toInt_toNat_of_nonneg {w : Nat} (v : BitVec w) (h0 : 0 ≤ v.toInt) : v.toInt.toNat = v.toNat := by
  have hx := BitVec.toInt_eq_toNat_cond v
  have hl := v.isLt
  split at hx <;> omega

/-- The wrapped words of an array of node numbers are the same node numbers. -/
theorem wrap_isNode {s : Shape} (hb hb' : (⟨0, ![]⟩ : Shape).BroadcastsInDim s ![]) (n : BitVec 32)
    (x : IVec s 32) (hx : ∀ i, IsNode (x i)) (i : s.Idx) :
    IsNode (select (cmpi .slt x (broadcastInDim s ![] hb (constantI ⟨0, ![]⟩ 32 0#32)))
      (addi x (broadcastInDim s ![] hb' (constantI ⟨0, ![]⟩ 32 n))) x i) := by
  rw [wrap_id hb hb' n x (fun i => (hx i).1)]
  exact hx i

end Cert.Edges
-- ==== Proof.KI.HostValue.lean ====
/-
  What the host operations between the kernel regions hold, index by index, at the ideal instance.

  Each stretch of host operations rewrites a few buffers as functions of the contents it finds. Read at an index:
  a vector reshaped to a one-row matrix holds at (0, f) the vector's entry f; two matrices laid side by side hold in
  the columns below 128 the first and in column 128 + g column g of the second, two vectors laid end to end likewise;
  the two halves cut out of a matrix of 256 columns hold its columns g and 128 + g. The dense adjacency matrix,
  an accumulating scatter of the edge weights into a zero matrix at the (target, source) pairs, holds at (i, j)
  zero plus the sum of the weights of the edges with target i and source j.
-/
import proofs.«155600_j21663815041514_2_alg».proof.Proof.Gen.KernelIdeal.Launch
import proofs.«155600_j21663815041514_2_alg».proof.Proof.Gen.KernelIdeal.Regions
import proofs.«155600_j21663815041514_2_alg».proof.Proof.Spec
import proofs.«155600_j21663815041514_2_alg».proof.Proof.LibScatterEntries
import proofs.«155600_j21663815041514_2_alg».proof.Proof.LibRowGather
import proofs.«155600_j21663815041514_2_alg».proof.Proof.LibCuts
import proofs.«155600_j21663815041514_2_alg».proof.Proof.LibRowCast
import proofs.«155600_j21663815041514_2_alg».proof.Proof.LibIndexRange
import proofs.«155600_j21663815041514_2_alg».proof.Proof.Edges
import Idealize.ShloMosaic.Lib.StableHlo.Run
import Idealize.ShloMosaic.Lib.ValueIdx
import Idealize.ShloMosaic.Lib.ValueLayout
import Idealize.ShloMosaic.Lib.IdealHost
import Idealize.ShloMosaic.Lib.Affine

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

variable (W : Valuation τ sig (Elt Ideal))

/-! ## The bias of the hidden layer as a one-row matrix -/

/-- The vector reshaped to a one-row matrix holds at (0, f) the vector's entry f. -/
theorem host1_v48 (f : Fin 512) :
    (StableHlo.after (hostOps1 (F := Ideal)) W (Proc.devRef .tc main_v48) : S1x512.Idx → EReal) (ix2 (0 : Fin 1) f)
      = (W (Proc.devRef .tc main_arg3) : S512.Idx → EReal) (ix1 f) := by
  have e : (StableHlo.after (hostOps1 (F := Ideal)) W (Proc.devRef .tc main_v48) : S1x512.Idx → EReal)
      = shapeCast S1x512 (W (Proc.devRef .tc main_arg3) : S512.Idx → EReal) shapeCasts_S512_S1x512 := by
    after_results
    all_goals rfl
  rw [e]
  exact shapeCast_a_1a_apply _ _ 0 f

/-! ## The two weight matrices side by side, the two biases end to end -/

/-- The two matrices laid side by side along the columns: columns below 128 from the first, 128 + g from the second. -/
theorem host2_v50 (f : Fin 512) (g : Fin 256) :
    (StableHlo.after (hostOps2 (F := Ideal)) W (Proc.devRef .tc main_v50) : S512x256.Idx → EReal) (ix2 f g)
      = Cert.Spec.sideBySide (fun a b => (W (Proc.devRef .tc main_arg4) : S512x128.Idx → EReal) (ix2 a b))
          (fun a b => (W (Proc.devRef .tc main_arg6) : S512x128.Idx → EReal) (ix2 a b)) f g := by
  have e : (StableHlo.after (hostOps2 (F := Ideal)) W (Proc.devRef .tc main_v50) : S512x256.Idx → EReal)
      = concatenate S512x256 1 [⟨S512x128, (W (Proc.devRef .tc main_arg4) : S512x128.Idx → EReal)⟩,
          ⟨S512x128, (W (Proc.devRef .tc main_arg6) : S512x128.Idx → EReal)⟩] concatenates_S512x128_S512x128_S512x256_d1 := by
    after_results
    all_goals rfl
  rw [e]
  revert g
  refine Cert.LibCuts.forall_fin_add (a := 128) (b := 128) rfl (fun i hi => ?_) (fun i hi => ?_)
  · unfold Cert.Spec.sideBySide
    rw [dif_pos (show (⟨i.val, hi⟩ : Fin 256).val < 128 from i.isLt)]
    exact Cert.LibCuts.concat2_cols_left _ _ _ f i hi
  · unfold Cert.Spec.sideBySide
    rw [dif_neg (show ¬ (⟨128 + i.val, hi⟩ : Fin 256).val < 128 from Nat.not_lt.mpr (Nat.le_add_right 128 i.val))]
    refine (Cert.LibCuts.concat2_cols_right _ _ _ f i hi).trans ?_
    exact congrArg (fun k : Fin 128 => (W (Proc.devRef .tc main_arg6) : S512x128.Idx → EReal) (ix2 f k))
      (Fin.ext (show i.val = 128 + i.val - 128 from (Nat.add_sub_cancel_left 128 i.val).symm))

/-- The two vectors laid end to end: entries below 128 from the first, 128 + g from the second. -/
theorem host2_v51 (g : Fin 256) :
    (StableHlo.after (hostOps2 (F := Ideal)) W (Proc.devRef .tc main_v51) : S256.Idx → EReal) (ix1 g)
      = Cert.Spec.endToEnd (fun a => (W (Proc.devRef .tc main_arg5) : S128.Idx → EReal) (ix1 a))
          (fun a => (W (Proc.devRef .tc main_arg7) : S128.Idx → EReal) (ix1 a)) g := by
  have e : (StableHlo.after (hostOps2 (F := Ideal)) W (Proc.devRef .tc main_v51) : S256.Idx → EReal)
      = concatenate S256 0 [⟨S128, (W (Proc.devRef .tc main_arg5) : S128.Idx → EReal)⟩,
          ⟨S128, (W (Proc.devRef .tc main_arg7) : S128.Idx → EReal)⟩] concatenates_S128_S128_S256_d0 := by
    after_results
    all_goals rfl
  rw [e]
  revert g
  refine Cert.LibCuts.forall_fin_add (a := 128) (b := 128) rfl (fun i hi => ?_) (fun i hi => ?_)
  · unfold Cert.Spec.endToEnd
    rw [dif_pos (show (⟨i.val, hi⟩ : Fin 256).val < 128 from i.isLt)]
    show concatenate S256 0 [⟨S128, (W (Proc.devRef .tc main_arg5) : S128.Idx → EReal)⟩,
        ⟨S128, (W (Proc.devRef .tc main_arg7) : S128.Idx → EReal)⟩] concatenates_S128_S128_S256_d0 (ix1 (⟨i.val, hi⟩ : Fin 256))
      = (W (Proc.devRef .tc main_arg5) : S128.Idx → EReal) (ix1 i)
    exact concatenate_pair_apply_left (t := S256) (s₁ := S128) (s₂ := S128) 0 _ _ concatenates_S128_S128_S256_d0
      (ix1 (⟨i.val, hi⟩ : Fin 256)) rfl (ix1 i) (fun b => by
        match b with
        | ⟨0, _⟩ => rfl)
  · unfold Cert.Spec.endToEnd
    rw [dif_neg (show ¬ (⟨128 + i.val, hi⟩ : Fin 256).val < 128 from Nat.not_lt.mpr (Nat.le_add_right 128 i.val))]
    refine (concatenate_pair_apply_right (t := S256) (s₁ := S128) (s₂ := S128) 0 _ _ concatenates_S128_S128_S256_d0
      (ix1 (⟨128 + i.val, hi⟩ : Fin 256)) rfl rfl (ix1 i) (fun b hb => by
        match b with
        | ⟨0, _⟩ => exact absurd rfl hb) (by show i.val + 128 = 128 + i.val; omega)).trans ?_
    exact congrArg (fun k : Fin 128 => (W (Proc.devRef .tc main_arg7) : S128.Idx → EReal) (ix1 k))
      (Fin.ext (show i.val = 128 + i.val - 128 from (Nat.add_sub_cancel_left 128 i.val).symm))

/-! ## The doubled bias as a one-row matrix -/

/-- The vector reshaped to a one-row matrix holds at (0, g) the vector's entry g. -/
theorem host3_v53 (g : Fin 256) :
    (StableHlo.after (hostOps3 (F := Ideal)) W (Proc.devRef .tc main_v53) : S1x256.Idx → EReal) (ix2 (0 : Fin 1) g)
      = (W (Proc.devRef .tc main_v51) : S256.Idx → EReal) (ix1 g) := by
  have e : (StableHlo.after (hostOps3 (F := Ideal)) W (Proc.devRef .tc main_v53) : S1x256.Idx → EReal)
      = shapeCast S1x256 (W (Proc.devRef .tc main_v51) : S256.Idx → EReal) shapeCasts_S256_S1x256 := by
    after_results
    all_goals rfl
  rw [e]
  exact shapeCast_a_1a_apply _ _ 0 g

/-! ## The two halves of the matrix of doubled width -/

/-- The left half: columns 0 to 127. -/
theorem host4_v55 (i : Fin 8192) (g : Fin 128) :
    (StableHlo.after (hostOps4 (F := Ideal)) W (Proc.devRef .tc main_v55) : S8192x128.Idx → EReal) (ix2 i g)
      = (W (Proc.devRef .tc main_v54) : S8192x256.Idx → EReal) (ix2 i (⟨g.val, by omega⟩ : Fin 256)) := by
  have e : (StableHlo.after (hostOps4 (F := Ideal)) W (Proc.devRef .tc main_v55) : S8192x128.Idx → EReal)
      = extractStridedSlice S8192x128 ![0, 0] (W (Proc.devRef .tc main_v54) : S8192x256.Idx → EReal)
          slices_S8192x256_S8192x128_0_0 := by
    after_results
    all_goals rfl
  rw [e]
  exact slice2_axis1_apply 0 _ _ i g _ (Nat.zero_add _).symm

/-- The right half: columns 128 to 255. -/
theorem host4_v56 (i : Fin 8192) (g : Fin 128) :
    (StableHlo.after (hostOps4 (F := Ideal)) W (Proc.devRef .tc main_v56) : S8192x128.Idx → EReal) (ix2 i g)
      = (W (Proc.devRef .tc main_v54) : S8192x256.Idx → EReal) (ix2 i (⟨128 + g.val, by omega⟩ : Fin 256)) := by
  have e : (StableHlo.after (hostOps4 (F := Ideal)) W (Proc.devRef .tc main_v56) : S8192x128.Idx → EReal)
      = extractStridedSlice S8192x128 ![0, 128] (W (Proc.devRef .tc main_v54) : S8192x256.Idx → EReal)
          slices_S8192x256_S8192x128_0_128 := by
    after_results
    all_goals rfl
  rw [e]
  exact slice2_axis1_apply 128 _ _ i g _ rfl

/-! ## The edge weights and the dense adjacency matrix -/

/-- An edge word with a negative value moved up by 8192; a word in [0, 8192) is left as it is. -/
abbrev wrapW (w : IVec S270336 32) : IVec S270336 32 :=
  select (cmpi .slt w (broadcastInDim S270336 ![] bcast_S_S270336 (constantI S_ 32 0#32)))
    (addi w (broadcastInDim S270336 ![] bcast_S_S270336 (constantI S_ 32 8192#32))) w

/-- The weight of every edge: the product of the node factor at its source and at its target. -/
abbrev edgeWt (d : FVec Ideal S8192 .f32) (w3 w6 : IVec S270336 32) : FVec Ideal S270336 .f32 :=
  mulf (Host.gather gather_S8192_S270336x1_S270336_n_0_n_n_0_1_1 d (broadcastInDim S270336x1 ![0] bcast_S270336_S270336x1_0 (wrapW w3)))
    (Host.gather gather_S8192_S270336x1_S270336_n_0_n_n_0_1_1 d (broadcastInDim S270336x1 ![0] bcast_S270336_S270336x1_0 (wrapW w6)))

/-- A word in [0, 8192) is not moved. -/
theorem wrapW_apply (w : IVec S270336 32) (i : S270336.Idx) (h : 0 ≤ (w i).toInt) : wrapW w i = w i := by
  show Scalar.select (IntOp.cmpi .slt (w i) 0#32) (IntOp.addi (w i) 8192#32) (w i) = w i
  have hn : ¬ IntOp.cmpi .slt (w i) 0#32 = 1#1 := fun hc => by
    have := IntOp.cmpi_slt.mp hc
    have hz : (0#32).toInt = 0 := by decide
    omega
  rw [eq_zero_of_ne_one hn, select_zero]

/-- The edge weights as the stretch leaves them. -/
theorem host0_2_v31 :
    (StableHlo.after (hostOps0_2 (F := Ideal)) W (Proc.devRef .tc main_v31) : S270336.Idx → EReal)
      = edgeWt (W (Proc.devRef .tc main_v16)) (W (Proc.devRef .tc main_v3)) (W (Proc.devRef .tc main_v6)) := by
  after_results_simp
  all_goals rfl

/-- The dense adjacency matrix as the stretch leaves it: at (i, j), zero plus the sum of the weights of the edges
    whose target word is i and whose source word is j, every edge word being a node number. -/
theorem host0_2_v46
    (h3 : ∀ e : Fin 270336, 0 ≤ ((W (Proc.devRef .tc main_v3) : S270336.Idx → BitVec 32) (ix1 e)).toInt
        ∧ ((W (Proc.devRef .tc main_v3) : S270336.Idx → BitVec 32) (ix1 e)).toInt < 8192)
    (h6 : ∀ e : Fin 270336, 0 ≤ ((W (Proc.devRef .tc main_v6) : S270336.Idx → BitVec 32) (ix1 e)).toInt
        ∧ ((W (Proc.devRef .tc main_v6) : S270336.Idx → BitVec 32) (ix1 e)).toInt < 8192)
    (i j : Fin 8192) :
    (StableHlo.after (hostOps0_2 (F := Ideal)) W (Proc.devRef .tc main_v46) : S8192x8192.Idx → EReal) (ix2 i j)
      = Cert.Spec.adj
          (fun e => Cert.LibRowGather.rowOf 8192 (by decide) ((W (Proc.devRef .tc main_v6) : S270336.Idx → BitVec 32) (ix1 e)))
          (fun e => Cert.LibRowGather.rowOf 8192 (by decide) ((W (Proc.devRef .tc main_v3) : S270336.Idx → BitVec 32) (ix1 e)))
          (fun e => edgeWt (W (Proc.devRef .tc main_v16)) (W (Proc.devRef .tc main_v3)) (W (Proc.devRef .tc main_v6)) (ix1 e))
          i j := by
  have e : (StableHlo.after (hostOps0_2 (F := Ideal)) W (Proc.devRef .tc main_v46) : S8192x8192.Idx → EReal)
      = Ideal.hostScatterAdd scatter_S8192x8192_S270336x2_S270336_n_01_01_1
          (broadcastInDim S8192x8192 ![] bcast_S_S8192x8192 (constant (F := Ideal) S_ .f32 0x00000000#32))
          (concatenate S270336x2 1
            [⟨S270336x1, broadcastInDim S270336x1 ![0] bcast_S270336_S270336x1_0 (wrapW (W (Proc.devRef .tc main_v6)))⟩,
             ⟨S270336x1, broadcastInDim S270336x1 ![0] bcast_S270336_S270336x1_0 (wrapW (W (Proc.devRef .tc main_v3)))⟩]
            concatenates_S270336x1_S270336x1_S270336x2_d1)
          (edgeWt (W (Proc.devRef .tc main_v16)) (W (Proc.devRef .tc main_v3)) (W (Proc.devRef .tc main_v6))) := by
    after_results_simp
    all_goals rfl
  -- an index column read at a row is the word, which is in range and so not moved
  have col1 : ∀ (w : IVec S270336 32) (u : Fin 270336),
      broadcastInDim S270336x1 ![0] bcast_S270336_S270336x1_0 w (ix2 u (0 : Fin 1)) = w (ix1 u) := fun w u =>
    broadcastInDim_apply ![0] bcast_S270336_S270336x1_0 w (ix2 u (0 : Fin 1)) (ix1 u) (fun a => by
      match a with
      | ⟨0, _⟩ =>
        exact (if_neg (show ¬ (S270336.size ⟨0, by decide⟩ = 1) from by decide)).symm)
  have node : ∀ v : BitVec 32, 0 ≤ v.toInt → v.toInt < 8192 →
      v.toInt = ((Cert.LibRowGather.rowOf 8192 (by decide) v).val : Int) := fun v h0 h1 => by
    show v.toInt = ((min v.toInt.toNat (8192 - 1) : ℕ) : ℤ)
    omega
  rw [e, ScatterEntries.scatterAdd_entries scatter_S8192x8192_S270336x2_S270336_n_01_01_1 rfl rfl rfl rfl
    (fun u => Cert.LibRowGather.rowOf 8192 (by decide) ((W (Proc.devRef .tc main_v6) : S270336.Idx → BitVec 32) (ix1 u)))
    (fun u => Cert.LibRowGather.rowOf 8192 (by decide) ((W (Proc.devRef .tc main_v3) : S270336.Idx → BitVec 32) (ix1 u)))
    _ (fun u => by
      rw [show (ix2 u (0 : Fin 2) : S270336x2.Idx) = ix2 u (⟨(0 : Fin 1).val, by decide⟩ : Fin 2) from rfl,
        Cert.LibCuts.concat2_cols_left _ _ _ u (0 : Fin 1) (by decide), col1, wrapW_apply _ _ (h6 u).1]
      exact node _ (h6 u).1 (h6 u).2)
    (fun u => by
      rw [show (ix2 u (1 : Fin 2) : S270336x2.Idx) = ix2 u (⟨1 + (0 : Fin 1).val, by decide⟩ : Fin 2) from rfl,
        Cert.LibCuts.concat2_cols_right _ _ _ u (0 : Fin 1) (by decide), col1, wrapW_apply _ _ (h3 u).1]
      exact node _ (h3 u).1 (h3 u).2)]
  unfold Cert.Spec.adj
  rw [broadcastInDim_scalar_apply, constant_apply, Ideal.ofBits_zero_f32]

/-- A product of two entries of an array of non-negative numbers is not negative. -/
theorem edgeWt_nonneg (d : FVec Ideal S8192 .f32) (hd : ∀ k, (0 : EReal) ≤ d k) (w3 w6 : IVec S270336 32) (e : S270336.Idx) :
    (0 : EReal) ≤ edgeWt d w3 w6 e :=
  Cert.Edges.mul_gather_nonneg d hd _ _ _ _ e

/-! ## The first stretches: the edge words, the degree, the normalising array -/

/-- A row of the edge array (the 1 × 262144 slice at an offset, flattened) followed by 0, 1, …, 8191. -/
abbrev wordsT (off : Fin 2 → ℕ) (hs : S2x262144.Slices off S1x262144) (ei : IVec S2x262144 32) : IVec S270336 32 :=
  concatenate S270336 0
    [⟨S262144, shapeCast S262144 (extractStridedSlice S1x262144 off ei hs) shapeCasts_S1x262144_S262144⟩,
     ⟨S8192, iotaInDim S8192 32 0⟩] concatenates_S262144_S8192_S270336_d0

/-- The source words: row 0 of the edge array and the self-loops. -/
abbrev rowW (ei : IVec S2x262144 32) : IVec S270336 32 := wordsT ![0, 0] slices_S2x262144_S1x262144_0_0 ei
/-- The target words: row 1 of the edge array and the self-loops. -/
abbrev colW (ei : IVec S2x262144 32) : IVec S270336 32 := wordsT ![1, 0] slices_S2x262144_S1x262144_1_0 ei

/-- The degree: ones accumulated at the target words into a zero vector. -/
abbrev degT (w6 : IVec S270336 32) : FVec Ideal S8192 .f32 :=
  Host.scatterAdd scatter_S8192_S270336x1_S270336_n_0_0_1
    (broadcastInDim S8192 ![] bcast_S_S8192 (constant S_ .f32 0x00000000#32))
    (broadcastInDim S270336x1 ![0] bcast_S270336_S270336x1_0 w6)
    (broadcastInDim S270336 ![] bcast_S_S270336 (constant S_ .f32 0x3F800000#32))

/-- The normalising array: the reciprocal square root of the degree where it is positive, zero elsewhere. -/
abbrev dinvT (deg : FVec Ideal S8192 .f32) : FVec Ideal S8192 .f32 :=
  select (cmpf .ogt deg (broadcastInDim S8192 ![] bcast_S_S8192 (constant S_ .f32 0x00000000#32)))
    (Host.rsqrt (maximumf deg (broadcastInDim S8192 ![] bcast_S_S8192 (constant S_ .f32 0x2B8CBCCC#32))))
    (broadcastInDim S8192 ![] bcast_S_S8192 (constant S_ .f32 0x00000000#32))

/-- The normalising array is not negative, whatever the degree. -/
theorem dinvT_nonneg (deg : FVec Ideal S8192 .f32) (k : S8192.Idx) : (0 : EReal) ≤ dinvT deg k :=
  Cert.Edges.dinv_nonneg bcast_S_S8192 bcast_S_S8192 bcast_S_S8192 0x2B8CBCCC#32 deg k

/-- Every word is a node number when every entry of the edge array is. -/
theorem wordsT_range (off : Fin 2 → ℕ) (hs : S2x262144.Slices off S1x262144) (ei : IVec S2x262144 32)
    (hr : ∀ i, 0 ≤ (ei i).toInt ∧ (ei i).toInt < 8192) (j : S270336.Idx) :
    0 ≤ (wordsT off hs ei j).toInt ∧ (wordsT off hs ei j).toInt < 8192 :=
  Cert.Edges.words_range off ei hr hs shapeCasts_S1x262144_S262144 concatenates_S262144_S8192_S270336_d0 j

/-- The source words as the first stretch leaves them. -/
theorem host0_v3 :
    (StableHlo.after (hostOps0 (F := Ideal)) W (Proc.devRef .tc main_v3) : S270336.Idx → BitVec 32)
      = rowW (W (Proc.devRef .tc main_arg0)) := by
  after_results
  all_goals rfl

/-- The target words as the first stretch leaves them. -/
theorem host0_v6 :
    (StableHlo.after (hostOps0 (F := Ideal)) W (Proc.devRef .tc main_v6) : S270336.Idx → BitVec 32)
      = colW (W (Proc.devRef .tc main_arg0)) := by
  after_results
  all_goals rfl

/-- The degree as the first stretch leaves it. -/
theorem host0_v10 :
    (StableHlo.after (hostOps0 (F := Ideal)) W (Proc.devRef .tc main_v10) : S8192.Idx → EReal)
      = degT (colW (W (Proc.devRef .tc main_arg0))) := by
  after_results
  all_goals rfl

/-- Where the degree is positive. -/
theorem host0_v12 :
    (StableHlo.after (hostOps0 (F := Ideal)) W (Proc.devRef .tc main_v12) : S8192.Idx → BitVec 1)
      = cmpf .ogt (degT (colW (W (Proc.devRef .tc main_arg0))))
          (broadcastInDim S8192 ![] bcast_S_S8192 (constant (F := Ideal) S_ .f32 0x00000000#32)) := by
  after_results
  all_goals rfl

/-- The reciprocal square root of the degree kept away from zero. -/
theorem host0_v15 :
    (StableHlo.after (hostOps0 (F := Ideal)) W (Proc.devRef .tc main_v15) : S8192.Idx → EReal)
      = Host.rsqrt (maximumf (degT (colW (W (Proc.devRef .tc main_arg0))))
          (broadcastInDim S8192 ![] bcast_S_S8192 (constant (F := Ideal) S_ .f32 0x2B8CBCCC#32))) := by
  after_results
  all_goals rfl

/-- The zero the normalising array holds where the degree is not positive. -/
theorem host0_cst_3 :
    (StableHlo.after (hostOps0 (F := Ideal)) W (Proc.devRef .tc main_cst_3) : S_.Idx → EReal)
      = constant (F := Ideal) S_ .f32 0x00000000#32 := by
  after_results
  all_goals rfl

/-- The normalising array as the second stretch leaves it. -/
theorem host0_1_v16 :
    (StableHlo.after (hostOps0_1 (F := Ideal)) W (Proc.devRef .tc main_v16) : S8192.Idx → EReal)
      = select (W (Proc.devRef .tc main_v12) : S8192.Idx → BitVec 1) (W (Proc.devRef .tc main_v15) : S8192.Idx → EReal)
          (broadcastInDim S8192 ![] bcast_S_S8192 (W (Proc.devRef .tc main_cst_3) : S_.Idx → EReal)) := by
  after_results
  all_goals rfl

/-! ## The dense adjacency matrix as a function of the edge array -/

/-- The target node of every edge. -/
abbrev colK (ei : IVec S2x262144 32) (e : Fin 270336) : Fin 8192 :=
  Cert.LibRowGather.rowOf 8192 (by decide) (colW ei (ix1 e))
/-- The source node of every edge. -/
abbrev rowK (ei : IVec S2x262144 32) (e : Fin 270336) : Fin 8192 :=
  Cert.LibRowGather.rowOf 8192 (by decide) (rowW ei (ix1 e))
/-- The weight of every edge. -/
abbrev nK (ei : IVec S2x262144 32) (e : Fin 270336) : EReal :=
  edgeWt (dinvT (degT (colW ei))) (rowW ei) (colW ei) (ix1 e)

/-- No edge weight is negative. -/
theorem nK_nonneg (ei : IVec S2x262144 32) (e : Fin 270336) : (0 : EReal) ≤ nK ei e :=
  edgeWt_nonneg _ (dinvT_nonneg _) _ _ _

/-- The three stretches together: when every entry of the edge array is a node number, the matrix they leave holds
    at (i, j) zero plus the sum of the weights of the edges from j to i. -/
theorem adjK (W0 : Valuation τ sig (Elt Ideal))
    (hr : ∀ i, 0 ≤ ((W0 (Proc.devRef .tc main_arg0) : S2x262144.Idx → BitVec 32) i).toInt
      ∧ ((W0 (Proc.devRef .tc main_arg0) : S2x262144.Idx → BitVec 32) i).toInt < 8192)
    (i j : Fin 8192) :
    (StableHlo.after (hostOps0_2 (F := Ideal)) (StableHlo.after (hostOps0_1 (F := Ideal))
        (StableHlo.after (hostOps0 (F := Ideal)) W0)) (Proc.devRef .tc main_v46) : S8192x8192.Idx → EReal) (ix2 i j)
      = Cert.Spec.adj (colK (W0 (Proc.devRef .tc main_arg0))) (rowK (W0 (Proc.devRef .tc main_arg0)))
          (nK (W0 (Proc.devRef .tc main_arg0))) i j := by
  have a3 : (StableHlo.after (hostOps0_1 (F := Ideal)) (StableHlo.after (hostOps0 (F := Ideal)) W0)
      (Proc.devRef .tc main_v3) : S270336.Idx → BitVec 32) = rowW (W0 (Proc.devRef .tc main_arg0)) :=
    (StableHlo.after_of_writes_sub hostOps0_1 _ hostOps0_1_writes (by decide)).trans (host0_v3 W0)
  have a6 : (StableHlo.after (hostOps0_1 (F := Ideal)) (StableHlo.after (hostOps0 (F := Ideal)) W0)
      (Proc.devRef .tc main_v6) : S270336.Idx → BitVec 32) = colW (W0 (Proc.devRef .tc main_arg0)) :=
    (StableHlo.after_of_writes_sub hostOps0_1 _ hostOps0_1_writes (by decide)).trans (host0_v6 W0)
  have a16 : (StableHlo.after (hostOps0_1 (F := Ideal)) (StableHlo.after (hostOps0 (F := Ideal)) W0)
      (Proc.devRef .tc main_v16) : S8192.Idx → EReal) = dinvT (degT (colW (W0 (Proc.devRef .tc main_arg0)))) := by
    rw [host0_1_v16, host0_v12, host0_v15, host0_cst_3]
  have key := host0_2_v46 (StableHlo.after (hostOps0_1 (F := Ideal)) (StableHlo.after (hostOps0 (F := Ideal)) W0))
    (by rw [a3]; exact fun e => wordsT_range _ _ _ hr _) (by rw [a6]; exact fun e => wordsT_range _ _ _ hr _) i j
  rw [a3, a6, a16] at key
  exact key

/-- The same at the contents the first kernel region is entered with. -/
theorem adjK_V3 (m : (ℓ : Loc nD τ sig) → Buf (Elt Ideal) ℓ) (c : Dev nD)
    (hr : ∀ i, 0 ≤ ((V0 m c (Proc.devRef .tc main_arg0) : S2x262144.Idx → BitVec 32) i).toInt
      ∧ ((V0 m c (Proc.devRef .tc main_arg0) : S2x262144.Idx → BitVec 32) i).toInt < 8192)
    (i j : Fin 8192) :
    (V3 m c (Proc.devRef .tc main_v46) : S8192x8192.Idx → EReal) (ix2 i j)
      = Cert.Spec.adj (colK (V0 m c (Proc.devRef .tc main_arg0))) (rowK (V0 m c (Proc.devRef .tc main_arg0)))
          (nK (V0 m c (Proc.devRef .tc main_arg0))) i j :=
  adjK (V0 m c) hr i j

end Cert.KernelIdeal.Hand

end
-- ==== Proof.KI.Reg0Value.lean ====
/- REGION 0 at the ideal numbers: the output array after the region, index by index, is the matrix product of the two
   arrays the region reads as it finds them. The body's payload at an index is the sum over the contracted axis of the
   products of the two blocks' entries; the left block at point `t` is rows `2048 t … 2048 t + 2047` of the left array and
   the right block is the whole right array, so what point `t` writes back is block `t` of the product; the four row
   blocks cover the output array. -/
import proofs.«155600_j21663815041514_2_alg».proof.Proof.KI.Reg0
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- The matrix product of a [8192,512] array with a [512,512] array, index by index. -/
def prod0 (a : S8192x512.Idx → Elt Ideal .f32) (b : S512x512.Idx → Elt Ideal .f32) : S8192x512.Idx → Elt Ideal .f32 :=
  fun i => ∑ k : Fin 512, a (ValueIdx.ix2 (i 0) k) * b (ValueIdx.ix2 k (i 1))

/-- The product at `(i, j)`: the sum over `k` of `a (i, k) * b (k, j)`. -/
theorem prod0_apply (a : S8192x512.Idx → Elt Ideal .f32) (b : S512x512.Idx → Elt Ideal .f32) (i : Fin 8192) (j : Fin 512) :
    prod0 a b (ValueIdx.ix2 i j) = ∑ k : Fin 512, a (ValueIdx.ix2 i k) * b (ValueIdx.ix2 k j) := rfl

theorem zero_off0 : (![0, 0] : Fin 2 → Nat) = fun _ => 0 := funext fun a => by fin_cases a <;> rfl

/-! ## The body's payload at an index -/

/-- The product's operand indices at output index `i` and contraction index `q`: the left operand's are `(i 0, q)`, -/
theorem dot0_lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem dot0_lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- and the right operand's are `(q, i 1)`. -/
theorem dot0_rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem dot0_rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The payload of the body's store at `(p, q)`: the sum over `k` of the left block's `(p, k)` times the right block's
    `(k, q)` (the product accumulates into zero). -/
theorem pay0_apply (x0 : Vec Ideal S2048x512 .f32) (x1 : Vec Ideal S512x512 .f32) (p : Fin 2048) (q : Fin 512) :
    k0_pay1 (F := Ideal) x0 x1 (ValueIdx.ix2 p q) = ∑ k : Fin 512, x0 (ValueIdx.ix2 p k) * x1 (ValueIdx.ix2 k q) := by
  unfold k0_pay1
  show FloatOps.matmul (F := Ideal) dot_S2048x512_S512x512_S2048x512_1_0_0_1_n_n none _ _ (constant S2048x512 .f32 0x00000000#32) (ValueIdx.ix2 p q) = _
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ValueIdx.ix2 p q) ((ValueIdx.contrEquiv1 dot_S2048x512_S512x512_S2048x512_1_0_0_1_n_n 512 rfl rfl).symm k) = ValueIdx.ix2 p k := funext fun a => Fin.ext (by
    match a with
    | ⟨0, _⟩ => exact dot0_lhs_0 _ _
    | ⟨1, _⟩ => exact (dot0_lhs_1 _ _).trans hk)
  have er : dot_S2048x512_S512x512_S2048x512_1_0_0_1_n_n.rhsIdx (ValueIdx.ix2 p q) ((ValueIdx.contrEquiv1 dot_S2048x512_S512x512_S2048x512_1_0_0_1_n_n 512 rfl rfl).symm k) = ValueIdx.ix2 k q := funext fun a => Fin.ext (by
    match a with
    | ⟨0, _⟩ => exact (dot0_rhs_0 _ _).trans hk
    | ⟨1, _⟩ => exact dot0_rhs_1 _ _)
  rw [el, er]

/-- So, for any left block that is rows `2048 T …` of `a` and any right block that is `b`, the payload at `y` is the
    product of `a` and `b` at the index `i` that `y` is sent to (row `2048 T + y 0`, column `y 1`). -/
theorem pay0_block (a : S8192x512.Idx → Elt Ideal .f32) (b : S512x512.Idx → Elt Ideal .f32)
    (x0 : Vec Ideal S2048x512 .f32) (x1 : Vec Ideal S512x512 .f32) (T : Nat)
    (h0 : ∀ (y : S2048x512.Idx) (i : S8192x512.Idx), (i 0).val = T * 2048 + (y 0).val → (i 1).val = (y 1).val → x0 y = a i)
    (h1 : ∀ y : S512x512.Idx, x1 y = b y)
    (y : S2048x512.Idx) (i : S8192x512.Idx) (hi0 : (i 0).val = T * 2048 + (y 0).val) (hi1 : (i 1).val = (y 1).val) :
    k0_pay1 (F := Ideal) x0 x1 y = prod0 a b i := by
  obtain ⟨p, q, rfl⟩ : ∃ (p : Fin 2048) (q : Fin 512), y = ValueIdx.ix2 p q := ⟨y 0, y 1, ValueIdx.eq_ix2 y⟩
  obtain ⟨r, s, rfl⟩ : ∃ (r : Fin 8192) (s : Fin 512), i = ValueIdx.ix2 r s := ⟨i 0, i 1, ValueIdx.eq_ix2 i⟩
  obtain rfl : s = q := Fin.ext hi1
  rw [pay0_apply]
  show _ = ∑ k : Fin 512, a (ValueIdx.ix2 r k) * b (ValueIdx.ix2 k s)
  refine Finset.sum_congr rfl fun k _ => ?_
  rw [h0 (ValueIdx.ix2 p k) (ValueIdx.ix2 r k) hi0 rfl, h1]

section
variable (V : (c : Dev nD) → (b : Ref sig .tc) → Buf (Elt Ideal) ((c : Thread nD τ).loc b))

/-! ## The windows' blocks as parts of their arrays -/

/-- The printed index maps over the four grid points: the left window's and the output window's block index is
    `(t, 0)`, the right window's is `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2048 t … 2048 t + 2047` of the left array. -/
theorem iblk0_0_apply (c : Dev nD) (t : Fin cfg0.N) (y : S2048x512.Idx) (i : S8192x512.Idx)
    (h0 : (i 0).val = t.val * 2048 + (y 0).val) (h1 : (i 1).val = (y 1).val) :
    (iblk0 V c 0 t : Vec Ideal S2048x512 .f32) y = (V c main_arg1 : S8192x512.Idx → Elt Ideal .f32) i := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 2048 + 1 * (y 0).val = (i 0).val; rw [e0, h0]; omega
  | ⟨1, _⟩ => show win0_0.index t 1 * 512 + 1 * (y 1).val = (i 1).val; rw [e1, h1]; omega

/-- The right window's block at every point is the whole right array. -/
theorem iblk0_1_apply (c : Dev nD) (t : Fin cfg0.N) (y : S512x512.Idx) :
    (iblk0 V c 1 t : Vec Ideal S512x512 .f32) y = (V c main_arg2 : S512x512.Idx → Elt Ideal .f32) y := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 512 + 1 * (y 0).val = (y 0).val; rw [e2]; omega
  | ⟨1, _⟩ => show win0_1.index t 1 * 512 + 1 * (y 1).val = (y 1).val; rw [e3]; omega

/-! ## What a point writes back, and the array after the region -/

/-- What point `t` writes back is block `t` of the product of the two arrays as the region finds them. -/
theorem flushed0_eq (c : Dev nD) (t : Fin cfg0.N) :
    (dat0 V c).flushed 2 t = ((cfg0.win 2).blk t).view.read (Elt Ideal) (prod0 (V c main_arg1) (V c main_arg2)) := by
  show (cfg0.win 2).cut (grid0.coords t) ((dat0 V c).after 2 t) = _
  rw [after0_2]
  unfold out0_2
  rw [View.canon_unit_zero zero_off0]
  simp only [View.ld_unit_zero (S := S2048x512) zero_off0, View.ld_unit_zero (S := S512x512) zero_off0]
  obtain ⟨-, -, -, -, e4, e5⟩ := idx_facts0 t
  funext y
  show k0_pay1 (iblk0 V c 0 t) (iblk0 V c 1 t) y = prod0 (V c main_arg1) (V c main_arg2) (((cfg0.win 2).blk t).view.emb y)
  refine pay0_block (V c main_arg1) (V c main_arg2) (iblk0 V c 0 t) (iblk0 V c 1 t) t.val
    (fun y i => iblk0_0_apply V c t y i) (fun y => iblk0_1_apply V c t y) y _ ?_ ?_
  · show win0_2.index t 0 * 2048 + 1 * (y 0).val = t.val * 2048 + (y 0).val; rw [e4]; omega
  · show win0_2.index t 1 * 512 + 1 * (y 1).val = (y 1).val; rw [e5]; omega

/-- An index of the output array is in point `t`'s block iff each coordinate is in the block's range on its axis. -/
theorem mem_blk0 (t : Fin cfg0.N) (i : S8192x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v47).slice (win0_2.rect t)).set ↔ _
  rw [View.set_slice_whole, Rect.mem_set_unit]
  exact Iff.rfl

/-- Every index of the output array is in the block of the point its row falls in, `row / 2048`. -/
theorem cover0 (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t 0 * 2048 ≤ (i 0).val ∧ (i 0).val < win0_2.index t 0 * 2048 + 2048; rw [e4, ht]; omega
  | ⟨1, _⟩ => show win0_2.index t 1 * 512 ≤ (i 1).val ∧ (i 1).val < win0_2.index t 1 * 512 + 512; rw [e5]; omega

/-- The output array after the region is the product of the two arrays the region reads, as it finds them. -/
theorem final0_arr (c : Dev nD) : (dat0 V c).arrAt 2 cfg0.N = prod0 (V c main_arg1) (V c main_arg2) :=
  (dat0 V c).arrAt_eq_of_cover 2 (prod0 (V c main_arg1) (V c main_arg2)) (fun t _ => flushed0_eq V c t) (cover0)

/-- Index by index: entry `(i, j)` is the product at `(i, j)`, the sum over `k` of the left array's `(i, k)` times the
    right array's `(k, j)` (`prod0_apply`). -/
theorem final0 (c : Dev nD) (i : Fin 8192) (j : Fin 512) :
    (dat0 (F := Ideal) V c).arrAt 2 cfg0.N (ValueIdx.ix2 i j) = prod0 (V c main_arg1) (V c main_arg2) (ValueIdx.ix2 i j) :=
  congrFun (final0_arr V c) (ValueIdx.ix2 i j)

end

end Cert.KernelIdeal.Hand

end
-- ==== Proof.KI.Reg2Value.lean ====
/- REGION 2 at the ideal numbers: the output array after the region, index by index, is the matrix product of the two
   arrays the region reads as it finds them. The body's payload at an index is the sum over the contracted axis of the
   products of the two blocks' entries; the left block at point `t` is rows `2048 t … 2048 t + 2047` of the left array and
   the right block is the whole right array, so what point `t` writes back is block `t` of the product; the four row
   blocks cover the output array. -/
import proofs.«155600_j21663815041514_2_alg».proof.Proof.KI.Reg2
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- The matrix product of a [8192,512] array with a [512,256] array, index by index. -/
def prod2 (a : S8192x512.Idx → Elt Ideal .f32) (b : S512x256.Idx → Elt Ideal .f32) : S8192x256.Idx → Elt Ideal .f32 :=
  fun i => ∑ k : Fin 512, a (ValueIdx.ix2 (i 0) k) * b (ValueIdx.ix2 k (i 1))

/-- The product at `(i, j)`: the sum over `k` of `a (i, k) * b (k, j)`. -/
theorem prod2_apply (a : S8192x512.Idx → Elt Ideal .f32) (b : S512x256.Idx → Elt Ideal .f32) (i : Fin 8192) (j : Fin 256) :
    prod2 a b (ValueIdx.ix2 i j) = ∑ k : Fin 512, a (ValueIdx.ix2 i k) * b (ValueIdx.ix2 k j) := rfl

theorem zero_off2 : (![0, 0] : Fin 2 → Nat) = fun _ => 0 := funext fun a => by fin_cases a <;> rfl

/-! ## The body's payload at an index -/

/-- The product's operand indices at output index `i` and contraction index `q`: the left operand's are `(i 0, q)`, -/
theorem dot2_lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem dot2_lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- and the right operand's are `(q, i 1)`. -/
theorem dot2_rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem dot2_rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The payload of the body's store at `(p, q)`: the sum over `k` of the left block's `(p, k)` times the right block's
    `(k, q)` (the product accumulates into zero). -/
theorem pay2_apply (x0 : Vec Ideal S2048x512 .f32) (x1 : Vec Ideal S512x256 .f32) (p : Fin 2048) (q : Fin 256) :
    k2_pay1 (F := Ideal) x0 x1 (ValueIdx.ix2 p q) = ∑ k : Fin 512, x0 (ValueIdx.ix2 p k) * x1 (ValueIdx.ix2 k q) := by
  unfold k2_pay1
  show FloatOps.matmul (F := Ideal) dot_S2048x512_S512x256_S2048x256_1_0_0_1_n_n none (shapeCast S2048x512 x0 shapeCasts_S2048x512_S2048x512) (shapeCast S512x256 x1 shapeCasts_S512x256_S512x256) (constant S2048x256 .f32 0x00000000#32) (ValueIdx.ix2 p q) = _
  rw [shapeCast_self, shapeCast_self]
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ValueIdx.ix2 p q) ((ValueIdx.contrEquiv1 dot_S2048x512_S512x256_S2048x256_1_0_0_1_n_n 512 rfl rfl).symm k) = ValueIdx.ix2 p k := funext fun a => Fin.ext (by
    match a with
    | ⟨0, _⟩ => exact dot2_lhs_0 _ _
    | ⟨1, _⟩ => exact (dot2_lhs_1 _ _).trans hk)
  have er : dot_S2048x512_S512x256_S2048x256_1_0_0_1_n_n.rhsIdx (ValueIdx.ix2 p q) ((ValueIdx.contrEquiv1 dot_S2048x512_S512x256_S2048x256_1_0_0_1_n_n 512 rfl rfl).symm k) = ValueIdx.ix2 k q := funext fun a => Fin.ext (by
    match a with
    | ⟨0, _⟩ => exact (dot2_rhs_0 _ _).trans hk
    | ⟨1, _⟩ => exact dot2_rhs_1 _ _)
  rw [el, er]

/-- So, for any left block that is rows `2048 T …` of `a` and any right block that is `b`, the payload at `y` is the
    product of `a` and `b` at the index `i` that `y` is sent to (row `2048 T + y 0`, column `y 1`). -/
theorem pay2_block (a : S8192x512.Idx → Elt Ideal .f32) (b : S512x256.Idx → Elt Ideal .f32)
    (x0 : Vec Ideal S2048x512 .f32) (x1 : Vec Ideal S512x256 .f32) (T : Nat)
    (h0 : ∀ (y : S2048x512.Idx) (i : S8192x512.Idx), (i 0).val = T * 2048 + (y 0).val → (i 1).val = (y 1).val → x0 y = a i)
    (h1 : ∀ y : S512x256.Idx, x1 y = b y)
    (y : S2048x256.Idx) (i : S8192x256.Idx) (hi0 : (i 0).val = T * 2048 + (y 0).val) (hi1 : (i 1).val = (y 1).val) :
    k2_pay1 (F := Ideal) x0 x1 y = prod2 a b i := by
  obtain ⟨p, q, rfl⟩ : ∃ (p : Fin 2048) (q : Fin 256), y = ValueIdx.ix2 p q := ⟨y 0, y 1, ValueIdx.eq_ix2 y⟩
  obtain ⟨r, s, rfl⟩ : ∃ (r : Fin 8192) (s : Fin 256), i = ValueIdx.ix2 r s := ⟨i 0, i 1, ValueIdx.eq_ix2 i⟩
  obtain rfl : s = q := Fin.ext hi1
  rw [pay2_apply]
  show _ = ∑ k : Fin 512, a (ValueIdx.ix2 r k) * b (ValueIdx.ix2 k s)
  refine Finset.sum_congr rfl fun k _ => ?_
  rw [h0 (ValueIdx.ix2 p k) (ValueIdx.ix2 r k) hi0 rfl, h1]

section
variable (V : (c : Dev nD) → (b : Ref sig .tc) → Buf (Elt Ideal) ((c : Thread nD τ).loc b))

/-! ## The windows' blocks as parts of their arrays -/

/-- The printed index maps over the four grid points: the left window's and the output window's block index is
    `(t, 0)`, the right window's is `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `2048 t … 2048 t + 2047` of the left array. -/
theorem iblk2_0_apply (c : Dev nD) (t : Fin cfg2.N) (y : S2048x512.Idx) (i : S8192x512.Idx)
    (h0 : (i 0).val = t.val * 2048 + (y 0).val) (h1 : (i 1).val = (y 1).val) :
    (iblk2 V c 0 t : Vec Ideal S2048x512 .f32) y = (V c main_v49 : S8192x512.Idx → Elt Ideal .f32) i := by
  obtain ⟨e0, e1, -⟩ := idx_facts2 t
  unfold iblk2
  rw [View.read_apply]
  show V c main_v49 _ = V c main_v49 _
  congr 1
  funext a
  apply Fin.ext
  match a with
  | ⟨0, _⟩ => show win2_0.index t 0 * 2048 + 1 * (y 0).val = (i 0).val; rw [e0, h0]; omega
  | ⟨1, _⟩ => show win2_0.index t 1 * 512 + 1 * (y 1).val = (i 1).val; rw [e1, h1]; omega

/-- The right window's block at every point is the whole right array. -/
theorem iblk2_1_apply (c : Dev nD) (t : Fin cfg2.N) (y : S512x256.Idx) :
    (iblk2 V c 1 t : Vec Ideal S512x256 .f32) y = (V c main_v50 : S512x256.Idx → Elt Ideal .f32) y := by
  obtain ⟨-, -, e2, e3, -⟩ := idx_facts2 t
  unfold iblk2
  rw [View.read_apply]
  show V c main_v50 _ = V c main_v50 _
  congr 1
  funext a
  apply Fin.ext
  match a with
  | ⟨0, _⟩ => show win2_1.index t 0 * 512 + 1 * (y 0).val = (y 0).val; rw [e2]; omega
  | ⟨1, _⟩ => show win2_1.index t 1 * 256 + 1 * (y 1).val = (y 1).val; rw [e3]; omega

/-! ## What a point writes back, and the array after the region -/

/-- What point `t` writes back is block `t` of the product of the two arrays as the region finds them. -/
theorem flushed2_eq (c : Dev nD) (t : Fin cfg2.N) :
    (dat2 V c).flushed 2 t = ((cfg2.win 2).blk t).view.read (Elt Ideal) (prod2 (V c main_v49) (V c main_v50)) := by
  show (cfg2.win 2).cut (grid2.coords t) ((dat2 V c).after 2 t) = _
  rw [after2_2]
  unfold out2_2
  rw [View.canon_unit_zero zero_off2]
  simp only [View.ld_unit_zero (S := S2048x512) zero_off2, View.ld_unit_zero (S := S512x256) zero_off2]
  obtain ⟨-, -, -, -, e4, e5⟩ := idx_facts2 t
  funext y
  show k2_pay1 (iblk2 V c 0 t) (iblk2 V c 1 t) y = prod2 (V c main_v49) (V c main_v50) (((cfg2.win 2).blk t).view.emb y)
  refine pay2_block (V c main_v49) (V c main_v50) (iblk2 V c 0 t) (iblk2 V c 1 t) t.val
    (fun y i => iblk2_0_apply V c t y i) (fun y => iblk2_1_apply V c t y) y _ ?_ ?_
  · show win2_2.index t 0 * 2048 + 1 * (y 0).val = t.val * 2048 + (y 0).val; rw [e4]; omega
  · show win2_2.index t 1 * 256 + 1 * (y 1).val = (y 1).val; rw [e5]; omega

/-- An index of the output array is in point `t`'s block iff each coordinate is in the block's range on its axis. -/
theorem mem_blk2 (t : Fin cfg2.N) (i : S8192x256.Idx) :
    i ∈ ((cfg2.win 2).blk t).view.set ↔ ∀ a : Fin 2, win2_2.index t a * S2048x256.size a ≤ (i a).val ∧ (i a).val < win2_2.index t a * S2048x256.size a + S2048x256.size a := by
  show i ∈ ((View.whole main_v52).slice (win2_2.rect t)).set ↔ _
  rw [View.set_slice_whole, Rect.mem_set_unit]
  exact Iff.rfl

/-- Every index of the output array is in the block of the point its row falls in, `row / 2048`. -/
theorem cover2 (i : S8192x256.Idx) : ∃ t : Fin cfg2.N, (cfg2.win 2).flush t = true ∧ i ∈ ((cfg2.win 2).blk t).view.set := by
  have hi0 : (i 0).val < 8192 := (i 0).isLt
  have hi1 : (i 1).val < 256 := (i 1).isLt
  have hN : cfg2.N = 4 := N_2
  obtain ⟨t, ht⟩ : ∃ t : Fin cfg2.N, t.val = (i 0).val / 2048 := ⟨⟨(i 0).val / 2048, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t 0 * 2048 ≤ (i 0).val ∧ (i 0).val < win2_2.index t 0 * 2048 + 2048; rw [e4, ht]; omega
  | ⟨1, _⟩ => show win2_2.index t 1 * 256 ≤ (i 1).val ∧ (i 1).val < win2_2.index t 1 * 256 + 256; rw [e5]; omega

/-- The output array after the region is the product of the two arrays the region reads, as it finds them. -/
theorem final2_arr (c : Dev nD) : (dat2 V c).arrAt 2 cfg2.N = prod2 (V c main_v49) (V c main_v50) :=
  (dat2 V c).arrAt_eq_of_cover 2 (prod2 (V c main_v49) (V c main_v50)) (fun t _ => flushed2_eq V c t) (cover2)

/-- Index by index: entry `(i, j)` is the product at `(i, j)`, the sum over `k` of the left array's `(i, k)` times the
    right array's `(k, j)` (`prod2_apply`). -/
theorem final2 (c : Dev nD) (i : Fin 8192) (j : Fin 256) :
    (dat2 (F := Ideal) V c).arrAt 2 cfg2.N (ValueIdx.ix2 i j) = prod2 (V c main_v49) (V c main_v50) (ValueIdx.ix2 i j) :=
  congrFun (final2_arr V c) (ValueIdx.ix2 i j)

end

end Cert.KernelIdeal.Hand

end
-- ==== Proof.KI.Stages.lean ====
/-
  What the program's three result buffers hold at the end of the run, at the ideal numbers: the mean, the
  log-variance and the decoded adjacency of the specification's kernel side.

  The run passes through the contents of one core's buffers at the boundaries of its five regions. Each region
  leaves its output array at a function of the arrays it reads — a matrix product, the dense aggregation with a
  bias row (clamped at zero or not), the logistic Gram matrix — and the host operations in between reshape the
  biases, lay the two weight matrices side by side and cut the doubled result in two. Read index by index and
  in order, these are the specification's definitions: the first product is x · W1, the first aggregation the
  hidden layer, the second product the hidden layer times [Wmu | Wlv], the second aggregation mean and
  log-variance side by side, its two halves the mean and the log-variance, and the last array the decoded matrix.
-/
import proofs.«155600_j21663815041514_2_alg».proof.Proof.Gen.KernelIdeal.Regions
import proofs.«155600_j21663815041514_2_alg».proof.Proof.Spec
import proofs.«155600_j21663815041514_2_alg».proof.Proof.KI.HostValue
import proofs.«155600_j21663815041514_2_alg».proof.Proof.KI.Reg0Value
import proofs.«155600_j21663815041514_2_alg».proof.Proof.KI.Reg2Value
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## The regions' results as functions of the arrays they read -/

/-- A rank-2 array as a function of its two coordinates. -/
abbrev mat {n0 n1 : ℕ} (a : (⟨2, ![n0, n1]⟩ : Shape).Idx → EReal) : Fin n0 → Fin n1 → EReal := fun i j => a (ix2 i j)
/-- A rank-1 array as a function of its coordinate. -/
abbrev vec {n0 : ℕ} (a : (⟨1, ![n0]⟩ : Shape).Idx → EReal) : Fin n0 → EReal := fun i => a (ix1 i)

/-- The aggregation of `H` through the matrix `A` plus the bias row `b`, clamped below at zero. -/
def aggMax (A : S8192x8192.Idx → EReal) (H : S8192x512.Idx → EReal) (b : S1x512.Idx → EReal) : S8192x512.Idx → EReal :=
  fun i => max ((∑ j : Fin 8192, A (ix2 (i 0) j) * H (ix2 j (i 1))) + b (ix2 (0 : Fin 1) (i 1))) 0
theorem aggMax_apply (A : S8192x8192.Idx → EReal) (H : S8192x512.Idx → EReal) (b : S1x512.Idx → EReal) (i : Fin 8192) (f : Fin 512) :
    aggMax A H b (ix2 i f) = max ((∑ j : Fin 8192, A (ix2 i j) * H (ix2 j f)) + b (ix2 (0 : Fin 1) f)) 0 := rfl

/-- The aggregation of `H` through the matrix `A` plus the bias row `b`. -/
def aggAdd (A : S8192x8192.Idx → EReal) (H : S8192x256.Idx → EReal) (b : S1x256.Idx → EReal) : S8192x256.Idx → EReal :=
  fun i => (∑ j : Fin 8192, A (ix2 (i 0) j) * H (ix2 j (i 1))) + b (ix2 (0 : Fin 1) (i 1))
theorem aggAdd_apply (A : S8192x8192.Idx → EReal) (H : S8192x256.Idx → EReal) (b : S1x256.Idx → EReal) (i : Fin 8192) (g : Fin 256) :
    aggAdd A H b (ix2 i g) = (∑ j : Fin 8192, A (ix2 i j) * H (ix2 j g)) + b (ix2 (0 : Fin 1) g) := rfl

/-- The logistic function of the Gram matrix of the rows of `z`. -/
def gramLogistic (z : S8192x128.Idx → EReal) : S8192x8192.Idx → EReal :=
  fun i => Ideal.logistic (∑ k : Fin 128, z (ix2 (i 0) k) * z (ix2 (i 1) k))
theorem gramLogistic_apply (z : S8192x128.Idx → EReal) (i j : Fin 8192) :
    gramLogistic z (ix2 i j) = Ideal.logistic (∑ k : Fin 128, z (ix2 i k) * z (ix2 j k)) := rfl

/-! ## The stages of the run on one core -/

section Stages

variable (col row : Fin Cert.Spec.NE → Fin 8192) (n : Fin Cert.Spec.NE → EReal)
  (a1 : S8192x512.Idx → EReal) (a2 : S512x512.Idx → EReal) (a3 : S512.Idx → EReal)
  (a4 : S512x128.Idx → EReal) (a5 : S128.Idx → EReal) (a6 : S512x128.Idx → EReal) (a7 : S128.Idx → EReal)
  (S3 S4 S6 S8 S10 S12 : Valuation τ sig (Elt Ideal))

/-- One core's buffer contents when the first region is entered (`S3`) and when each of the five regions is left
    (`S4`, `S6`, `S8`, `S10`, `S12`), the host operations between two regions applied to what the earlier one
    left: the adjacency matrix and the arguments `a1 … a7` are in place, each region leaves its output array at
    its function of the arrays it reads, and the buffers a later stage reads are kept by the regions in between. -/
structure Stages : Prop where
  adj : ∀ i j : Fin 8192, (S3 (Proc.devRef .tc main_v46) : S8192x8192.Idx → EReal) (ix2 i j) = Cert.Spec.adj col row n i j
  arg1 : (S3 (Proc.devRef .tc main_arg1) : S8192x512.Idx → EReal) = a1
  arg2 : (S3 (Proc.devRef .tc main_arg2) : S512x512.Idx → EReal) = a2
  out0 : (S4 (Proc.devRef .tc main_v47) : S8192x512.Idx → EReal) = prod0 (S3 (Proc.devRef .tc main_arg1)) (S3 (Proc.devRef .tc main_arg2))
  keep0 : S4 (Proc.devRef .tc main_v46) = S3 (Proc.devRef .tc main_v46)
  arg3 : (S4 (Proc.devRef .tc main_arg3) : S512.Idx → EReal) = a3
  out1 : (S6 (Proc.devRef .tc main_v49) : S8192x512.Idx → EReal)
    = aggMax ((StableHlo.after (hostOps1 (F := Ideal)) S4) (Proc.devRef .tc main_v46)) ((StableHlo.after (hostOps1 (F := Ideal)) S4) (Proc.devRef .tc main_v47)) ((StableHlo.after (hostOps1 (F := Ideal)) S4) (Proc.devRef .tc main_v48))
  keep1 : S6 (Proc.devRef .tc main_v46) = (StableHlo.after (hostOps1 (F := Ideal)) S4) (Proc.devRef .tc main_v46)
  arg4 : (S6 (Proc.devRef .tc main_arg4) : S512x128.Idx → EReal) = a4
  arg5 : (S6 (Proc.devRef .tc main_arg5) : S128.Idx → EReal) = a5
  arg6 : (S6 (Proc.devRef .tc main_arg6) : S512x128.Idx → EReal) = a6
  arg7 : (S6 (Proc.devRef .tc main_arg7) : S128.Idx → EReal) = a7
  out2 : (S8 (Proc.devRef .tc main_v52) : S8192x256.Idx → EReal) = prod2 ((StableHlo.after (hostOps2 (F := Ideal)) S6) (Proc.devRef .tc main_v49)) ((StableHlo.after (hostOps2 (F := Ideal)) S6) (Proc.devRef .tc main_v50))
  keep2 : S8 (Proc.devRef .tc main_v46) = (StableHlo.after (hostOps2 (F := Ideal)) S6) (Proc.devRef .tc main_v46)
  keep2' : S8 (Proc.devRef .tc main_v51) = (StableHlo.after (hostOps2 (F := Ideal)) S6) (Proc.devRef .tc main_v51)
  out3 : (S10 (Proc.devRef .tc main_v54) : S8192x256.Idx → EReal)
    = aggAdd ((StableHlo.after (hostOps3 (F := Ideal)) S8) (Proc.devRef .tc main_v46)) ((StableHlo.after (hostOps3 (F := Ideal)) S8) (Proc.devRef .tc main_v52)) ((StableHlo.after (hostOps3 (F := Ideal)) S8) (Proc.devRef .tc main_v53))
  out4 : (S12 (Proc.devRef .tc main_v57) : S8192x8192.Idx → EReal) = gramLogistic ((StableHlo.after (hostOps4 (F := Ideal)) S10) (Proc.devRef .tc main_v55))
  keep4 : S12 (Proc.devRef .tc main_v55) = (StableHlo.after (hostOps4 (F := Ideal)) S10) (Proc.devRef .tc main_v55)
  keep4' : S12 (Proc.devRef .tc main_v56) = (StableHlo.after (hostOps4 (F := Ideal)) S10) (Proc.devRef .tc main_v56)

variable {col row n a1 a2 a3 a4 a5 a6 a7 S3 S4 S6 S8 S10 S12}
variable (h : Stages col row n a1 a2 a3 a4 a5 a6 a7 S3 S4 S6 S8 S10 S12)
include h

/-! ### Region 0 and the host operations after it -/

/-- The adjacency matrix when region 1 is entered. -/
theorem Stages.adj5 (i j : Fin 8192) :
    ((StableHlo.after (hostOps1 (F := Ideal)) S4) (Proc.devRef .tc main_v46) : S8192x8192.Idx → EReal) (ix2 i j) = Cert.Spec.adj col row n i j := by
  rw [StableHlo.after_of_writes_sub (hostOps1 (F := Ideal)) S4 hostOps1_writes (by decide), h.keep0]
  exact h.adj i j

/-- Region 0's array when region 1 is entered: x · W1. -/
theorem Stages.v47 (j : Fin 8192) (f : Fin 512) :
    ((StableHlo.after (hostOps1 (F := Ideal)) S4) (Proc.devRef .tc main_v47) : S8192x512.Idx → EReal) (ix2 j f) = Cert.Spec.mm (mat a1) (mat a2) j f := by
  rw [StableHlo.after_of_writes_sub (hostOps1 (F := Ideal)) S4 hostOps1_writes (by decide), h.out0, prod0_apply, h.arg1, h.arg2]
  rfl

/-- The hidden layer's bias as a row. -/
theorem Stages.v48 (f : Fin 512) :
    ((StableHlo.after (hostOps1 (F := Ideal)) S4) (Proc.devRef .tc main_v48) : S1x512.Idx → EReal) (ix2 (0 : Fin 1) f) = vec a3 f := by
  rw [host1_v48 S4 f, h.arg3]

/-! ### Region 1 and the host operations after it -/

/-- Region 1's array: the hidden layer. -/
theorem Stages.v49 (i : Fin 8192) (f : Fin 512) :
    (S6 (Proc.devRef .tc main_v49) : S8192x512.Idx → EReal) (ix2 i f) = Cert.Spec.hidK col row n (mat a1) (mat a2) (vec a3) i f := by
  rw [h.out1, aggMax_apply, h.v48 f]
  unfold Cert.Spec.hidK Cert.Spec.aggDense
  refine congrArg (fun s : EReal => max (s + vec a3 f) 0) (Finset.sum_congr rfl fun j _ => ?_)
  rw [h.adj5 i j, h.v47 j f]

/-- The adjacency matrix when region 2 is entered. -/
theorem Stages.adj7 (i j : Fin 8192) :
    ((StableHlo.after (hostOps2 (F := Ideal)) S6) (Proc.devRef .tc main_v46) : S8192x8192.Idx → EReal) (ix2 i j) = Cert.Spec.adj col row n i j := by
  rw [StableHlo.after_of_writes_sub (hostOps2 (F := Ideal)) S6 hostOps2_writes (by decide), h.keep1]
  exact h.adj5 i j

/-- The two weight matrices side by side. -/
theorem Stages.v50 (f : Fin 512) (g : Fin 256) :
    ((StableHlo.after (hostOps2 (F := Ideal)) S6) (Proc.devRef .tc main_v50) : S512x256.Idx → EReal) (ix2 f g) = Cert.Spec.sideBySide (mat a4) (mat a6) f g := by
  rw [host2_v50 S6 f g, h.arg4, h.arg6]

/-- The two biases end to end. -/
theorem Stages.v51 (g : Fin 256) :
    ((StableHlo.after (hostOps2 (F := Ideal)) S6) (Proc.devRef .tc main_v51) : S256.Idx → EReal) (ix1 g) = Cert.Spec.endToEnd (vec a5) (vec a7) g := by
  rw [host2_v51 S6 g, h.arg5, h.arg7]

/-! ### Region 2 and the host operations after it -/

/-- Region 2's array: the hidden layer times the two weight matrices side by side. -/
theorem Stages.v52 (i : Fin 8192) (g : Fin 256) :
    (S8 (Proc.devRef .tc main_v52) : S8192x256.Idx → EReal) (ix2 i g)
      = Cert.Spec.mm (Cert.Spec.hidK col row n (mat a1) (mat a2) (vec a3)) (Cert.Spec.sideBySide (mat a4) (mat a6)) i g := by
  rw [h.out2, prod2_apply]
  unfold Cert.Spec.mm
  show (_ : EReal) = _
  refine Finset.sum_congr rfl fun k _ => ?_
  rw [StableHlo.after_of_writes_sub (hostOps2 (F := Ideal)) S6 hostOps2_writes (by decide), h.v49 i k, h.v50 k g]

/-- The adjacency matrix when region 3 is entered. -/
theorem Stages.adj9 (i j : Fin 8192) :
    ((StableHlo.after (hostOps3 (F := Ideal)) S8) (Proc.devRef .tc main_v46) : S8192x8192.Idx → EReal) (ix2 i j) = Cert.Spec.adj col row n i j := by
  rw [StableHlo.after_of_writes_sub (hostOps3 (F := Ideal)) S8 hostOps3_writes (by decide), h.keep2]
  exact h.adj7 i j

/-- The doubled bias as a row. -/
theorem Stages.v53 (g : Fin 256) :
    ((StableHlo.after (hostOps3 (F := Ideal)) S8) (Proc.devRef .tc main_v53) : S1x256.Idx → EReal) (ix2 (0 : Fin 1) g) = Cert.Spec.endToEnd (vec a5) (vec a7) g := by
  rw [host3_v53 S8 g, h.keep2']
  exact h.v51 g

/-! ### Region 3 and the host operations after it -/

/-- Region 3's array: mean and log-variance side by side. -/
theorem Stages.v54 (i : Fin 8192) (g : Fin 256) :
    (S10 (Proc.devRef .tc main_v54) : S8192x256.Idx → EReal) (ix2 i g)
      = Cert.Spec.catK col row n (mat a1) (mat a2) (vec a3) (mat a4) (vec a5) (mat a6) (vec a7) i g := by
  rw [h.out3, aggAdd_apply, h.v53 g]
  unfold Cert.Spec.catK Cert.Spec.aggDense
  refine congrArg (fun s : EReal => s + Cert.Spec.endToEnd (vec a5) (vec a7) g) (Finset.sum_congr rfl fun j _ => ?_)
  rw [h.adj9 i j, StableHlo.after_of_writes_sub (hostOps3 (F := Ideal)) S8 hostOps3_writes (by decide), h.v52 j g]

/-- The left half when region 4 is entered: the mean. -/
theorem Stages.v55 (i : Fin 8192) (g : Fin 128) :
    ((StableHlo.after (hostOps4 (F := Ideal)) S10) (Proc.devRef .tc main_v55) : S8192x128.Idx → EReal) (ix2 i g)
      = Cert.Spec.muK col row n (mat a1) (mat a2) (vec a3) (mat a4) (vec a5) (mat a6) (vec a7) i g := by
  rw [host4_v55 S10 i g, h.v54 i _]
  rfl

/-- The right half when region 4 is entered: the log-variance. -/
theorem Stages.v56 (i : Fin 8192) (g : Fin 128) :
    ((StableHlo.after (hostOps4 (F := Ideal)) S10) (Proc.devRef .tc main_v56) : S8192x128.Idx → EReal) (ix2 i g)
      = Cert.Spec.lvK col row n (mat a1) (mat a2) (vec a3) (mat a4) (vec a5) (mat a6) (vec a7) i g := by
  rw [host4_v56 S10 i g, h.v54 i _]
  rfl

/-! ### The three results -/

/-- The mean's buffer at the end. -/
theorem Stages.mu (i : Fin 8192) (g : Fin 128) :
    (S12 (Proc.devRef .tc main_v55) : S8192x128.Idx → EReal) (ix2 i g)
      = Cert.Spec.muK col row n (mat a1) (mat a2) (vec a3) (mat a4) (vec a5) (mat a6) (vec a7) i g := by
  rw [h.keep4]
  exact h.v55 i g

/-- The log-variance's buffer at the end. -/
theorem Stages.lv (i : Fin 8192) (g : Fin 128) :
    (S12 (Proc.devRef .tc main_v56) : S8192x128.Idx → EReal) (ix2 i g)
      = Cert.Spec.lvK col row n (mat a1) (mat a2) (vec a3) (mat a4) (vec a5) (mat a6) (vec a7) i g := by
  rw [h.keep4']
  exact h.v56 i g

/-- The decoded matrix's buffer at the end. -/
theorem Stages.pred (i j : Fin 8192) :
    (S12 (Proc.devRef .tc main_v57) : S8192x8192.Idx → EReal) (ix2 i j)
      = Cert.Spec.predK col row n (mat a1) (mat a2) (vec a3) (mat a4) (vec a5) (mat a6) (vec a7) i j := by
  rw [h.out4, gramLogistic_apply]
  unfold Cert.Spec.predK
  refine congrArg Ideal.logistic (Finset.sum_congr rfl fun k _ => ?_)
  rw [h.v55 i k, h.v55 j k]

end Stages

end Cert.KernelIdeal.Hand

end
-- ==== Proof.KI.Reg4Value.lean ====
import proofs.«155600_j21663815041514_2_alg».proof.Proof.KI.Reg4
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

/-! # What region 4 leaves in its output array: the logistic of the Gram matrix of the rows of its input -/

/-- The array the region leaves, index by index: at `(i, j)` the logistic of the inner product of rows `i` and `j`. -/
def G4 (z : S8192x128.Idx → Elt Ideal .f32) : S8192x8192.Idx → Elt Ideal .f32 :=
  fun i => Ideal.logistic (∑ k : Fin 128, z (ix2 (n0 := 8192) (n1 := 128) (i 0) k) * z (ix2 (n0 := 8192) (n1 := 128) (i 1) k))

/-- `G4` at an index given by its coordinates. -/
theorem G4_apply (z : S8192x128.Idx → Elt Ideal .f32) (i j : Fin 8192) :
    G4 z (ix2 i j) = Ideal.logistic (∑ k : Fin 128, z (ix2 i k) * z (ix2 j k)) := rfl

theorem hz4 : (![0, 0] : Fin 2 → Nat) = fun _ => 0 := funext fun a => by fin_cases a <;> rfl

/-! ## The contraction: both operands contract their second axis -/

theorem lhs4_0 (j : S1024x2048.Idx) (q : dot_S1024x128_S2048x128_S1024x2048_1_1_0_0_n_n.contr.Idx) :
    (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs4_1 (j : S1024x2048.Idx) (q : dot_S1024x128_S2048x128_S1024x2048_1_1_0_0_n_n.contr.Idx) :
    (dot_S1024x128_S2048x128_S1024x2048_1_1_0_0_n_n.lhsIdx j q 1).val = (q ⟨0, by decide⟩).val :=
  dot_S1024x128_S2048x128_S1024x2048_1_1_0_0_n_n.lhsIdx_val_of_single rfl j q
theorem rhs4_0 (j : S1024x2048.Idx) (q : dot_S1024x128_S2048x128_S1024x2048_1_1_0_0_n_n.contr.Idx) :
    (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs4_1 (j : S1024x2048.Idx) (q : dot_S1024x128_S2048x128_S1024x2048_1_1_0_0_n_n.contr.Idx) :
    (dot_S1024x128_S2048x128_S1024x2048_1_1_0_0_n_n.rhsIdx j q 1).val = (q ⟨0, by decide⟩).val :=
  dot_S1024x128_S2048x128_S1024x2048_1_1_0_0_n_n.rhsIdx_val_of_single rfl j q

/-- The product into the zero accumulator, at an index: the inner product of a row of the first operand with a row of the second. -/
theorem matmul4_apply (a : FVec Ideal S1024x128 .f32) (b : FVec Ideal S2048x128 .f32) (p : Fin 1024) (q : Fin 2048) :
    FloatOps.matmul dot_S1024x128_S2048x128_S1024x2048_1_1_0_0_n_n none a b (constant S1024x2048 .f32 0x00000000#32) (ix2 p q)
      = ∑ k : Fin 128, a (ix2 p k) * b (ix2 q k) := by
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs4_0 _ _
    | ⟨1, _⟩ => exact (lhs4_1 _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs4_0 _ _
    | ⟨1, _⟩ => exact (rhs4_1 _ _).trans hk)
  rw [el, er]

/-- The body's payload at an index. -/
theorem pay4_apply (x0 : Vec Ideal S1024x128 .f32) (x1 : Vec Ideal S2048x128 .f32) (p : Fin 1024) (q : Fin 2048) :
    k4_pay1 (F := Ideal) x0 x1 (ix2 p q) = Ideal.logistic (∑ k : Fin 128, x0 (ix2 p k) * x1 (ix2 q k)) := by
  have e : k4_pay1 (F := Ideal) x0 x1 = logistic (F := Ideal) (FloatOps.matmul (F := Ideal) (φ₁ := .f32) (φ₂ := .f32) dot_S1024x128_S2048x128_S1024x2048_1_1_0_0_n_n none x0 x1 (constant S1024x2048 .f32 0x00000000#32)) := by
    unfold k4_pay1
    show logistic (F := Ideal) (FloatOps.matmul (F := Ideal) (φ₁ := .f32) (φ₂ := .f32) dot_S1024x128_S2048x128_S1024x2048_1_1_0_0_n_n none (shapeCast S1024x128 (x0 : FVec Ideal S1024x128 .f32) shapeCasts_S1024x128_S1024x128) (shapeCast S2048x128 (x1 : FVec Ideal S2048x128 .f32) shapeCasts_S2048x128_S2048x128) (constant S1024x2048 .f32 0x00000000#32)) = _
    rw [shapeCast_self, shapeCast_self]
  rw [e]
  exact congrArg Ideal.logistic (matmul4_apply x0 x1 p q)

/-- The payload of two blocks that are rows `a·1024 …` and rows `b·2048 …` of one array `z`, at an index of the block. -/
theorem pay4_blk (X0 : Vec Ideal S1024x128 .f32) (X1 : Vec Ideal S2048x128 .f32) (z : S8192x128.Idx → Elt Ideal .f32) (a b : Nat) (ha : a ≤ 7) (hb : b ≤ 3)
    (h0 : ∀ (p : Fin 1024) (k : Fin 128), X0 (ix2 p k) = z (ix2 (n0 := 8192) ⟨a * 1024 + p.val, by omega⟩ k))
    (h1 : ∀ (q : Fin 2048) (k : Fin 128), X1 (ix2 q k) = z (ix2 (n0 := 8192) ⟨b * 2048 + q.val, by omega⟩ k))
    (p : Fin 1024) (q : Fin 2048) :
    k4_pay1 (F := Ideal) X0 X1 (ix2 p q)
      = Ideal.logistic (∑ k : Fin 128, z (ix2 (n0 := 8192) ⟨a * 1024 + p.val, by omega⟩ k) * z (ix2 (n0 := 8192) ⟨b * 2048 + q.val, by omega⟩ k)) :=
  (pay4_apply X0 X1 p q).trans (congrArg Ideal.logistic (Finset.sum_congr rfl fun k _ => by rw [h0 p k, h1 q k]))

/-! ## From blocks to the array -/

section Array
variable (V : (c : Dev nD) → (b : Ref sig .tc) → Buf (Elt Ideal) ((c : Thread nD τ).loc b))

/-- The index maps, decided over the grid: window 0's row block is the output's, window 1's row block is the output's
    column block, neither input moves along its second axis, and the output's block indices stay in their ranges. -/
theorem idx_facts4 : ∀ t : Fin cfg4.N, win4_0.index t (0 : Fin 2) = win4_2.index t (0 : Fin 2)
    ∧ win4_0.index t (1 : Fin 2) = 0
    ∧ win4_1.index t (0 : Fin 2) = win4_2.index t (1 : Fin 2)
    ∧ win4_1.index t (1 : Fin 2) = 0
    ∧ win4_2.index t (0 : Fin 2) ≤ 7 ∧ win4_2.index t (1 : Fin 2) ≤ 3 :=
  (by decide +kernel : ∀ t : Fin grid4.N, _)

/-- Every block of the output is some point's. -/
theorem idx_onto4 : ∀ (q0 : Fin 8) (q1 : Fin 4), ∃ t : Fin cfg4.N, win4_2.index t = ![q0.val, q1.val] :=
  (by decide +kernel : ∀ (q0 : Fin 8) (q1 : Fin 4), ∃ t : Fin grid4.N, win4_2.index t = ![q0.val, q1.val])

/-- What point `t` writes back is block `t` of `G4` of the input array as the region finds it. -/
theorem flushed4_eq (c : Dev nD) (t : Fin cfg4.N) :
    (dat4 (F := Ideal) V c).flushed 2 t = ((cfg4.win 2).blk t).view.read (Elt Ideal) (G4 (V c main_v55)) := by
  show (cfg4.win 2).cut (grid4.coords t) ((dat4 V c).after 2 t) = _
  rw [after4_2]
  unfold out4_2
  rw [View.canon_unit_zero hz4]
  simp only [View.ld_unit_zero (S := S1024x128) hz4, View.ld_unit_zero (S := S2048x128) hz4]
  obtain ⟨e0, e1, e2, e3, e4, e5⟩ := idx_facts4 t
  funext j
  show k4_pay1 (iblk4 V c 0 t) (iblk4 V c 1 t) (ix2 (n0 := 1024) (n1 := 2048) (j 0) (j 1)) = G4 (V c main_v55) (((cfg4.win 2).blk t).view.emb j)
  refine (pay4_blk (iblk4 V c 0 t) (iblk4 V c 1 t) (V c main_v55) (win4_2.index t (0 : Fin 2)) (win4_2.index t (1 : Fin 2)) e4 e5 ?_ ?_ (j 0) (j 1)).trans ?_
  · intro p k
    show V c main_v55 (((cfg4.win 0).blk t).view.emb (ix2 p k)) = _
    refine congrArg (V c main_v55) (funext fun a => Fin.ext ?_)
    match a with
    | ⟨0, _⟩ => show win4_0.index t (0 : Fin 2) * 1024 + 1 * p.val = win4_2.index t (0 : Fin 2) * 1024 + p.val; omega
    | ⟨1, _⟩ => show win4_0.index t (1 : Fin 2) * 128 + 1 * k.val = k.val; omega
  · intro q k
    show V c main_v55 (((cfg4.win 1).blk t).view.emb (ix2 q k)) = _
    refine congrArg (V c main_v55) (funext fun a => Fin.ext ?_)
    match a with
    | ⟨0, _⟩ => show win4_1.index t (0 : Fin 2) * 2048 + 1 * q.val = win4_2.index t (1 : Fin 2) * 2048 + q.val; omega
    | ⟨1, _⟩ => show win4_1.index t (1 : Fin 2) * 128 + 1 * k.val = k.val; omega
  · unfold G4
    refine congrArg Ideal.logistic (Finset.sum_congr rfl fun k _ => ?_)
    have r0 : (⟨win4_2.index t (0 : Fin 2) * 1024 + (j 0).val, by have hj : (j 0).val < 1024 := (j 0).isLt; omega⟩ : Fin 8192) = (((cfg4.win 2).blk t).view.emb j) 0 :=
      Fin.ext (show win4_2.index t (0 : Fin 2) * 1024 + (j 0).val = win4_2.index t (0 : Fin 2) * 1024 + 1 * (j 0).val by omega)
    have r1 : (⟨win4_2.index t (1 : Fin 2) * 2048 + (j 1).val, by have hj : (j 1).val < 2048 := (j 1).isLt; omega⟩ : Fin 8192) = (((cfg4.win 2).blk t).view.emb j) 1 :=
      Fin.ext (show win4_2.index t (1 : Fin 2) * 2048 + (j 1).val = win4_2.index t (1 : Fin 2) * 2048 + 1 * (j 1).val by omega)
    rw [r0, r1]

/-- An index of the array is in point `t`'s block iff each coordinate is in the block's range on its axis. -/
theorem mem_blk4 (t : Fin cfg4.N) (i : S8192x8192.Idx) :
    i ∈ ((cfg4.win 2).blk t).view.set ↔ ∀ a : Fin 2, win4_2.index t a * S1024x2048.size a ≤ (i a).val ∧ (i a).val < win4_2.index t a * S1024x2048.size a + S1024x2048.size a := by
  show i ∈ ((View.whole main_v57).slice (win4_2.rect t)).set ↔ _
  rw [View.set_slice_whole, Rect.mem_set_unit]
  exact Iff.rfl

/-- The output's blocks tile its array: index `(r, s)` is in the block of the point with block indices `(r / 1024, s / 2048)`. -/
theorem cover4 (i : S8192x8192.Idx) : ∃ t : Fin cfg4.N, (cfg4.win 2).flush t = true ∧ i ∈ ((cfg4.win 2).blk t).view.set := by
  have hi0 : (i 0).val < 8192 := (i 0).isLt
  have hi1 : (i 1).val < 8192 := (i 1).isLt
  obtain ⟨t, ht⟩ := idx_onto4 ⟨(i 0).val / 1024, by omega⟩ ⟨(i 1).val / 2048, by omega⟩
  have q0 : win4_2.index t (0 : Fin 2) = (i 0).val / 1024 := congrFun ht 0
  have q1 : win4_2.index t (1 : Fin 2) = (i 1).val / 2048 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 2048 ≤ (i 1).val ∧ (i 1).val < win4_2.index t (1 : Fin 2) * 2048 + 2048; omega

/-- The output array after the region, as one function of the input array as the region finds it. -/
theorem final4_fun (c : Dev nD) : (dat4 (F := Ideal) V c).arrAt 2 cfg4.N = G4 (V c main_v55) :=
  (dat4 (F := Ideal) V c).arrAt_eq_of_cover 2 (G4 (V c main_v55)) (fun t _ => flushed4_eq V c t) cover4

/-- The same, index by index. -/
theorem final4 (c : Dev nD) (i j : Fin 8192) :
    (dat4 (F := Ideal) V c).arrAt 2 cfg4.N (ix2 i j)
      = Ideal.logistic (∑ k : Fin 128, HMul.hMul (α := Elt Ideal .f32) (β := Elt Ideal .f32) (γ := Elt Ideal .f32) (V c main_v55 (ix2 i k)) (V c main_v55 (ix2 j k))) :=
  congrFun (final4_fun V c) (ix2 i j)

end Array

end Cert.KernelIdeal.Hand
-- ==== Proof.KI.Reg1Value.lean ====
import proofs.«155600_j21663815041514_2_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # Region 1, read at the extended reals

Row block `i` of the result is the sum over the eight column blocks of the block products, plus the row vector, clipped below at zero. -/

/-! ## The block product's operand indices -/

theorem lhs1_0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs1_1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs1_0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs1_1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-! ## The payloads at an index -/

/-- The reset block is zero everywhere. -/
theorem pay1_1_apply (j : S1024x512.Idx) : k1_pay1 (F := Ideal) j = 0 := by
  unfold k1_pay1
  simp only [shapeCast_self]
  exact Ideal.ofBits_zero_f32

/-- The accumulation step: the accumulator plus the product of the two blocks. -/
theorem pay2_1_apply (x0 : Vec Ideal S1024x1024 .f32) (x1 : Vec Ideal S1024x512 .f32) (xs : Vec Ideal S1024x512 .f32) (p : Fin 1024) (q : Fin 512) :
    k1_pay2 x0 x1 xs (ix2 p q) = xs (ix2 p q) + ∑ kk : Fin 1024, x0 (ix2 p kk) * x1 (ix2 kk q) := by
  unfold k1_pay2
  simp only [shapeCast_self, matmul]
  rw [addf_apply, Ideal.matmul_constant_zero_apply, ← Equiv.sum_comp (ValueIdx.contrEquiv1 dot_S1024x1024_S1024x512_S1024x512_1_0_0_1_n_n 1024 rfl rfl).symm]
  refine congrArg (xs (ix2 p q) + ·) (Finset.sum_congr rfl fun k _ => ?_)
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-- The closing step: the row vector added to every row, then the maximum with zero. -/
theorem pay3_1_apply (acc : Vec Ideal S1024x512 .f32) (b : Vec Ideal S1x512 .f32) (p : Fin 1024) (q : Fin 512) :
    k1_pay3 acc b (ix2 p q) = max (acc (ix2 p q) + b (ix2 0 q)) 0 := by
  unfold k1_pay3
  simp only [shapeCast_self]
  rw [maximumf_apply, addf_apply, broadcast_apply]
  show max (acc (ix2 p q) + broadcastTo S1024x512 b broadcasts_S1x512_S1024x512 (ix2 p q)) (Ideal.ofBits .f32 0x00000000#32) = _
  rw [Ideal.ofBits_zero_f32, broadcastTo_apply b broadcasts_S1x512_S1024x512 (ix2 p q) (ix2 0 q) (by
    intro a
    match a with
    | ⟨0, _⟩ => rfl
    | ⟨1, _⟩ => rfl)]

/-! ## The result as a function of whole arrays -/

/-- Entry `(r, s)` of the left operand (zero off the array). -/
def lhsAt1 (A : S8192x8192.Idx → EReal) (r s : ℕ) : EReal :=
  if h : r < 8192 ∧ s < 8192 then A (ix2 ⟨r, h.1⟩ ⟨s, h.2⟩) else 0
/-- Entry `(r, q)` of the right operand (zero off the array). -/
def rhsAt1 (H : S8192x512.Idx → EReal) (r : ℕ) (q : Fin 512) : EReal :=
  if h : r < 8192 then H (ix2 ⟨r, h⟩ q) else 0
/-- Row `r` of column block `k` of the left operand against column `q` of row block `k` of the right. -/
def blockDot1 (A : S8192x8192.Idx → EReal) (H : S8192x512.Idx → EReal) (r k : ℕ) (q : Fin 512) : EReal :=
  ∑ kk : Fin 1024, lhsAt1 A r (1024 * k + kk.val) * rhsAt1 H (1024 * k + kk.val) q
/-- The result with the contraction taken block by block. -/
def rowBlocks1 (A : S8192x8192.Idx → EReal) (H : S8192x512.Idx → EReal) (b : S1x512.Idx → EReal) : S8192x512.Idx → EReal :=
  fun i => max ((∑ k ∈ Finset.range 8, blockDot1 A H (i 0).val k (i 1)) + b (ix2 (0 : Fin 1) (i 1))) 0
/-- The result: each row of the left operand against each column of the right, plus the row vector, clipped below at zero. -/
def rowAgg1 (A : S8192x8192.Idx → EReal) (H : S8192x512.Idx → EReal) (b : S1x512.Idx → EReal) : S8192x512.Idx → EReal :=
  fun i => max ((∑ j : Fin 8192, A (ix2 (i 0) j) * H (ix2 j (i 1))) + b (ix2 (0 : Fin 1) (i 1))) 0

/-- The eight block sums are the whole sum: the contraction index split as `1024 · block + offset`. -/
theorem rowBlocks1_eq (A : S8192x8192.Idx → EReal) (H : S8192x512.Idx → EReal) (b : S1x512.Idx → EReal) :
    rowBlocks1 A H b = rowAgg1 A H b := by
  funext i
  obtain ⟨r, f, rfl⟩ : ∃ (r : Fin 8192) (f : Fin 512), i = ix2 r f := ⟨i 0, i 1, eq_ix2 i⟩
  show max ((∑ k ∈ Finset.range 8, blockDot1 A H r.val k f) + b (ix2 (0 : Fin 1) f)) 0
    = max ((∑ j : Fin 8192, A (ix2 r j) * H (ix2 j f)) + b (ix2 (0 : Fin 1) f)) 0
  refine congrArg (fun s => max (s + b (ix2 (0 : Fin 1) f)) 0) ?_
  rw [← Fin.sum_univ_eq_sum_range (fun k => blockDot1 A H r.val k f) 8]
  unfold blockDot1
  let g : Fin 8192 → EReal := fun j => A (ix2 r j) * H (ix2 j f)
  refine Eq.trans ?_ (Equiv.sum_comp (finProdFinEquiv (m := 8) (n := 1024)) g)
  rw [Fintype.sum_prod_type]
  refine Finset.sum_congr rfl fun kb _ => Finset.sum_congr rfl fun kk _ => ?_
  have hk := kb.isLt
  have hkk := kk.isLt
  unfold lhsAt1 rhsAt1
  rw [dif_pos ⟨r.isLt, by omega⟩, dif_pos (by omega)]
  have e : (⟨1024 * kb.val + kk.val, by omega⟩ : Fin 8192) = finProdFinEquiv (kb, kk) :=
    Fin.ext (by show 1024 * kb.val + kk.val = kk.val + 1024 * kb.val; omega)
  rw [e]

/-! ## The blocks, read off the arrays -/

variable (V : (c : Dev nD) → (b : Ref sig .tc) → Buf (Elt Ideal) ((c : Thread nD τ).loc b))

/-- The index maps in closed form, decided over the grid. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem iblk1_0_apply (c : Dev nD) (t : Fin cfg1.N) (p kk : Fin 1024) :
    iblk1 V c 0 t (ix2 p kk) = lhsAt1 (V c main_v46) (1024 * (t.val / 8) + p.val) (1024 * (t.val % 8) + kk.val) := by
  have hN : t.val < 64 := lt_of_lt_of_eq t.isLt (show cfg1.N = 64 from N_1)
  obtain ⟨e0, e1, -⟩ := idx_facts1 t
  unfold lhsAt1
  rw [dif_pos ⟨by omega, by omega⟩]
  show V c main_v46 (((cfg1.win 0).blk t).view.emb (ix2 p kk)) = _
  refine congrArg (V c main_v46) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 1024 + 1 * kk.val = 1024 * (t.val % 8) + kk.val; rw [e1]; omega

theorem iblk1_1_apply (c : Dev nD) (t : Fin cfg1.N) (kk : Fin 1024) (q : Fin 512) :
    iblk1 V c 1 t (ix2 kk q) = rhsAt1 (V c main_v47) (1024 * (t.val % 8) + kk.val) q := by
  have hN : t.val < 64 := lt_of_lt_of_eq t.isLt (show cfg1.N = 64 from N_1)
  obtain ⟨-, -, e2, e3, -⟩ := idx_facts1 t
  unfold rhsAt1
  rw [dif_pos (by omega)]
  show V c main_v47 (((cfg1.win 1).blk t).view.emb (ix2 kk q)) = _
  refine congrArg (V c main_v47) (funext fun a => Fin.ext ?_)
  match a with
  | ⟨0, _⟩ => show win1_1.index t (0 : Fin 2) * 1024 + 1 * kk.val = 1024 * (t.val % 8) + kk.val; rw [e2]; omega
  | ⟨1, _⟩ => show win1_1.index t (1 : Fin 2) * 512 + 1 * q.val = q.val; rw [e3]; omega

theorem iblk1_2_apply (c : Dev nD) (t : Fin cfg1.N) (q : Fin 512) :
    iblk1 V c 2 t (ix2 0 q) = V c main_v48 (ix2 0 q) := by
  obtain ⟨-, -, -, -, e4, e5, -⟩ := idx_facts1 t
  show V c main_v48 (((cfg1.win 2).blk t).view.emb (ix2 0 q)) = _
  refine congrArg (V c main_v48) (funext fun a => Fin.ext ?_)
  match a with
  | ⟨0, _⟩ => show win1_2.index t (0 : Fin 2) * 1 + 1 * 0 = 0; rw [e4]
  | ⟨1, _⟩ => show win1_2.index t (1 : Fin 2) * 512 + 1 * q.val = q.val; rw [e5]; omega

/-! ## The accumulator in closed form -/

/-- One step at a point: the accumulator plus the point's block product. -/
theorem step1_apply (c : Dev nD) (t : Fin cfg1.N) (xs : Vec Ideal S1024x512 .f32) (p : Fin 1024) (q : Fin 512) :
    k1_pay2 (iblk1 V c 0 t) (iblk1 V c 1 t) xs (ix2 p q)
      = xs (ix2 p q) + blockDot1 (V c main_v46) (V c main_v47) (1024 * (t.val / 8) + p.val) (t.val % 8) q := by
  refine (pay2_1_apply (iblk1 V c 0 t) (iblk1 V c 1 t) xs p q).trans ?_
  refine congrArg (xs (ix2 p q) + ·) (Finset.sum_congr rfl fun kk _ => ?_)
  rw [iblk1_0_apply V c t p kk, iblk1_1_apply V c t kk q]

/-- After position `n` the accumulator holds the block products of the columns up to the point's. -/
theorem acc1_eq (c : Dev nD) : ∀ (n : ℕ) (h : n < cfg1.N) (p : Fin 1024) (q : Fin 512),
    acc1 V c n h (ix2 p q) = ∑ k ∈ Finset.range (n % 8 + 1), blockDot1 (V c main_v46) (V c main_v47) (1024 * (n / 8) + p.val) k q
  | 0, h, p, q => by
    rw [acc1_first V c ⟨0, h⟩ rfl]
    refine (step1_apply V c ⟨0, h⟩ _ p q).trans ?_
    rw [pay1_1_apply, zero_add]
    simp
  | n + 1, h, p, q => by
    by_cases h0 : (n + 1) % 8 = 0
    · rw [acc1_first V c ⟨n + 1, h⟩ h0]
      refine (step1_apply V c ⟨n + 1, h⟩ _ p q).trans ?_
      rw [pay1_1_apply, zero_add]
      show blockDot1 (V c main_v46) (V c main_v47) (1024 * ((n + 1) / 8) + p.val) ((n + 1) % 8) q = _
      rw [h0]; simp
    · rw [acc1_next V c ⟨n + 1, h⟩ h0]
      refine (step1_apply V c ⟨n + 1, h⟩ _ p q).trans ?_
      show acc1 V c n _ (ix2 p q) + blockDot1 (V c main_v46) (V c main_v47) (1024 * ((n + 1) / 8) + p.val) ((n + 1) % 8) q = _
      rw [acc1_eq c n (Nat.lt_of_succ_lt h) p q]
      have e1 : (n + 1) / 8 = n / 8 := by omega
      have e2 : (n + 1) % 8 = n % 8 + 1 := by omega
      rw [e1, e2, Finset.sum_range_succ _ (n % 8 + 1)]

/-! ## From the blocks to the array -/

/-- The result, index by index. -/
def G1 (c : Dev nD) : S8192x512.Idx → EReal := rowBlocks1 (V c main_v46) (V c main_v47) (V c main_v48)

/-- What a point of the last column writes back is its block of the result. -/
theorem flushed1_eq (c : Dev nD) (t : Fin cfg1.N) (hf : (cfg1.win 3).flush t = true) :
    (dat1 V c).flushed 3 t = ((cfg1.win 3).blk t).view.read (Elt Ideal) (G1 V c) := by
  have hN : t.val < 64 := lt_of_lt_of_eq t.isLt (show cfg1.N = 64 from N_1)
  have h7 : t.val % 8 = 7 := (flush1_3 t).mp hf
  obtain ⟨-, -, -, -, -, -, e6, e7⟩ := idx_facts1 t
  show (cfg1.win 3).cut (grid1.coords t) ((dat1 V c).after 3 t) = _
  rw [after1_3]
  funext j
  obtain ⟨p, q, rfl⟩ : ∃ (p : Fin 1024) (q : Fin 512), j = ix2 p q := ⟨j 0, j 1, eq_ix2 j⟩
  show k1_pay3 (acc1 V c t.val t.isLt) (iblk1 V c 2 t) (ix2 p q) = G1 V c (((cfg1.win 3).blk t).view.emb (ix2 p q))
  refine (pay3_1_apply (acc1 V c t.val t.isLt) (iblk1 V c 2 t) p q).trans ?_
  rw [acc1_eq V c t.val t.isLt p q, iblk1_2_apply V c t q, h7]
  have hi0 : ((((cfg1.win 3).blk t).view.emb (ix2 p q)) 0).val = 1024 * (t.val / 8) + p.val := by
    show win1_3.index t (0 : Fin 2) * 1024 + 1 * p.val = _; rw [e6]; omega
  have hi1 : (((cfg1.win 3).blk t).view.emb (ix2 p q)) 1 = q := Fin.ext (by
    show win1_3.index t (1 : Fin 2) * 512 + 1 * q.val = q.val; rw [e7]; omega)
  unfold G1 rowBlocks1
  dsimp only
  rw [hi0, hi1]

/-- The points of the last column cover the array. -/
theorem cover1 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hN : cfg1.N = 64 := N_1
  let t : Fin cfg1.N := ⟨8 * ((i 0).val / 1024) + 7, by omega⟩
  have ht : t.val = 8 * ((i 0).val / 1024) + 7 := rfl
  obtain ⟨-, -, -, -, -, -, e6, e7⟩ := idx_facts1 t
  refine ⟨t, (flush1_3 t).mpr (by omega), ?_⟩
  show i ∈ ((View.whole main_v49).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024; rw [e6]; omega
  | ⟨1, _⟩ => show win1_3.index t (1 : Fin 2) * 512 ≤ (i 1).val ∧ (i 1).val < win1_3.index t (1 : Fin 2) * 512 + 512; rw [e7]; omega

/-- The array after the region. -/
theorem final1_G (c : Dev nD) : (dat1 (F := Ideal) V c).arrAt 3 cfg1.N = G1 V c :=
  (dat1 V c).arrAt_eq_of_cover 3 (G1 V c) (flushed1_eq V c) (cover1)

/-- The array after the region, as one function of the three operand arrays. -/
theorem final1 (c : Dev nD) :
    (dat1 (F := Ideal) V c).arrAt 3 cfg1.N = rowAgg1 (V c main_v46) (V c main_v47) (V c main_v48) :=
  (final1_G V c).trans (rowBlocks1_eq (V c main_v46) (V c main_v47) (V c main_v48))

end Cert.KernelIdeal.Hand

end
-- ==== Proof.KI.Reg3Value.lean ====
import proofs.«155600_j21663815041514_2_alg».proof.Proof.KI.Reg3
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # Region 3, read at the extended reals

Row block `i` of the result is the sum over the eight column blocks of the block products, plus the row vector. -/

/-! ## The block product's operand indices -/

theorem lhs3_0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs3_1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs3_0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs3_1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-! ## The payloads at an index -/

/-- The reset block is zero everywhere. -/
theorem pay1_3_apply (j : S1024x256.Idx) : k3_pay1 (F := Ideal) j = 0 := by
  unfold k3_pay1
  simp only [shapeCast_self]
  exact Ideal.ofBits_zero_f32

/-- The accumulation step: the accumulator plus the product of the two blocks. -/
theorem pay2_3_apply (x0 : Vec Ideal S1024x1024 .f32) (x1 : Vec Ideal S1024x256 .f32) (xs : Vec Ideal S1024x256 .f32) (p : Fin 1024) (q : Fin 256) :
    k3_pay2 x0 x1 xs (ix2 p q) = xs (ix2 p q) + ∑ kk : Fin 1024, x0 (ix2 p kk) * x1 (ix2 kk q) := by
  unfold k3_pay2
  simp only [shapeCast_self, matmul]
  rw [addf_apply, Ideal.matmul_constant_zero_apply, ← Equiv.sum_comp (ValueIdx.contrEquiv1 dot_S1024x1024_S1024x256_S1024x256_1_0_0_1_n_n 1024 rfl rfl).symm]
  refine congrArg (xs (ix2 p q) + ·) (Finset.sum_congr rfl fun k _ => ?_)
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k := funext fun a => Fin.ext (by
    match a with
    | ⟨0, _⟩ => exact lhs3_0 _ _
    | ⟨1, _⟩ => exact (lhs3_1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q := funext fun a => Fin.ext (by
    match a with
    | ⟨0, _⟩ => exact (rhs3_0 _ _).trans hk
    | ⟨1, _⟩ => exact rhs3_1 _ _)
  rw [el, er]

/-- The closing step: the row vector added to every row. -/
theorem pay3_3_apply (acc : Vec Ideal S1024x256 .f32) (b : Vec Ideal S1x256 .f32) (p : Fin 1024) (q : Fin 256) :
    k3_pay3 acc b (ix2 p q) = acc (ix2 p q) + b (ix2 0 q) := by
  unfold k3_pay3
  simp only [shapeCast_self]
  rw [addf_apply, broadcastTo_apply b broadcasts_S1x256_S1024x256 (ix2 p q) (ix2 0 q) (by
    intro a
    match a with
    | ⟨0, _⟩ => rfl
    | ⟨1, _⟩ => rfl)]

/-! ## The result as a function of whole arrays -/

/-- Entry `(r, s)` of the left operand (zero off the array). -/
def lhsAt3 (A : S8192x8192.Idx → EReal) (r s : ℕ) : EReal :=
  if h : r < 8192 ∧ s < 8192 then A (ix2 ⟨r, h.1⟩ ⟨s, h.2⟩) else 0
/-- Entry `(r, q)` of the right operand (zero off the array). -/
def rhsAt3 (H : S8192x256.Idx → EReal) (r : ℕ) (q : Fin 256) : EReal :=
  if h : r < 8192 then H (ix2 ⟨r, h⟩ q) else 0
/-- Row `r` of column block `k` of the left operand against column `q` of row block `k` of the right. -/
def blockDot3 (A : S8192x8192.Idx → EReal) (H : S8192x256.Idx → EReal) (r k : ℕ) (q : Fin 256) : EReal :=
  ∑ kk : Fin 1024, lhsAt3 A r (1024 * k + kk.val) * rhsAt3 H (1024 * k + kk.val) q
/-- The result with the contraction taken block by block. -/
def rowBlocks3 (A : S8192x8192.Idx → EReal) (H : S8192x256.Idx → EReal) (b : S1x256.Idx → EReal) : S8192x256.Idx → EReal :=
  fun i => (∑ k ∈ Finset.range 8, blockDot3 A H (i 0).val k (i 1)) + b (ix2 (0 : Fin 1) (i 1))
/-- The result: each row of the left operand against each column of the right, plus the row vector. -/
def rowAgg3 (A : S8192x8192.Idx → EReal) (H : S8192x256.Idx → EReal) (b : S1x256.Idx → EReal) : S8192x256.Idx → EReal :=
  fun i => (∑ j : Fin 8192, A (ix2 (i 0) j) * H (ix2 j (i 1))) + b (ix2 (0 : Fin 1) (i 1))

/-- The eight block sums are the whole sum: the contraction index split as `1024 · block + offset`. -/
theorem rowBlocks3_eq (A : S8192x8192.Idx → EReal) (H : S8192x256.Idx → EReal) (b : S1x256.Idx → EReal) :
    rowBlocks3 A H b = rowAgg3 A H b := by
  funext i
  obtain ⟨r, f, rfl⟩ : ∃ (r : Fin 8192) (f : Fin 256), i = ix2 r f := ⟨i 0, i 1, eq_ix2 i⟩
  show (∑ k ∈ Finset.range 8, blockDot3 A H r.val k f) + b (ix2 (0 : Fin 1) f)
    = (∑ j : Fin 8192, A (ix2 r j) * H (ix2 j f)) + b (ix2 (0 : Fin 1) f)
  refine congrArg (fun s => s + b (ix2 (0 : Fin 1) f)) ?_
  rw [← Fin.sum_univ_eq_sum_range (fun k => blockDot3 A H r.val k f) 8]
  unfold blockDot3
  let g : Fin 8192 → EReal := fun j => A (ix2 r j) * H (ix2 j f)
  refine Eq.trans ?_ (Equiv.sum_comp (finProdFinEquiv (m := 8) (n := 1024)) g)
  rw [Fintype.sum_prod_type]
  refine Finset.sum_congr rfl fun kb _ => Finset.sum_congr rfl fun kk _ => ?_
  have hk := kb.isLt
  have hkk := kk.isLt
  unfold lhsAt3 rhsAt3
  rw [dif_pos ⟨r.isLt, by omega⟩, dif_pos (by omega)]
  have e : (⟨1024 * kb.val + kk.val, by omega⟩ : Fin 8192) = finProdFinEquiv (kb, kk) :=
    Fin.ext (by show 1024 * kb.val + kk.val = kk.val + 1024 * kb.val; omega)
  rw [e]

/-! ## The blocks, read off the arrays -/

variable (V : (c : Dev nD) → (b : Ref sig .tc) → Buf (Elt Ideal) ((c : Thread nD τ).loc b))

/-- The index maps in closed form, decided over the grid. -/
theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

theorem iblk3_0_apply (c : Dev nD) (t : Fin cfg3.N) (p kk : Fin 1024) :
    iblk3 V c 0 t (ix2 p kk) = lhsAt3 (V c main_v46) (1024 * (t.val / 8) + p.val) (1024 * (t.val % 8) + kk.val) := by
  have hN : t.val < 64 := lt_of_lt_of_eq t.isLt (show cfg3.N = 64 from N_3)
  obtain ⟨e0, e1, -⟩ := idx_facts3 t
  unfold lhsAt3
  rw [dif_pos ⟨by omega, by omega⟩]
  show V c main_v46 (((cfg3.win 0).blk t).view.emb (ix2 p kk)) = _
  refine congrArg (V c main_v46) (funext fun a => Fin.ext ?_)
  match a with
  | ⟨0, _⟩ => show win3_0.index t (0 : Fin 2) * 1024 + 1 * p.val = 1024 * (t.val / 8) + p.val; rw [e0]; omega
  | ⟨1, _⟩ => show win3_0.index t (1 : Fin 2) * 1024 + 1 * kk.val = 1024 * (t.val % 8) + kk.val; rw [e1]; omega

theorem iblk3_1_apply (c : Dev nD) (t : Fin cfg3.N) (kk : Fin 1024) (q : Fin 256) :
    iblk3 V c 1 t (ix2 kk q) = rhsAt3 (V c main_v52) (1024 * (t.val % 8) + kk.val) q := by
  have hN : t.val < 64 := lt_of_lt_of_eq t.isLt (show cfg3.N = 64 from N_3)
  obtain ⟨-, -, e2, e3, -⟩ := idx_facts3 t
  unfold rhsAt3
  rw [dif_pos (by omega)]
  show V c main_v52 (((cfg3.win 1).blk t).view.emb (ix2 kk q)) = _
  refine congrArg (V c main_v52) (funext fun a => Fin.ext ?_)
  match a with
  | ⟨0, _⟩ => show win3_1.index t (0 : Fin 2) * 1024 + 1 * kk.val = 1024 * (t.val % 8) + kk.val; rw [e2]; omega
  | ⟨1, _⟩ => show win3_1.index t (1 : Fin 2) * 256 + 1 * q.val = q.val; rw [e3]; omega

theorem iblk3_2_apply (c : Dev nD) (t : Fin cfg3.N) (q : Fin 256) :
    iblk3 V c 2 t (ix2 0 q) = V c main_v53 (ix2 0 q) := by
  obtain ⟨-, -, -, -, e4, e5, -⟩ := idx_facts3 t
  show V c main_v53 (((cfg3.win 2).blk t).view.emb (ix2 0 q)) = _
  refine congrArg (V c main_v53) (funext fun a => Fin.ext ?_)
  match a with
  | ⟨0, _⟩ => show win3_2.index t (0 : Fin 2) * 1 + 1 * 0 = 0; rw [e4]
  | ⟨1, _⟩ => show win3_2.index t (1 : Fin 2) * 256 + 1 * q.val = q.val; rw [e5]; omega

/-! ## The accumulator in closed form -/

/-- One step at a point: the accumulator plus the point's block product. -/
theorem step3_apply (c : Dev nD) (t : Fin cfg3.N) (xs : Vec Ideal S1024x256 .f32) (p : Fin 1024) (q : Fin 256) :
    k3_pay2 (iblk3 V c 0 t) (iblk3 V c 1 t) xs (ix2 p q)
      = xs (ix2 p q) + blockDot3 (V c main_v46) (V c main_v52) (1024 * (t.val / 8) + p.val) (t.val % 8) q := by
  refine (pay2_3_apply (iblk3 V c 0 t) (iblk3 V c 1 t) xs p q).trans ?_
  refine congrArg (xs (ix2 p q) + ·) (Finset.sum_congr rfl fun kk _ => ?_)
  rw [iblk3_0_apply V c t p kk, iblk3_1_apply V c t kk q]

/-- After position `n` the accumulator holds the block products of the columns up to the point's. -/
theorem acc3_eq (c : Dev nD) : ∀ (n : ℕ) (h : n < cfg3.N) (p : Fin 1024) (q : Fin 256),
    acc3 V c n h (ix2 p q) = ∑ k ∈ Finset.range (n % 8 + 1), blockDot3 (V c main_v46) (V c main_v52) (1024 * (n / 8) + p.val) k q
  | 0, h, p, q => by
    rw [acc3_first V c ⟨0, h⟩ rfl]
    refine (step3_apply V c ⟨0, h⟩ _ p q).trans ?_
    rw [pay1_3_apply, zero_add]
    simp
  | n + 1, h, p, q => by
    by_cases h0 : (n + 1) % 8 = 0
    · rw [acc3_first V c ⟨n + 1, h⟩ h0]
      refine (step3_apply V c ⟨n + 1, h⟩ _ p q).trans ?_
      rw [pay1_3_apply, zero_add]
      show blockDot3 (V c main_v46) (V c main_v52) (1024 * ((n + 1) / 8) + p.val) ((n + 1) % 8) q = _
      rw [h0]; simp
    · rw [acc3_next V c ⟨n + 1, h⟩ h0]
      refine (step3_apply V c ⟨n + 1, h⟩ _ p q).trans ?_
      show acc3 V c n _ (ix2 p q) + blockDot3 (V c main_v46) (V c main_v52) (1024 * ((n + 1) / 8) + p.val) ((n + 1) % 8) q = _
      rw [acc3_eq c n (Nat.lt_of_succ_lt h) p q]
      have e1 : (n + 1) / 8 = n / 8 := by omega
      have e2 : (n + 1) % 8 = n % 8 + 1 := by omega
      rw [e1, e2, Finset.sum_range_succ _ (n % 8 + 1)]

/-! ## From the blocks to the array -/

/-- The result, index by index. -/
def G3 (c : Dev nD) : S8192x256.Idx → EReal := rowBlocks3 (V c main_v46) (V c main_v52) (V c main_v53)

/-- What a point of the last column writes back is its block of the result. -/
theorem flushed3_eq (c : Dev nD) (t : Fin cfg3.N) (hf : (cfg3.win 3).flush t = true) :
    (dat3 V c).flushed 3 t = ((cfg3.win 3).blk t).view.read (Elt Ideal) (G3 V c) := by
  have hN : t.val < 64 := lt_of_lt_of_eq t.isLt (show cfg3.N = 64 from N_3)
  have h7 : t.val % 8 = 7 := (flush3_3 t).mp hf
  obtain ⟨-, -, -, -, -, -, e6, e7⟩ := idx_facts3 t
  show (cfg3.win 3).cut (grid3.coords t) ((dat3 V c).after 3 t) = _
  rw [after3_3]
  funext j
  obtain ⟨p, q, rfl⟩ : ∃ (p : Fin 1024) (q : Fin 256), j = ix2 p q := ⟨j 0, j 1, eq_ix2 j⟩
  show k3_pay3 (acc3 V c t.val t.isLt) (iblk3 V c 2 t) (ix2 p q) = G3 V c (((cfg3.win 3).blk t).view.emb (ix2 p q))
  refine (pay3_3_apply (acc3 V c t.val t.isLt) (iblk3 V c 2 t) p q).trans ?_
  rw [acc3_eq V c t.val t.isLt p q, iblk3_2_apply V c t q, h7]
  have hi0 : ((((cfg3.win 3).blk t).view.emb (ix2 p q)) 0).val = 1024 * (t.val / 8) + p.val := by
    show win3_3.index t (0 : Fin 2) * 1024 + 1 * p.val = _; rw [e6]; omega
  have hi1 : (((cfg3.win 3).blk t).view.emb (ix2 p q)) 1 = q := Fin.ext (by
    show win3_3.index t (1 : Fin 2) * 256 + 1 * q.val = q.val; rw [e7]; omega)
  unfold G3 rowBlocks3
  dsimp only
  rw [hi0, hi1]

/-- The points of the last column cover the array. -/
theorem cover3 (i : S8192x256.Idx) : ∃ t : Fin cfg3.N, (cfg3.win 3).flush t = true ∧ i ∈ ((cfg3.win 3).blk t).view.set := by
  have hi0 : (i 0).val < 8192 := (i 0).isLt
  have hi1 : (i 1).val < 256 := (i 1).isLt
  have hN : cfg3.N = 64 := N_3
  let t : Fin cfg3.N := ⟨8 * ((i 0).val / 1024) + 7, by omega⟩
  have ht : t.val = 8 * ((i 0).val / 1024) + 7 := rfl
  obtain ⟨-, -, -, -, -, -, e6, e7⟩ := idx_facts3 t
  refine ⟨t, (flush3_3 t).mpr (by omega), ?_⟩
  show i ∈ ((View.whole main_v54).slice (win3_3.rect t)).set
  rw [View.set_slice_whole, Rect.mem_set_unit]
  intro a
  match a with
  | ⟨0, _⟩ => show win3_3.index t (0 : Fin 2) * 1024 ≤ (i 0).val ∧ (i 0).val < win3_3.index t (0 : Fin 2) * 1024 + 1024; rw [e6]; omega
  | ⟨1, _⟩ => show win3_3.index t (1 : Fin 2) * 256 ≤ (i 1).val ∧ (i 1).val < win3_3.index t (1 : Fin 2) * 256 + 256; rw [e7]; omega

/-- The array after the region. -/
theorem final3_G (c : Dev nD) : (dat3 (F := Ideal) V c).arrAt 3 cfg3.N = G3 V c :=
  (dat3 V c).arrAt_eq_of_cover 3 (G3 V c) (flushed3_eq V c) (cover3)

/-- The array after the region, as one function of the three operand arrays. -/
theorem final3 (c : Dev nD) :
    (dat3 (F := Ideal) V c).arrAt 3 cfg3.N = rowAgg3 (V c main_v46) (V c main_v52) (V c main_v53) :=
  (final3_G V c).trans (rowBlocks3_eq (V c main_v46) (V c main_v52) (V c main_v53))

end Cert.KernelIdeal.Hand

end
-- ==== Proof.KI.Value.lean ====
/-
  The program's three result buffers at the end of the run, at the ideal numbers: the mean, the log-variance and
  the decoded adjacency of the specification's kernel side, as functions of the launch arguments.

  The contents of a core's buffers at the boundaries of the five regions are stages: the arguments are never
  written, so each stage reads them as launched; each region's output array is its function of the arrays it
  reads as the region finds them; an array a region only reads, and a buffer that is none of its arrays, it
  leaves as found. The stages' conclusions are then the three results.
-/
import proofs.«155600_j21663815041514_2_alg».proof.Proof.KI.Run
import proofs.«155600_j21663815041514_2_alg».proof.Proof.KI.Stages
import proofs.«155600_j21663815041514_2_alg».proof.Proof.KI.Reg4Value
import proofs.«155600_j21663815041514_2_alg».proof.Proof.KI.Reg1Value
import proofs.«155600_j21663815041514_2_alg».proof.Proof.KI.Reg3Value
set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arguments where the stages read them -/

/-- A buffer no host operation before the first region writes is, when that region is entered, as launched. -/
theorem W3_of_not_written (c : Dev nD) (b : Ref sig .tc) (h2 : b ∉ hostOps0_2_W) (h1 : b ∉ hostOps0_1_W) (h0 : b ∉ hostOps0_W) :
    W3 m ρ c (Proc.devRef .tc b) = m ((c : Thread nD τ).loc b) :=
  ((StableHlo.after_of_writes_sub hostOps0_2 (W2 m ρ c) hostOps0_2_writes h2 : W3 m ρ c (Proc.devRef .tc b) = W2 m ρ c (Proc.devRef .tc b))).trans <|
  ((StableHlo.after_of_writes_sub hostOps0_1 (W1 m ρ c) hostOps0_1_writes h1 : W2 m ρ c (Proc.devRef .tc b) = W1 m ρ c (Proc.devRef .tc b))).trans <|
  ((StableHlo.after_of_writes_sub hostOps0 (W0 m ρ c) hostOps0_writes h0 : W1 m ρ c (Proc.devRef .tc b) = W0 m ρ c (Proc.devRef .tc b))).trans rfl

/-- A buffer that, besides, is no array of region 0 is as launched when region 0 is left. -/
theorem W4_of_not_written (c : Dev nD) (b : Ref sig .tc) (hr0 : ∀ w, Pipeline.arrRef spec0 w ≠ b)
    (h2 : b ∉ hostOps0_2_W) (h1 : b ∉ hostOps0_1_W) (h0 : b ∉ hostOps0_W) :
    W4 m ρ c (Proc.devRef .tc b) = m ((c : Thread nD τ).loc b) :=
  (W4_of_ne m ρ c b hr0).trans (W3_of_not_written m ρ c b h2 h1 h0)

/-- A buffer that, besides, the host operations after region 0 do not write and that is no array of region 1 is as
    launched when region 1 is left. -/
theorem W6_of_not_written (c : Dev nD) (b : Ref sig .tc) (hr1 : ∀ w, Pipeline.arrRef spec1 w ≠ b) (hh1 : b ∉ hostOps1_W)
    (hr0 : ∀ w, Pipeline.arrRef spec0 w ≠ b) (h2 : b ∉ hostOps0_2_W) (h1 : b ∉ hostOps0_1_W) (h0 : b ∉ hostOps0_W) :
    W6 m ρ c (Proc.devRef .tc b) = m ((c : Thread nD τ).loc b) :=
  (W6_of_ne m ρ c b hr1).trans <|
  ((StableHlo.after_of_writes_sub hostOps1 (W4 m ρ c) hostOps1_writes hh1 : W5 m ρ c (Proc.devRef .tc b) = W4 m ρ c (Proc.devRef .tc b))).trans <|
  W4_of_not_written m ρ c b hr0 h2 h1 h0

/-! ## The run's boundary contents are stages -/

/-- The two aggregations regions 1 and 3 leave are `aggMax` and `aggAdd`. -/
theorem rowAgg1_eq (A : S8192x8192.Idx → EReal) (H : S8192x512.Idx → EReal) (b : S1x512.Idx → EReal) : rowAgg1 A H b = aggMax A H b := rfl
theorem rowAgg3_eq (A : S8192x8192.Idx → EReal) (H : S8192x256.Idx → EReal) (b : S1x256.Idx → EReal) : rowAgg3 A H b = aggAdd A H b := rfl

/-- The logistic Gram matrix region 4 leaves is `gramLogistic`. -/
theorem G4_eq (z : S8192x128.Idx → Elt Ideal .f32) : G4 z = gramLogistic z := rfl

/-- The contents of core `c`'s buffers at the boundaries of the five regions are stages, given the adjacency matrix
    when the first region is entered. -/
theorem stages (c : Dev nD) (col row : Fin Cert.Spec.NE → Fin 8192) (n : Fin Cert.Spec.NE → EReal)
    (hadj : ∀ i j : Fin 8192, (W3 m ρ c (Proc.devRef .tc main_v46) : S8192x8192.Idx → EReal) (ix2 i j) = Cert.Spec.adj col row n i j) :
    Stages col row n (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (W3 m ρ c) (W4 m ρ c) (W6 m ρ c) (W8 m ρ c) (W10 m ρ c) (W12 m ρ c) where
  adj := hadj
  arg1 := W3_of_not_written m ρ c main_arg1 (by decide) (by decide) (by decide)
  arg2 := W3_of_not_written m ρ c main_arg2 (by decide) (by decide) (by decide)
  out0 := (W4_arr m ρ c 2).trans (final0_arr (V3 m ρ) c)
  keep0 := W4_of_ne m ρ c main_v46 (by decide)
  arg3 := W4_of_not_written m ρ c main_arg3 (by decide) (by decide) (by decide) (by decide)
  out1 := (W6_arr m ρ c 3).trans ((final1 (V5 m ρ) c).trans (rowAgg1_eq _ _ _))
  keep1 := (W6_arr m ρ c 0).trans (((dat1 (V5 m ρ) c).arrAt_in 0 rfl _).trans (A_eq1 (V5 m ρ) c 0))
  arg4 := W6_of_not_written m ρ c main_arg4 (by decide) (by decide) (by decide) (by decide) (by decide) (by decide)
  arg5 := W6_of_not_written m ρ c main_arg5 (by decide) (by decide) (by decide) (by decide) (by decide) (by decide)
  arg6 := W6_of_not_written m ρ c main_arg6 (by decide) (by decide) (by decide) (by decide) (by decide) (by decide)
  arg7 := W6_of_not_written m ρ c main_arg7 (by decide) (by decide) (by decide) (by decide) (by decide) (by decide)
  out2 := (W8_arr m ρ c 2).trans (final2_arr (V7 m ρ) c)
  keep2 := W8_of_ne m ρ c main_v46 (by decide)
  keep2' := W8_of_ne m ρ c main_v51 (by decide)
  out3 := (W10_arr m ρ c 3).trans ((final3 (V9 m ρ) c).trans (rowAgg3_eq _ _ _))
  out4 := (W12_out m ρ c).trans ((final4_fun (V11 m ρ) c).trans (G4_eq _))
  keep4 := W12_of_ne m ρ c main_v55 (by decide)
  keep4' := W12_of_ne m ρ c main_v56 (by decide)

/-! ## The three results -/

section Results
variable (c : Dev nD) (col row : Fin Cert.Spec.NE → Fin 8192) (n : Fin Cert.Spec.NE → EReal)
  (hadj : ∀ i j : Fin 8192, (W3 m ρ c (Proc.devRef .tc main_v46) : S8192x8192.Idx → EReal) (ix2 i j) = Cert.Spec.adj col row n i j)
include hadj

/-- The mean's buffer at the end of the run is the specification's mean of the launch arguments. -/
theorem W12_v55 (i : Fin 8192) (g : Fin 128) :
    (W12 m ρ c (Proc.devRef .tc main_v55) : S8192x128.Idx → EReal) (ix2 i g)
      = Cert.Spec.muK col row n (mat (m ((c : Thread nD τ).loc main_arg1))) (mat (m ((c : Thread nD τ).loc main_arg2))) (vec (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7))) i g :=
  (stages m ρ c col row n hadj).mu i g

/-- The log-variance's buffer likewise. -/
theorem W12_v56 (i : Fin 8192) (g : Fin 128) :
    (W12 m ρ c (Proc.devRef .tc main_v56) : S8192x128.Idx → EReal) (ix2 i g)
      = Cert.Spec.lvK col row n (mat (m ((c : Thread nD τ).loc main_arg1))) (mat (m ((c : Thread nD τ).loc main_arg2))) (vec (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7))) i g :=
  (stages m ρ c col row n hadj).lv i g

/-- The decoded matrix's buffer likewise. -/
theorem W12_v57 (i j : Fin 8192) :
    (W12 m ρ c (Proc.devRef .tc main_v57) : S8192x8192.Idx → EReal) (ix2 i j)
      = Cert.Spec.predK col row n (mat (m ((c : Thread nD τ).loc main_arg1))) (mat (m ((c : Thread nD τ).loc main_arg2))) (vec (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7))) i j :=
  (stages m ρ c col row n hadj).pred i j

end Results

end Cert.KernelIdeal.Hand

end
-- ==== Proof.Ref.Stages.lean ====
/-
  The reference's values, stage by stage, as functions of its argument arrays.

  From the edge array the program forms the source words and the target words of the 270336 edges (a row of the array
  followed by 0, 1, …, 8191: one self-loop per node), the in-degree of every node (an accumulating scatter of ones by
  the target words), its inverse square root where the degree is positive and 0 elsewhere, and the weight of an edge,
  the product of that quantity at its two ends (each end read through the word with a negative value raised by 8192).
  A graph convolution of a node matrix `h` gathers the row of `h` at each edge's source, scales it by the edge's weight,
  and adds it into the row of a zero matrix at the edge's target word; a bias row is added to every row. The hidden
  layer is the convolution of `x · W1` with bias `b1`, cut off below at 0; the mean and the log-variance are the
  convolutions of `hidden · W` for their two weight matrices and biases; the decoded adjacency is
  `1 / (1 + exp (−(mean · meanᵀ)))`, entry by entry.

  Every definition composes the same operations, with the same dimension numbers and constants, in the same order as
  the program's text does.
-/
import proofs.«155600_j21663815041514_2_alg».proof.Proof.Gen.ReferenceIdeal
import Idealize.ShloMosaic.Lib.Pipeline.Value
import Idealize.ShloMosaic.Lib.ValueIdx
import Idealize.ShloMosaic.PureOps.Ideal.Laws

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The contents of an array of 32-bit words of shape `s`. -/
abbrev IArr (F : FTy → Type) (s : Shape) : Type := (⟨s, .i32⟩ : BufTy).Contents (Elt F)
/-- The contents of an array of floats of shape `s`. -/
abbrev FArr (F : FTy → Type) (s : Shape) : Type := (⟨s, .f32⟩ : BufTy).Contents (Elt F)

/-- The edges' source words: row 0 of the edge array, then 0, 1, …, 8191. -/
def rowW (a0 : IArr F S2x262144) : IArr F S270336 :=
  concatenate S270336 0 [⟨S262144, (shapeCast _ (extractStridedSlice S1x262144 ![0, 0] (a0) slices_S2x262144_S1x262144_0_0) shapeCasts_S1x262144_S262144)⟩, ⟨S8192, (iotaInDim S8192 32 0)⟩] concatenates_S262144_S8192_S270336_d0

/-- The edges' target words: row 1 of the edge array, then 0, 1, …, 8191. -/
def colW (a0 : IArr F S2x262144) : IArr F S270336 :=
  concatenate S270336 0 [⟨S262144, (shapeCast _ (extractStridedSlice S1x262144 ![1, 0] (a0) slices_S2x262144_S1x262144_1_0) shapeCasts_S1x262144_S262144)⟩, ⟨S8192, (iotaInDim S8192 32 0)⟩] concatenates_S262144_S8192_S270336_d0

/-- A vector of words with every negative one raised by 8192. -/
def wrap (v : IArr F S270336) : IArr F S270336 :=
  select (cmpi .slt v (broadcastInDim S270336 ![] bcast_S_S270336 (constantI S_ 32 0#32)))
    (addi v (broadcastInDim S270336 ![] bcast_S_S270336 (constantI S_ 32 8192#32))) v

/-- A vector of words as a column. -/
def asCol (v : IArr F S270336) : IArr F S270336x1 := broadcastInDim S270336x1 ![0] bcast_S270336_S270336x1_0 v

/-- The in-degree of every node: a one added at the target word of every edge. -/
def deg (a0 : IArr F S2x262144) : FArr F S8192 :=
  Host.scatterAdd scatter_S8192_S270336x1_S270336_n_0_0_1
    (broadcastInDim S8192 ![] bcast_S_S8192 (constant S_ .f32 0x00000000#32))
    (asCol (colW a0))
    (broadcastInDim S270336 ![] bcast_S_S270336 (constant S_ .f32 0x3F800000#32))

/-- The inverse square root of the degree where it is positive, 0 elsewhere. -/
def dinv (a0 : IArr F S2x262144) : FArr F S8192 :=
  select (cmpf .ogt (deg (F := F) a0) (broadcastInDim S8192 ![] bcast_S_S8192 (constant S_ .f32 0x00000000#32)))
    (Host.rsqrt (maximumf (deg (F := F) a0) (broadcastInDim S8192 ![] bcast_S_S8192 (constant S_ .f32 0x2B8CBCCC#32))))
    (broadcastInDim S8192 ![] bcast_S_S8192 (id (constant S_ .f32 0x00000000#32)))

/-- The weight of every edge: the product of `dinv` at its source and at its target. -/
def nrm (a0 : IArr F S2x262144) : FArr F S270336 :=
  mulf (Host.gather gather_S8192_S270336x1_S270336_n_0_n_n_0_1_1 (dinv (F := F) a0) (asCol (wrap (rowW a0))))
    (Host.gather gather_S8192_S270336x1_S270336_n_0_n_n_0_1_1 (dinv (F := F) a0) (asCol (wrap (colW a0))))

/-- The edge-by-edge aggregation of a matrix of 512 columns. -/
def agg512 (a0 : IArr F S2x262144) (h : FArr F S8192x512) : FArr F S8192x512 :=
  Host.scatterAdd scatter_S8192x512_S270336x1_S270336x512_1_0_0_1
    (broadcastInDim S8192x512 ![] bcast_S_S8192x512 (constant S_ .f32 0x00000000#32))
    (asCol (colW a0))
    (mulf (broadcastInDim S270336x512 ![0, 1] bcast_S270336x1_S270336x512_0_1 (broadcastInDim S270336x1 ![0] bcast_S270336_S270336x1_0 (nrm (F := F) a0)))
      (Host.gather gather_S8192x512_S270336x1_S270336x512_1_0_n_n_0_1_1512 h (asCol (wrap (rowW a0)))))

/-- The edge-by-edge aggregation of a matrix of 128 columns. -/
def agg128 (a0 : IArr F S2x262144) (h : FArr F S8192x128) : FArr F S8192x128 :=
  Host.scatterAdd scatter_S8192x128_S270336x1_S270336x128_1_0_0_1
    (broadcastInDim S8192x128 ![] bcast_S_S8192x128 (constant S_ .f32 0x00000000#32))
    (asCol (colW a0))
    (mulf (broadcastInDim S270336x128 ![0, 1] bcast_S270336x1_S270336x128_0_1 (broadcastInDim S270336x1 ![0] bcast_S270336_S270336x1_0 (nrm (F := F) a0)))
      (Host.gather gather_S8192x128_S270336x1_S270336x128_1_0_n_n_0_1_1128 h (asCol (wrap (rowW a0)))))

/-- The hidden layer: the aggregation of `x · W1`, plus `b1` on every row, cut off below at 0. -/
def hid (a0 : IArr F S2x262144) (a1 : FArr F S8192x512) (a2 : FArr F S512x512) (a3 : FArr F S512) : FArr F S8192x512 :=
  maximumf
    (addf (agg512 (F := F) a0 (Host.dotGeneral dot_S8192x512_S512x512_S8192x512_1_0_0_1_n_n none a1 a2))
      (broadcastInDim S8192x512 ![0, 1] bcast_S1x512_S8192x512_0_1 (broadcastInDim S1x512 ![1] bcast_S512_S1x512_1 a3)))
    (broadcastInDim S8192x512 ![] bcast_S_S8192x512 (constant S_ .f32 0x00000000#32))

/-- A latent layer of 128 columns: the aggregation of `hidden · W`, plus `b` on every row. -/
def lat (a0 : IArr F S2x262144) (a1 : FArr F S8192x512) (a2 : FArr F S512x512) (a3 : FArr F S512) (W : FArr F S512x128) (b : FArr F S128) : FArr F S8192x128 :=
  addf (agg128 (F := F) a0 (Host.dotGeneral dot_S8192x512_S512x128_S8192x128_1_0_0_1_n_n none (hid (F := F) a0 a1 a2 a3) W))
    (broadcastInDim S8192x128 ![0, 1] bcast_S1x128_S8192x128_0_1 (broadcastInDim S1x128 ![1] bcast_S128_S1x128_1 b))

/-- The decoded adjacency: `1 / (1 + exp (−(z · zᵀ)))` for the mean `z`. -/
def pred (a0 : IArr F S2x262144) (a1 : FArr F S8192x512) (a2 : FArr F S512x512) (a3 : FArr F S512) (a4 : FArr F S512x128) (a5 : FArr F S128) : FArr F S8192x8192 :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf (Host.dotGeneral dot_S8192x128_S128x8192_S8192x8192_1_0_0_1_n_n none
        (lat (F := F) a0 a1 a2 a3 a4 a5)
        (transpose S128x8192 [1, 0] (lat (F := F) a0 a1 a2 a3 a4 a5) transposes_S8192x128_S128x8192_1_0)))))

end Cert.Ref

end
-- ==== Proof.Ref.Bridge.lean ====
/-
  The terms the reference's run ends with are the staged values.

  The run states each result buffer as one composed term of the argument arrays. Each such term applies, to the same
  arguments, the same operations in the same order as the staged definitions do; the equations below say so.
-/
import proofs.«155600_j21663815041514_2_alg».proof.Proof.Ref.RunDefs
import proofs.«155600_j21663815041514_2_alg».proof.Proof.Ref.Stages

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The mean's result term is the latent layer of the mean's weights and bias. -/
theorem res_mu_eq (m : (ℓ : Loc nD τ sig) → Buf (Elt F) ℓ) (c : Dev nD) :
    Cert.ReferenceIdeal.ValueP.res_main_v91 m c = lat (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v91; rfl

set_option maxRecDepth 8192 in
/-- The log-variance's result term is the latent layer of the log-variance's weights and bias. -/
theorem res_lv_eq (m : (ℓ : Loc nD τ sig) → Buf (Elt F) ℓ) (c : Dev nD) :
    Cert.ReferenceIdeal.ValueP.res_main_v133 m c = lat (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold Cert.ReferenceIdeal.ValueP.res_main_v133; rfl

set_option maxRecDepth 8192 in
/-- The decoded adjacency's result term is the staged decode. -/
theorem res_pred_eq (m : (ℓ : Loc nD τ sig) → Buf (Elt F) ℓ) (c : Dev nD) :
    Cert.ReferenceIdeal.ValueP.res_main_v141 m c = pred (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v141; rfl

end Cert.Ref

end
-- ==== Proof.Ref.Range.lean ====
/-
  The reference's edge words are node numbers.

  If every entry of the edge array, read signed, lies in [0, 8192), then so does every one of the 270336 source
  words and every one of the 270336 target words: such a word is either an entry of the array (one of the first
  262144 words of its row) or one of the numbers 0, 1, …, 8191 that follow them.
-/
import proofs.«155600_j21663815041514_2_alg».proof.Proof.Ref.Stages
import proofs.«155600_j21663815041514_2_alg».proof.Proof.Edges

noncomputable section

namespace Cert.Ref

open Cert.ReferenceIdeal Cert.ReferenceIdeal.Gen Idealize.ShloMosaic Idealize.ShloMosaic.ValueIdx Idealize.ShloMosaic.StableHlo

/-- Every source word is a node number. -/
theorem rowW_nodes (a0 : IArr Ideal S2x262144) (hr : ∀ i, 0 ≤ (a0 i).toInt ∧ (a0 i).toInt < 8192) :
    ∀ j : S270336.Idx, 0 ≤ (rowW (F := Ideal) a0 j).toInt ∧ (rowW (F := Ideal) a0 j).toInt < 8192 := fun j =>
  Cert.Edges.words_isNode ![0, 0] a0 hr slices_S2x262144_S1x262144_0_0 shapeCasts_S1x262144_S262144
    concatenates_S262144_S8192_S270336_d0 j

/-- Every target word is a node number. -/
theorem colW_nodes (a0 : IArr Ideal S2x262144) (hr : ∀ i, 0 ≤ (a0 i).toInt ∧ (a0 i).toInt < 8192) :
    ∀ j : S270336.Idx, 0 ≤ (colW (F := Ideal) a0 j).toInt ∧ (colW (F := Ideal) a0 j).toInt < 8192 := fun j =>
  Cert.Edges.words_isNode ![1, 0] a0 hr slices_S2x262144_S1x262144_1_0 shapeCasts_S1x262144_S262144
    concatenates_S262144_S8192_S270336_d0 j

/-- The source word of edge e is a node number. -/
theorem rowW_range (a0 : IArr Ideal S2x262144) (hr : ∀ i, 0 ≤ (a0 i).toInt ∧ (a0 i).toInt < 8192) (e : Fin 270336) :
    0 ≤ (rowW (F := Ideal) a0 (ix1 e)).toInt ∧ (rowW (F := Ideal) a0 (ix1 e)).toInt < 8192 :=
  rowW_nodes a0 hr (ix1 e)

/-- The target word of edge e is a node number. -/
theorem colW_range (a0 : IArr Ideal S2x262144) (hr : ∀ i, 0 ≤ (a0 i).toInt ∧ (a0 i).toInt < 8192) (e : Fin 270336) :
    0 ≤ (colW (F := Ideal) a0 (ix1 e)).toInt ∧ (colW (F := Ideal) a0 (ix1 e)).toInt < 8192 :=
  colW_nodes a0 hr (ix1 e)

end Cert.Ref

end
-- ==== Proof.LibRowScatter.lean ====
/-
  Reading an accumulating scatter at an entry, when the scatter is by ROWS.

  The operand is an `N × C` array, the updates an `E × C` array, and the index table is a column of `E` words: row
  `e` of the updates is added, entry by entry, to the operand's row whose number is the table's `e`-th word read
  signed. (Dimension numbers: the updates' axis 1 is the window axis, the operand's axis 0 is inserted, the one start
  component goes to operand axis 0, the index vector is the table's axis 1.)  On the extended reals the accumulating
  scatter is an exact sum, so at an entry `(a, c)` its result is the operand's entry plus the sum of `upd (e, c)` over
  the rows `e` whose word reads, signed, as `a` — in whatever order: addition of extended reals is commutative and
  associative. A row whose word points outside the operand lands nowhere and contributes to no entry; the column
  coordinate passes through unchanged.
-/
import Idealize.ShloMosaic.PureOps.Ideal
import Idealize.ShloMosaic.Lib.ValueIdx

noncomputable section

namespace RowScatter

open Idealize.ShloMosaic Idealize.ShloMosaic.ValueIdx

/-- The operand's shape, `N` rows of `C` entries. -/
abbrev Opnd (N C : Nat) : Shape := ⟨2, ![N, C]⟩
/-- The index table's shape: a column of one row number per update row. -/
abbrev Col (E : Nat) : Shape := ⟨2, ![E, 1]⟩
/-- The updates' shape: `E` rows of `C` entries. -/
abbrev Upd (E C : Nat) : Shape := ⟨2, ![E, C]⟩

variable {N C E w : Nat}

/-- The row of an update index as a plain `Fin E`. -/
abbrev updRow (j : (Upd E C).Idx) : Fin E := ⟨(j 0).val, (j 0).isLt⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update `j` is the table's word in `j`'s row, read signed: the start
    component comes from the table, and the row axis carries no window. -/
theorem coord_row (d : ScatterDims (Opnd N C) (Col E) (Upd E C))
    (h1 : d.updateWindowDims = [1]) (h2 : d.insertedWindowDims = [0]) (h3 : d.scatterDimsToOperandDims = [0])
    (h4 : d.indexVectorDim = 1) (idx : IVec (Col E) w) (j : (Upd E C).Idx) :
    d.start j idx 0 + (d.window j 0 : Int) = (idx (ix2 (updRow j) (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd N C) (Col E) (Upd E C)) := by
    show (0 : Fin 2) ∉ (List.finRange 2).filter (fun x => decide (x ∉ ([0] : List (Fin 2))))
    decide
  have hu : ScatterDims.uScatter (⟨[1], [0], [0], 1, wf⟩ : ScatterDims (Opnd N C) (Col E) (Upd E C)) = [0] := by
    show (List.finRange 2).filter (fun x => decide (x ∉ ([1] : List (Fin 2)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => (j a).val) (getElem_of_eq_singleton _ 0 hu _ _)
  · apply Fin.ext
    simp only [ScatterDims.siIdx]
    split
    · rfl
    · rename_i h
      exact absurd rfl h

/-- On the column axis the target coordinate of update `j` is `j`'s own column: no start component goes to that
    axis, and the window coordinate is the update's second coordinate. -/
theorem coord_col (d : ScatterDims (Opnd N C) (Col E) (Upd E C))
    (h1 : d.updateWindowDims = [1]) (h2 : d.insertedWindowDims = [0]) (h3 : d.scatterDimsToOperandDims = [0])
    (h4 : d.indexVectorDim = 1) (idx : IVec (Col E) w) (j : (Upd E C).Idx) :
    d.start j idx 1 + (d.window j 1 : Int) = ((j 1).val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims (Opnd N C) (Col E) (Upd E C)) := by
    show (1 : Fin 2) ∈ (List.finRange 2).filter (fun x => decide (x ∉ ([0] : List (Fin 2))))
    decide
  simp only [ScatterDims.start, ScatterDims.window]
  rw [dif_neg m1, dif_pos k1]
  simp only [zero_add]
  refine congrArg (fun a => ((j a).val : Int)) ?_
  exact getElem_of_eq_singleton _ 1 rfl _ _

/-- WHERE AN UPDATE LANDS. Update `j` lands at entry `(a, c)` exactly when the table's word in `j`'s row reads, signed,
    as `a`, and `j`'s column is `c`; an update whose word points outside the operand lands nowhere. -/
theorem resultIdx_iff (d : ScatterDims (Opnd N C) (Col E) (Upd E C))
    (h1 : d.updateWindowDims = [1]) (h2 : d.insertedWindowDims = [0]) (h3 : d.scatterDimsToOperandDims = [0])
    (h4 : d.indexVectorDim = 1) (idx : IVec (Col E) w) (j : (Upd E C).Idx) (a : Fin N) (c : Fin C) :
    d.resultIdx? j idx = some (ix2 a c)
      ↔ (idx (ix2 (updRow j) (0 : Fin 1))).toInt = (a.val : Int) ∧ (j 1).val = c.val := by
  have c0 := coord_row d h1 h2 h3 h4 idx j
  have c1 := coord_col d h1 h2 h3 h4 idx j
  unfold ScatterDims.resultIdx?
  split
  · rename_i hall
    have p0 := (hall 0).1
    have p1 := (hall 1).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      rw [← c0]
      constructor <;> omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, Int.toNat_natCast, hc]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1]
        exact ⟨Int.natCast_nonneg _, by exact_mod_cast idx2_lt1 j⟩

/-- THE SCATTER READ AT AN ENTRY, with no hypothesis on the table: the operand's entry plus the sum, over the update
    rows whose word reads, signed, as this row, of the update's entry in this column. -/
theorem scatterAdd_rows_drop (d : ScatterDims (Opnd N C) (Col E) (Upd E C))
    (h1 : d.updateWindowDims = [1]) (h2 : d.insertedWindowDims = [0]) (h3 : d.scatterDimsToOperandDims = [0])
    (h4 : d.indexVectorDim = 1) (idx : IVec (Col E) w)
    (x : (Opnd N C).Idx → EReal) (upd : (Upd E C).Idx → EReal) (a : Fin N) (c : Fin C) :
    Ideal.hostScatterAdd d x idx upd (ix2 a c)
      = x (ix2 a c)
        + ∑ e ∈ Finset.univ.filter (fun e : Fin E => (idx (ix2 e (0 : Fin 1))).toInt = (a.val : Int)), upd (ix2 e c) := by
  unfold Ideal.hostScatterAdd
  refine congrArg (x (ix2 a c) + ·) ?_
  have back : ∀ j : (Upd E C).Idx, d.resultIdx? j idx = some (ix2 a c) → j = ix2 (updRow j) c := by
    intro j hj
    have hc := ((resultIdx_iff d h1 h2 h3 h4 idx j a c).1 hj).2
    funext b
    match b with
    | ⟨0, _⟩ => exact Fin.ext rfl
    | ⟨1, _⟩ => exact Fin.ext hc
  refine Finset.sum_bij' (fun j _ => updRow j) (fun e _ => ix2 e c) ?_ ?_ ?_ ?_ ?_
  · intro j hj
    rw [Finset.mem_filter] at hj ⊢
    exact ⟨Finset.mem_univ _, ((resultIdx_iff d h1 h2 h3 h4 idx j a c).1 hj.2).1⟩
  · intro e he
    rw [Finset.mem_filter] at he ⊢
    refine ⟨Finset.mem_univ _, (resultIdx_iff d h1 h2 h3 h4 idx (ix2 e c) a c).2 ⟨?_, rfl⟩⟩
    exact he.2
  · intro j hj
    rw [Finset.mem_filter] at hj
    exact (back j hj.2).symm
  · intro e _
    exact Fin.ext rfl
  · intro j hj
    rw [Finset.mem_filter] at hj
    exact congrArg upd (back j hj.2)

/-- THE SCATTER READ AT AN ENTRY, when every word of the table is a row number of the operand, `ρ e` for row `e`: the
    operand's entry plus the sum, over the update rows that the table sends to this row, of the update's entry in this
    column. -/
theorem scatterAdd_rows (d : ScatterDims (Opnd N C) (Col E) (Upd E C))
    (h1 : d.updateWindowDims = [1]) (h2 : d.insertedWindowDims = [0]) (h3 : d.scatterDimsToOperandDims = [0])
    (h4 : d.indexVectorDim = 1) (ρ : Fin E → Fin N) (idx : IVec (Col E) w)
    (hρ : ∀ e : Fin E, (idx (ix2 e (0 : Fin 1))).toInt = ((ρ e).val : Int))
    (x : (Opnd N C).Idx → EReal) (upd : (Upd E C).Idx → EReal) (a : Fin N) (c : Fin C) :
    Ideal.hostScatterAdd d x idx upd (ix2 a c)
      = x (ix2 a c) + ∑ e ∈ Finset.univ.filter (fun e : Fin E => ρ e = a), upd (ix2 e c) := by
  rw [scatterAdd_rows_drop d h1 h2 h3 h4 idx x upd a c]
  refine congrArg (x (ix2 a c) + ·) (Finset.sum_congr (Finset.filter_congr fun e _ => ?_) fun _ _ => rfl)
  rw [hρ e]
  constructor
  · intro hr
    exact Fin.ext (by exact_mod_cast hr)
  · intro hr
    rw [hr]

end RowScatter

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibRowBroadcast.lean ====
/-
  Broadcasts of a row vector and of a scalar, read at an index.

  A vector b of K entries broadcast to one row [1, K] and then down M rows reads b j at (n, j); a [1, K] row broadcast
  down M rows reads its entry (0, j) at (n, j); a vector broadcast to one row reads b j at (0, j); a scalar broadcast
  to any shape reads the scalar everywhere.
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector broadcast to one row, read at (u, j), is its entry j. -/
theorem vec_to_row_apply {K : Nat} (hb1 : (⟨1, ![K]⟩ : Shape).BroadcastsInDim ⟨2, ![1, K]⟩ ![1])
    (b : (⟨1, ![K]⟩ : Shape).Idx → α) (u : Fin 1) (j : Fin K) :
    broadcastInDim (⟨2, ![1, K]⟩ : Shape) ![1] hb1 b (ix2 u j) = b (ix1 j) :=
  broadcastInDim_apply ![1] hb1 b (ix2 u j) (ix1 j)
    (fun a => by
      match a with
      | ⟨0, _⟩ =>
        show j.val = if K = 1 then 0 else j.val
        split
        · have := j.isLt; omega
        · rfl)

/-- A [1, K] row broadcast down M rows, read at (n, j), is its entry (0, j). -/
theorem row_down_apply {M K : Nat} (hb2 : (⟨2, ![1, K]⟩ : Shape).BroadcastsInDim ⟨2, ![M, K]⟩ ![0, 1])
    (v : (⟨2, ![1, K]⟩ : Shape).Idx → α) (n : Fin M) (j : Fin K) :
    broadcastInDim (⟨2, ![M, K]⟩ : Shape) ![0, 1] hb2 v (ix2 n j) = v (ix2 (0 : Fin 1) j) :=
  broadcastInDim_apply ![0, 1] hb2 v (ix2 n j) (ix2 (0 : Fin 1) j)
    (fun a => by
      match a with
      | ⟨0, _⟩ => rfl
      | ⟨1, _⟩ =>
        show j.val = if K = 1 then 0 else j.val
        split
        · have := j.isLt; omega
        · rfl)

/-- A vector broadcast to one row and then down M rows, read at (n, j), is its entry j. -/
theorem vec_down_apply {M K : Nat} (hb1 : (⟨1, ![K]⟩ : Shape).BroadcastsInDim ⟨2, ![1, K]⟩ ![1])
    (hb2 : (⟨2, ![1, K]⟩ : Shape).BroadcastsInDim ⟨2, ![M, K]⟩ ![0, 1]) (b : (⟨1, ![K]⟩ : Shape).Idx → α)
    (n : Fin M) (j : Fin K) :
    broadcastInDim (⟨2, ![M, K]⟩ : Shape) ![0, 1] hb2 (broadcastInDim (⟨2, ![1, K]⟩ : Shape) ![1] hb1 b) (ix2 n j)
      = b (ix1 j) := by
  rw [row_down_apply, vec_to_row_apply]

/-- A scalar broadcast to any shape reads the scalar at every index. -/
theorem scalar_apply {t : Shape} (h : (⟨0, ![]⟩ : Shape).BroadcastsInDim t ![]) (x : (⟨0, ![]⟩ : Shape).Idx → α) (i : t.Idx) :
    broadcastInDim t ![] h x i = x ix0 :=
  broadcastInDim_apply ![] h x i ix0 (fun a => a.elim0)

end Cert.LibRowBroadcast

end
-- ==== Proof.Ref.Layer1.lean ====
/-
  The reference's hidden layer, entry by entry.

  Every edge word is assumed to be a node number (read signed, it lies in [0, 8192)). Then raising the negative words
  changes nothing, the row gathered for an edge is the row of its source node, and the row scatter adds an edge's
  scaled row into the row of its target node: nothing is clamped and nothing is dropped. So the aggregation of a
  matrix `h`, read at node `i` and column `f`, is the sum over the edges arriving at `i` of the edge's weight times
  `h` at the edge's source and column `f`, accumulated from zero; and the hidden layer is the greater of that sum for
  `h = x · W1`, plus `b1 f`, and zero.
-/
import proofs.«155600_j21663815041514_2_alg».proof.Proof.Ref.Stages
import proofs.«155600_j21663815041514_2_alg».proof.Proof.Spec
import proofs.«155600_j21663815041514_2_alg».proof.Proof.Edges
import proofs.«155600_j21663815041514_2_alg».proof.Proof.LibRowScatter
import proofs.«155600_j21663815041514_2_alg».proof.Proof.LibRowGather
import proofs.«155600_j21663815041514_2_alg».proof.Proof.LibHostDot
import proofs.«155600_j21663815041514_2_alg».proof.Proof.LibRowBroadcast
import Idealize.ShloMosaic.Lib.IdealHost

noncomputable section

namespace Cert.Ref

open Cert.ReferenceIdeal Cert.ReferenceIdeal.Gen Idealize.ShloMosaic Idealize.ShloMosaic.ValueIdx Idealize.ShloMosaic.StableHlo

/-- The node an edge arrives at: the node of its target word. -/
def col (a0 : IArr Ideal S2x262144) (e : Fin 270336) : Fin 8192 :=
  Cert.LibRowGather.rowOf 8192 (by decide) (colW (F := Ideal) a0 (ix1 e))

/-- The node an edge leaves: the node of its source word. -/
def row (a0 : IArr Ideal S2x262144) (e : Fin 270336) : Fin 8192 :=
  Cert.LibRowGather.rowOf 8192 (by decide) (rowW (F := Ideal) a0 (ix1 e))

/-- The weight of an edge. -/
def wgt (a0 : IArr Ideal S2x262144) (e : Fin 270336) : EReal := nrm (F := Ideal) a0 (ix1 e)

/-- Every word of a vector of edge words, read signed, is a node number. -/
def Nodes (v : IArr Ideal S270336) : Prop := ∀ j : S270336.Idx, 0 ≤ (v j).toInt ∧ (v j).toInt < 8192

/-- Raising the negative words of a vector of node numbers changes nothing. -/
theorem wrap_nodes (v : IArr Ideal S270336) (hv : Nodes v) : wrap (F := Ideal) v = v :=
  Cert.Edges.wrap_id bcast_S_S270336 bcast_S_S270336 8192#32 v (fun j => (hv j).1)

/-- A vector of words as a column, read at row `e`, is the vector's word `e`. -/
theorem asCol_apply (v : IArr Ideal S270336) (e : Fin 270336) :
    asCol (F := Ideal) v (ix2 e (0 : Fin 1)) = v (ix1 e) := by
  unfold asCol
  exact broadcastInDim_apply _ bcast_S270336_S270336x1_0 v (ix2 e (0 : Fin 1)) (ix1 e) (fun a => match a with
    | ⟨0, _⟩ => by show e.val = if (270336 : Nat) = 1 then 0 else e.val; rw [if_neg (by decide)])

/-- The column of a vector of node numbers holds, in row `e`, the number of the node of word `e`. -/
theorem asCol_node (v : IArr Ideal S270336) (hv : Nodes v) (e : Fin 270336) :
    (asCol (F := Ideal) v (ix2 e (0 : Fin 1))).toInt
      = ((Cert.LibRowGather.rowOf 8192 (by decide) (v (ix1 e))).val : Int) := by
  rw [asCol_apply]
  have h := hv (ix1 e)
  have hn := Cert.Edges.node_eq (v (ix1 e)) h.1 h.2
  rw [hn.1]
  omega

/-- A vector spread down a column and then across 512 columns, read at `(e, f)`, is its entry `e`. -/
theorem spread512_apply (n : FArr Ideal S270336) (e : Fin 270336) (f : Fin 512) :
    broadcastInDim S270336x512 ![0, 1] bcast_S270336x1_S270336x512_0_1
      (broadcastInDim S270336x1 ![0] bcast_S270336_S270336x1_0 n) (ix2 e f) = n (ix1 e) :=
  (broadcastInDim_apply _ bcast_S270336x1_S270336x512_0_1 _ (ix2 e f) (ix2 e (0 : Fin 1)) (fun a => match a with
    | ⟨0, _⟩ => by show e.val = if (270336 : Nat) = 1 then 0 else e.val; rw [if_neg (by decide)]
    | ⟨1, _⟩ => by show 0 = if (1 : Nat) = 1 then 0 else f.val; rw [if_pos rfl])).trans
  (broadcastInDim_apply _ bcast_S270336_S270336x1_0 n (ix2 e (0 : Fin 1)) (ix1 e) (fun a => match a with
    | ⟨0, _⟩ => by show e.val = if (270336 : Nat) = 1 then 0 else e.val; rw [if_neg (by decide)]))

/-- A vector spread down a column and then across 128 columns, read at `(e, g)`, is its entry `e`. -/
theorem spread128_apply (n : FArr Ideal S270336) (e : Fin 270336) (g : Fin 128) :
    broadcastInDim S270336x128 ![0, 1] bcast_S270336x1_S270336x128_0_1
      (broadcastInDim S270336x1 ![0] bcast_S270336_S270336x1_0 n) (ix2 e g) = n (ix1 e) :=
  (broadcastInDim_apply _ bcast_S270336x1_S270336x128_0_1 _ (ix2 e g) (ix2 e (0 : Fin 1)) (fun a => match a with
    | ⟨0, _⟩ => by show e.val = if (270336 : Nat) = 1 then 0 else e.val; rw [if_neg (by decide)]
    | ⟨1, _⟩ => by show 0 = if (1 : Nat) = 1 then 0 else g.val; rw [if_pos rfl])).trans
  (broadcastInDim_apply _ bcast_S270336_S270336x1_0 n (ix2 e (0 : Fin 1)) (ix1 e) (fun a => match a with
    | ⟨0, _⟩ => by show e.val = if (270336 : Nat) = 1 then 0 else e.val; rw [if_neg (by decide)]))

/-- The zero word spread over any shape is zero everywhere. -/
theorem zeros_apply {t : Shape} (h : S_.BroadcastsInDim t ![]) (j : t.Idx) :
    broadcastInDim t ![] h (constant (F := Ideal) S_ .f32 0x00000000#32) j = 0 :=
  (Cert.LibRowBroadcast.scalar_apply h _ j).trans Ideal.ofBits_zero_f32

/-- The gather of rows of a matrix of 512 columns, read at `(e, f)`: the matrix at the node of index `e`, column `f`. -/
theorem gather512_apply (h : FArr Ideal S8192x512) (idx : IArr Ideal S270336x1) (e : Fin 270336) (f : Fin 512) :
    Host.gather gather_S8192x512_S270336x1_S270336x512_1_0_n_n_0_1_1512 h idx (ix2 e f)
      = h (ix2 (Cert.LibRowGather.rowOf 8192 (by decide) (idx (ix2 e (0 : Fin 1)))) f) :=
  Cert.LibRowGather.gather_rows_apply (by decide) gather_S8192x512_S270336x1_S270336x512_1_0_n_n_0_1_1512_wf h idx e f

/-- The gather of rows of a matrix of 128 columns, read at `(e, g)`. -/
theorem gather128_apply (h : FArr Ideal S8192x128) (idx : IArr Ideal S270336x1) (e : Fin 270336) (g : Fin 128) :
    Host.gather gather_S8192x128_S270336x1_S270336x128_1_0_n_n_0_1_1128 h idx (ix2 e g)
      = h (ix2 (Cert.LibRowGather.rowOf 8192 (by decide) (idx (ix2 e (0 : Fin 1)))) g) :=
  Cert.LibRowGather.gather_rows_apply (by decide) gather_S8192x128_S270336x1_S270336x128_1_0_n_n_0_1_1128_wf h idx e g

/-- THE AGGREGATION OF A MATRIX OF 512 COLUMNS, read at node `i` and column `f`: the sum, accumulated from zero over
    the edges arriving at `i`, of the edge's weight times the matrix at the edge's source. -/
theorem agg512_apply (a0 : IArr Ideal S2x262144) (hR : Nodes (rowW (F := Ideal) a0)) (hC : Nodes (colW (F := Ideal) a0))
    (h : FArr Ideal S8192x512) (H : Fin 8192 → Fin 512 → EReal) (hH : ∀ j f, h (ix2 j f) = H j f)
    (i : Fin 8192) (f : Fin 512) :
    agg512 (F := Ideal) a0 h (ix2 i f) = Cert.Spec.aggEdges (col a0) (row a0) (wgt a0) H i f := by
  unfold agg512 Cert.Spec.aggEdges
  rw [wrap_nodes _ hR]
  show Ideal.hostScatterAdd scatter_S8192x512_S270336x1_S270336x512_1_0_0_1 _ _ _ (ix2 i f) = _
  rw [RowScatter.scatterAdd_rows scatter_S8192x512_S270336x1_S270336x512_1_0_0_1 rfl rfl rfl rfl (col a0) _
    (fun e => asCol_node _ hC e) _ _ i f, zeros_apply]
  refine congrArg (0 + ·) (Finset.sum_congr rfl fun e _ => ?_)
  rw [mulf_apply, spread512_apply, gather512_apply, asCol_apply, hH]
  rfl

/-- THE AGGREGATION OF A MATRIX OF 128 COLUMNS, read at node `i` and column `g`. -/
theorem agg128_apply (a0 : IArr Ideal S2x262144) (hR : Nodes (rowW (F := Ideal) a0)) (hC : Nodes (colW (F := Ideal) a0))
    (h : FArr Ideal S8192x128) (H : Fin 8192 → Fin 128 → EReal) (hH : ∀ j g, h (ix2 j g) = H j g)
    (i : Fin 8192) (g : Fin 128) :
    agg128 (F := Ideal) a0 h (ix2 i g) = Cert.Spec.aggEdges (col a0) (row a0) (wgt a0) H i g := by
  unfold agg128 Cert.Spec.aggEdges
  rw [wrap_nodes _ hR]
  show Ideal.hostScatterAdd scatter_S8192x128_S270336x1_S270336x128_1_0_0_1 _ _ _ (ix2 i g) = _
  rw [RowScatter.scatterAdd_rows scatter_S8192x128_S270336x1_S270336x128_1_0_0_1 rfl rfl rfl rfl (col a0) _
    (fun e => asCol_node _ hC e) _ _ i g, zeros_apply]
  refine congrArg (0 + ·) (Finset.sum_congr rfl fun e _ => ?_)
  rw [mulf_apply, spread128_apply, gather128_apply, asCol_apply, hH]
  rfl

/-- `x · W1` read at `(j, f)`: the sum over `k` of `x (j, k) * W1 (k, f)`. -/
theorem dot_x_W1 (a1 : FArr Ideal S8192x512) (a2 : FArr Ideal S512x512) (j : Fin 8192) (f : Fin 512) :
    Host.dotGeneral (F := Ideal) (φ₁ := .f32) (φ₂ := .f32) dot_S8192x512_S512x512_S8192x512_1_0_0_1_n_n none a1 a2 (ix2 j f)
      = ∑ k : Fin 512, a1 (ix2 j k) * a2 (ix2 k f) :=
  Cert.LibHostDot.hostDot_nn_apply dot_S8192x512_S512x512_S8192x512_1_0_0_1_n_n_wf none a1 a2 j f

/-- A matrix of 512 columns times a 512 × 128 matrix, read at `(j, g)`. -/
theorem dot_h_W (h : FArr Ideal S8192x512) (W : FArr Ideal S512x128) (j : Fin 8192) (g : Fin 128) :
    Host.dotGeneral (F := Ideal) (φ₁ := .f32) (φ₂ := .f32) dot_S8192x512_S512x128_S8192x128_1_0_0_1_n_n none h W (ix2 j g)
      = ∑ k : Fin 512, h (ix2 j k) * W (ix2 k g) :=
  Cert.LibHostDot.hostDot_nn_apply dot_S8192x512_S512x128_S8192x128_1_0_0_1_n_n_wf none h W j g

/-- A matrix of 128 columns times a 128 × 8192 matrix, read at `(i, j)`. -/
theorem dot_z_y (z : FArr Ideal S8192x128) (y : FArr Ideal S128x8192) (i j : Fin 8192) :
    Host.dotGeneral (F := Ideal) (φ₁ := .f32) (φ₂ := .f32) dot_S8192x128_S128x8192_S8192x8192_1_0_0_1_n_n none z y (ix2 i j)
      = ∑ k : Fin 128, z (ix2 i k) * y (ix2 k j) :=
  Cert.LibHostDot.hostDot_nn_apply dot_S8192x128_S128x8192_S8192x8192_1_0_0_1_n_n_wf none z y i j

/-- THE HIDDEN LAYER, read at node `i` and column `f`, is the specification's edge-by-edge hidden layer. -/
theorem hid_apply (a0 : IArr Ideal S2x262144) (a1 : FArr Ideal S8192x512) (a2 : FArr Ideal S512x512) (a3 : FArr Ideal S512)
    (hR : Nodes (rowW (F := Ideal) a0)) (hC : Nodes (colW (F := Ideal) a0)) (i : Fin 8192) (f : Fin 512) :
    hid (F := Ideal) a0 a1 a2 a3 (ix2 i f)
      = Cert.Spec.hidR (col a0) (row a0) (wgt a0) (fun i k => a1 (ix2 i k)) (fun k f => a2 (ix2 k f))
          (fun f => a3 (ix1 f)) i f := by
  unfold hid Cert.Spec.hidR
  rw [maximumf_apply, addf_apply,
    agg512_apply a0 hR hC _
      (Cert.Spec.mm (fun i k => a1 (ix2 i k)) (fun k f => a2 (ix2 k f))) (fun j f => dot_x_W1 a1 a2 j f) i f,
    zeros_apply, Cert.LibRowBroadcast.vec_down_apply bcast_S512_S1x512_1 bcast_S1x512_S8192x512_0_1 a3 i f]

end Cert.Ref

end
-- ==== Proof.Ref.Value.lean ====
/-
  The reference's mean, log-variance and decoded adjacency, entry by entry.

  A latent layer is the aggregation of `hidden · W` plus a bias row: read at node `i` and column `g` it is the sum,
  accumulated from zero over the edges arriving at `i`, of the edge's weight times `(hidden · W)` at the edge's source,
  plus `b g`. The mean and the log-variance are the two latent layers. The decoded adjacency at `(i, j)` is
  `1 / (1 + exp (−s))` for `s` the inner product of rows `i` and `j` of the mean, which is the logistic function of `s`.
-/
import proofs.«155600_j21663815041514_2_alg».proof.Proof.Ref.Layer1

noncomputable section

namespace Cert.Ref

open Cert.ReferenceIdeal Cert.ReferenceIdeal.Gen Idealize.ShloMosaic Idealize.ShloMosaic.ValueIdx Idealize.ShloMosaic.StableHlo

/-- The word for one spread over any shape is one everywhere. -/
theorem ones_apply {t : Shape} (h : S_.BroadcastsInDim t ![]) (j : t.Idx) :
    broadcastInDim t ![] h (constant (F := Ideal) S_ .f32 0x3F800000#32) j = 1 :=
  (Cert.LibRowBroadcast.scalar_apply h _ j).trans Ideal.ofBits_one_f32

/-- The host's division read at an index, on the extended reals. -/
theorem hostDivf_apply {s : Shape} {φ : FTy} (a b : FVec Ideal s φ) (i : s.Idx) :
    Host.divf a b i = Ideal.div (a i) (b i) := rfl

/-- The host's exponential read at an index. -/
theorem hostExp_apply {s : Shape} {φ : FTy} (a : FVec Ideal s φ) (i : s.Idx) : Host.exp a i = Ideal.exp (a i) := rfl

/-- The host's negation read at an index. -/
theorem hostNegf_apply {s : Shape} {φ : FTy} (a : FVec Ideal s φ) (i : s.Idx) : Host.negf a i = -(a i) := rfl

section
variable (a0 : IArr Ideal S2x262144) (a1 : FArr Ideal S8192x512) (a2 : FArr Ideal S512x512) (a3 : FArr Ideal S512)
  (hR : Nodes (rowW (F := Ideal) a0)) (hC : Nodes (colW (F := Ideal) a0))
include hR hC

/-- A LATENT LAYER, read at node `i` and column `g`, is the specification's edge-by-edge latent layer. -/
theorem lat_apply (W : FArr Ideal S512x128) (b : FArr Ideal S128) (i : Fin 8192) (g : Fin 128) :
    lat (F := Ideal) a0 a1 a2 a3 W b (ix2 i g)
      = Cert.Spec.muR (col a0) (row a0) (wgt a0) (fun i k => a1 (ix2 i k)) (fun k f => a2 (ix2 k f)) (fun f => a3 (ix1 f))
          (fun k g => W (ix2 k g)) (fun g => b (ix1 g)) i g := by
  unfold lat Cert.Spec.muR
  rw [addf_apply,
    agg128_apply a0 hR hC _
      (Cert.Spec.mm (Cert.Spec.hidR (col a0) (row a0) (wgt a0) (fun i k => a1 (ix2 i k)) (fun k f => a2 (ix2 k f)) (fun f => a3 (ix1 f))) (fun k g => W (ix2 k g)))
      (fun j g => (dot_h_W (hid (F := Ideal) a0 a1 a2 a3) W j g).trans
        (Finset.sum_congr rfl fun k _ => by rw [hid_apply a0 a1 a2 a3 hR hC j k])) i g,
    Cert.LibRowBroadcast.vec_down_apply bcast_S128_S1x128_1 bcast_S1x128_S8192x128_0_1 b i g]

/-- THE MEAN. -/
theorem mu_apply (a4 : FArr Ideal S512x128) (a5 : FArr Ideal S128) (i : Fin 8192) (g : Fin 128) :
    lat (F := Ideal) a0 a1 a2 a3 a4 a5 (ix2 i g)
      = Cert.Spec.muR (col a0) (row a0) (wgt a0) (fun i k => a1 (ix2 i k)) (fun k f => a2 (ix2 k f)) (fun f => a3 (ix1 f))
          (fun k g => a4 (ix2 k g)) (fun g => a5 (ix1 g)) i g :=
  lat_apply a0 a1 a2 a3 hR hC a4 a5 i g

/-- THE LOG-VARIANCE: the same layer with the other weights and bias. -/
theorem lv_apply (a6 : FArr Ideal S512x128) (a7 : FArr Ideal S128) (i : Fin 8192) (g : Fin 128) :
    lat (F := Ideal) a0 a1 a2 a3 a6 a7 (ix2 i g)
      = Cert.Spec.lvR (col a0) (row a0) (wgt a0) (fun i k => a1 (ix2 i k)) (fun k f => a2 (ix2 k f)) (fun f => a3 (ix1 f))
          (fun k g => a6 (ix2 k g)) (fun g => a7 (ix1 g)) i g :=
  lat_apply a0 a1 a2 a3 hR hC a6 a7 i g

/-- THE DECODED ADJACENCY, read at `(i, j)`: the logistic function of the inner product of the mean's rows `i`, `j`. -/
theorem pred_apply (a4 : FArr Ideal S512x128) (a5 : FArr Ideal S128) (i j : Fin 8192) :
    pred (F := Ideal) a0 a1 a2 a3 a4 a5 (ix2 i j)
      = Cert.Spec.predR (col a0) (row a0) (wgt a0) (fun i k => a1 (ix2 i k)) (fun k f => a2 (ix2 k f)) (fun f => a3 (ix1 f))
          (fun k g => a4 (ix2 k g)) (fun g => a5 (ix1 g)) i j := by
  unfold pred Cert.Spec.predR Ideal.logistic
  rw [hostDivf_apply, addf_apply, hostExp_apply, hostNegf_apply, ones_apply, dot_z_y]
  refine congrArg (fun s => Ideal.div 1 (1 + Ideal.exp (-s))) (Finset.sum_congr rfl fun k _ => ?_)
  rw [transpose_apply [1, 0] _ transposes_S8192x128_S128x8192_1_0 (ix2 k j) (ix2 j k)
      (fun b => match b with | ⟨0, _⟩ => rfl | ⟨1, _⟩ => rfl),
    lat_apply a0 a1 a2 a3 hR hC a4 a5 i k, lat_apply a0 a1 a2 a3 hR hC a4 a5 j k]

end

end Cert.Ref

end
-- ==== Proof.LibDenseAdjacency.lean ====
/-
  A message-passing sum against its dense adjacency matrix, on the extended reals.

  Messages `e` of a finite type carry a weight `w e ≥ 0`, a source `src e` and a target `dst e`. The dense adjacency
  has at (r, c) the sum of the weights of the messages from c to r. Contracting row r of that matrix against any
  column vector `y` gives the sum, over the messages into r, of the weight times `y` at the message's source:

    Σ_c (Σ_{e : dst e = r, src e = c} w e) * y c = Σ_{e : dst e = r} w e * y (src e).

  The weights being non-negative, the factor `y c` moves inside the inner sum whatever it is (an infinity too); the
  double sum is then the sum over the messages regrouped by their source. Columns no message comes from hold an empty
  sum, and `0 * y c = 0`. Also the same with the adjacency entry started from zero (`0 + Σ …`), as an accumulating
  scatter into a zero matrix spells it, and the contraction cut into consecutive blocks of columns.
-/
import Mathlib.Data.EReal.Operations
import Mathlib.Algebra.BigOperators.Group.Finset.Basic
import Mathlib.Algebra.BigOperators.Group.Finset.Sigma
import Mathlib.Algebra.Order.BigOperators.Group.Finset
import Mathlib.Algebra.BigOperators.Fin

namespace DenseAdjacency

open scoped BigOperators

/-- A factor moves inside a finite sum of non-negative extended reals. -/
theorem sum_mul_of_nonneg {ι : Type} (s : Finset ι) (a : ι → EReal) (y : EReal) (ha : ∀ i ∈ s, 0 ≤ a i) :
    (∑ i ∈ s, a i) * y = ∑ i ∈ s, a i * y := by
  classical
  induction s using Finset.induction_on with
  | empty => simp
  | insert i s hi ih =>
    have hi0 : 0 ≤ a i := ha i (Finset.mem_insert_self i s)
    have hs0 : ∀ j ∈ s, 0 ≤ a j := fun j hj => ha j (Finset.mem_insert_of_mem hj)
    rw [Finset.sum_insert hi, Finset.sum_insert hi, EReal.right_distrib_of_nonneg hi0 (Finset.sum_nonneg hs0), ih hs0]

variable {E N M : Type} [Fintype E] [Fintype M] [DecidableEq N] [DecidableEq M]

/-- Row `r` of the dense adjacency against a column vector is the sum over the messages into `r`. -/
theorem row_contract (w : E → EReal) (hw : ∀ e, 0 ≤ w e) (src : E → M) (dst : E → N) (r : N) (y : M → EReal) :
    ∑ c : M, (∑ e ∈ Finset.univ.filter (fun e => dst e = r ∧ src e = c), w e) * y c
      = ∑ e ∈ Finset.univ.filter (fun e => dst e = r), w e * y (src e) := by
  classical
  have h1 : ∀ c : M, (∑ e ∈ Finset.univ.filter (fun e => dst e = r ∧ src e = c), w e) * y c
      = ∑ e ∈ (Finset.univ.filter (fun e => dst e = r)).filter (fun e => src e = c), w e * y (src e) := by
    intro c
    rw [sum_mul_of_nonneg _ _ _ (fun e _ => hw e), Finset.filter_filter]
    refine Finset.sum_congr rfl fun e he => ?_
    rw [(Finset.mem_filter.mp he).2.2]
  rw [Finset.sum_congr rfl (fun c _ => h1 c)]
  exact Finset.sum_fiberwise _ src (fun e => w e * y (src e))

/-- The same with each adjacency entry started from zero. -/
theorem row_contract_zero_add (w : E → EReal) (hw : ∀ e, 0 ≤ w e) (src : E → M) (dst : E → N) (r : N) (y : M → EReal) :
    ∑ c : M, (0 + ∑ e ∈ Finset.univ.filter (fun e => dst e = r ∧ src e = c), w e) * y c
      = ∑ e ∈ Finset.univ.filter (fun e => dst e = r), w e * y (src e) := by
  rw [← row_contract w hw src dst r y]
  exact Finset.sum_congr rfl fun c _ => by rw [zero_add]

/-- A contraction over `a * b` columns accumulated block by block from zero (`a` consecutive blocks of `b`, each added
    to what the blocks before left) is the contraction over all the columns at once. -/
theorem blocks_from_zero (a b : ℕ) (t : ℕ → EReal) :
    (Finset.range a).sum (fun i => (Finset.range b).sum fun j => t (i * b + j)) = (Finset.range (a * b)).sum t := by
  induction a with
  | zero => simp
  | succ a ih =>
    rw [Finset.sum_range_succ, ih, Nat.succ_mul, Finset.sum_range_add]

end DenseAdjacency
-- ==== Proof.SpecLaw.lean ====
/-
  The law joining the two sides of the claim.

  For non-negative edge weights, aggregating through the dense adjacency matrix is aggregating edge by edge: row i
  of the dense matrix against a column of H is the sum, over the edges arriving at i, of the weight times H at the
  edge's source (the factor moves inside a sum of non-negative extended reals whatever it is, so nothing has to be
  finite). The hidden layers then agree entry by entry. Mean and log-variance computed side by side as one matrix of
  doubled width and cut in two are the mean and the log-variance computed apart: a column below 128 of the side by
  side matrix is a column of the first matrix, a column 128 + g is column g of the second, and the same for the two
  bias vectors laid end to end; only congruence inside the sums is used.
-/
import proofs.«155600_j21663815041514_2_alg».proof.Proof.Spec
import proofs.«155600_j21663815041514_2_alg».proof.Proof.LibDenseAdjacency

noncomputable section

namespace Cert.Spec

open Idealize.ShloMosaic

/-- Through the dense matrix or edge by edge: the same aggregation, for non-negative weights. -/
theorem aggDense_eq_aggEdges (col row : Fin NE → Fin 8192) (n : Fin NE → EReal) (hn : ∀ e, 0 ≤ n e) {w : ℕ}
    (H : Fin 8192 → Fin w → EReal) (i : Fin 8192) (f : Fin w) :
    aggDense col row n H i f = aggEdges col row n H i f := by
  unfold aggDense aggEdges adj
  rw [zero_add]
  exact DenseAdjacency.row_contract_zero_add n hn row col i (fun j => H j f)

/-- A matrix product depends on its factors entry by entry. -/
theorem mm_congr {a b c c' : ℕ} {X X' : Fin a → Fin b → EReal} {Y : Fin b → Fin c → EReal} {Y' : Fin b → Fin c' → EReal}
    (i : Fin a) (f : Fin c) (f' : Fin c')
    (hX : ∀ k, X i k = X' i k) (hY : ∀ k, Y k f = Y' k f') : mm X Y i f = mm X' Y' i f' := by
  unfold mm
  exact Finset.sum_congr rfl fun k _ => by rw [hX k, hY k]

/-- An edge by edge aggregation depends on the aggregated matrix entry by entry. -/
theorem aggEdges_congr (col row : Fin NE → Fin 8192) (n : Fin NE → EReal) {w w' : ℕ}
    {H : Fin 8192 → Fin w → EReal} {H' : Fin 8192 → Fin w' → EReal} (i : Fin 8192) (f : Fin w) (f' : Fin w')
    (hH : ∀ j, H j f = H' j f') : aggEdges col row n H i f = aggEdges col row n H' i f' := by
  unfold aggEdges
  exact congrArg (fun s => (0 : EReal) + s) (Finset.sum_congr rfl fun e _ => by rw [hH (row e)])

/-- A column below 128 of two matrices side by side is a column of the first. -/
theorem sideBySide_left (P Q : Fin 512 → Fin 128 → EReal) (f : Fin 512) (g : Fin 128) :
    sideBySide P Q f ⟨g.val, by omega⟩ = P f g := by
  unfold sideBySide
  rw [dif_pos (show (⟨g.val, by omega⟩ : Fin 256).val < 128 from g.isLt)]

/-- Column 128 + g of two matrices side by side is column g of the second. -/
theorem sideBySide_right (P Q : Fin 512 → Fin 128 → EReal) (f : Fin 512) (g : Fin 128) :
    sideBySide P Q f ⟨128 + g.val, by omega⟩ = Q f g := by
  unfold sideBySide
  rw [dif_neg (show ¬ (⟨128 + g.val, by omega⟩ : Fin 256).val < 128 from by simp)]
  exact congrArg (Q f) (Fin.ext (by simp))

/-- An entry below 128 of two vectors end to end is an entry of the first. -/
theorem endToEnd_left (p q : Fin 128 → EReal) (g : Fin 128) : endToEnd p q ⟨g.val, by omega⟩ = p g := by
  unfold endToEnd
  rw [dif_pos (show (⟨g.val, by omega⟩ : Fin 256).val < 128 from g.isLt)]

/-- Entry 128 + g of two vectors end to end is entry g of the second. -/
theorem endToEnd_right (p q : Fin 128 → EReal) (g : Fin 128) : endToEnd p q ⟨128 + g.val, by omega⟩ = q g := by
  unfold endToEnd
  rw [dif_neg (show ¬ (⟨128 + g.val, by omega⟩ : Fin 256).val < 128 from by simp)]
  exact congrArg q (Fin.ext (by simp))

section
variable (col row : Fin NE → Fin 8192) (n : Fin NE → EReal) (hn : ∀ e, 0 ≤ n e)
  (x : Fin 8192 → Fin 512 → EReal) (W1 : Fin 512 → Fin 512 → EReal) (b1 : Fin 512 → EReal)
  (Wmu : Fin 512 → Fin 128 → EReal) (bmu : Fin 128 → EReal) (Wlv : Fin 512 → Fin 128 → EReal) (blv : Fin 128 → EReal)
include hn

/-- The hidden layers agree. -/
theorem hidK_eq_hidR (i : Fin 8192) (f : Fin 512) : hidK col row n x W1 b1 i f = hidR col row n x W1 b1 i f := by
  unfold hidK hidR
  rw [aggDense_eq_aggEdges col row n hn]

/-- The left half of the doubled-width matrix is the mean. -/
theorem muK_eq_muR (i : Fin 8192) (g : Fin 128) :
    muK col row n x W1 b1 Wmu bmu Wlv blv i g = muR col row n x W1 b1 Wmu bmu i g := by
  unfold muK catK muR
  rw [aggDense_eq_aggEdges col row n hn, endToEnd_left]
  refine congrArg (fun s => s + bmu g) ?_
  refine aggEdges_congr col row n i _ g fun j => ?_
  exact mm_congr j _ g (fun k => hidK_eq_hidR col row n hn x W1 b1 j k) (fun k => sideBySide_left Wmu Wlv k g)

/-- The right half of the doubled-width matrix is the log-variance. -/
theorem lvK_eq_lvR (i : Fin 8192) (g : Fin 128) :
    lvK col row n x W1 b1 Wmu bmu Wlv blv i g = lvR col row n x W1 b1 Wlv blv i g := by
  unfold lvK catK lvR
  rw [aggDense_eq_aggEdges col row n hn, endToEnd_right]
  refine congrArg (fun s => s + blv g) ?_
  refine aggEdges_congr col row n i _ g fun j => ?_
  exact mm_congr j _ g (fun k => hidK_eq_hidR col row n hn x W1 b1 j k) (fun k => sideBySide_right Wmu Wlv k g)

/-- The decoded adjacencies agree. -/
theorem predK_eq_predR (i j : Fin 8192) :
    predK col row n x W1 b1 Wmu bmu Wlv blv i j = predR col row n x W1 b1 Wmu bmu i j := by
  unfold predK predR
  refine congrArg Ideal.logistic (Finset.sum_congr rfl fun k _ => ?_)
  rw [muK_eq_muR col row n hn x W1 b1 Wmu bmu Wlv blv i k, muK_eq_muR col row n hn x W1 b1 Wmu bmu Wlv blv j k]

end

end Cert.Spec

end
-- ==== Proof.Equal.lean ====
/-
  The two programs end with the same mean, log-variance and decoded adjacency.

  From launch memories that agree on the eight argument arrays, and an edge array whose every entry is a node number:
  the reference's three results are the specification's edge by edge mean, log-variance and decoded adjacency of the
  arguments, for the target node, the source node and the weight of every edge as the reference forms them; the
  kernel program's three results are the specification's mean, log-variance and decoded adjacency through the dense
  adjacency matrix, for the edges as the kernel program forms them. The two programs form the edges by the same
  operations, so these are the same three functions of the edge array; no weight is negative, so aggregating through
  the dense matrix is aggregating edge by edge; and the two sides read the other arguments entry by entry alike.
-/
import proofs.«155600_j21663815041514_2_alg».proof.Proof.KI.Value
import proofs.«155600_j21663815041514_2_alg».proof.Proof.KI.HostValue
import proofs.«155600_j21663815041514_2_alg».proof.Proof.Ref.Bridge
import proofs.«155600_j21663815041514_2_alg».proof.Proof.Ref.Range
import proofs.«155600_j21663815041514_2_alg».proof.Proof.Ref.Value
import proofs.«155600_j21663815041514_2_alg».proof.Proof.SpecLaw

set_option maxRecDepth 16384

noncomputable section

namespace Cert.Equal

open Idealize.ShloMosaic Idealize.ShloMosaic.TcCoe Idealize.ShloMosaic.ValueIdx Idealize.SL.Sem
open Cert.KernelIdeal.Hand

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The mean. -/
theorem mu_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hr : ∀ i, 0 ≤ ((m ((c.tc : Thread Cert.KernelIdeal.nD Cert.KernelIdeal.τ).loc Cert.KernelIdeal.main_arg0) : Cert.KernelIdeal.S2x262144.Idx → BitVec 32) i).toInt
      ∧ ((m ((c.tc : Thread Cert.KernelIdeal.nD Cert.KernelIdeal.τ).loc Cert.KernelIdeal.main_arg0) : Cert.KernelIdeal.S2x262144.Idx → BitVec 32) i).toInt < 8192) :
    Cert.ReferenceIdeal.ValueP.res_main_v91 m' c = W12 m ρ c (Proc.devRef .tc Cert.KernelIdeal.main_v55) := by
  obtain ⟨h0, h1, h2, h3, h4, h5, h6, h7⟩ := hag
  rw [Cert.Ref.res_mu_eq m' c, h0, h1, h2, h3, h4, h5]
  funext y
  obtain ⟨i, g, rfl⟩ : ∃ (i : Fin 8192) (g : Fin 128), y = ix2 i g := ⟨y 0, y 1, eq_ix2 y⟩
  have hadj : ∀ i j : Fin 8192, (W3 m ρ c (Proc.devRef .tc Cert.KernelIdeal.main_v46) : Cert.KernelIdeal.S8192x8192.Idx → EReal) (ix2 i j) = Cert.Spec.adj (colK (m ((c.tc : Thread Cert.KernelIdeal.nD Cert.KernelIdeal.τ).loc Cert.KernelIdeal.main_arg0))) (rowK (m ((c.tc : Thread Cert.KernelIdeal.nD Cert.KernelIdeal.τ).loc Cert.KernelIdeal.main_arg0))) (nK (m ((c.tc : Thread Cert.KernelIdeal.nD Cert.KernelIdeal.τ).loc Cert.KernelIdeal.main_arg0))) i j :=
    fun i j => adjK (W0 m ρ c) hr i j
  rw [Cert.Ref.mu_apply _ _ _ _ (Cert.Ref.rowW_nodes _ hr) (Cert.Ref.colW_nodes _ hr) _ _ i g,
    W12_v55 m ρ c _ _ _ hadj i g, Cert.Spec.muK_eq_muR _ _ _ (nK_nonneg _)]
  rfl

/-- The log-variance. -/
theorem lv_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hr : ∀ i, 0 ≤ ((m ((c.tc : Thread Cert.KernelIdeal.nD Cert.KernelIdeal.τ).loc Cert.KernelIdeal.main_arg0) : Cert.KernelIdeal.S2x262144.Idx → BitVec 32) i).toInt
      ∧ ((m ((c.tc : Thread Cert.KernelIdeal.nD Cert.KernelIdeal.τ).loc Cert.KernelIdeal.main_arg0) : Cert.KernelIdeal.S2x262144.Idx → BitVec 32) i).toInt < 8192) :
    Cert.ReferenceIdeal.ValueP.res_main_v133 m' c = W12 m ρ c (Proc.devRef .tc Cert.KernelIdeal.main_v56) := by
  obtain ⟨h0, h1, h2, h3, h4, h5, h6, h7⟩ := hag
  rw [Cert.Ref.res_lv_eq m' c, h0, h1, h2, h3, h6, h7]
  funext y
  obtain ⟨i, g, rfl⟩ : ∃ (i : Fin 8192) (g : Fin 128), y = ix2 i g := ⟨y 0, y 1, eq_ix2 y⟩
  have hadj : ∀ i j : Fin 8192, (W3 m ρ c (Proc.devRef .tc Cert.KernelIdeal.main_v46) : Cert.KernelIdeal.S8192x8192.Idx → EReal) (ix2 i j) = Cert.Spec.adj (colK (m ((c.tc : Thread Cert.KernelIdeal.nD Cert.KernelIdeal.τ).loc Cert.KernelIdeal.main_arg0))) (rowK (m ((c.tc : Thread Cert.KernelIdeal.nD Cert.KernelIdeal.τ).loc Cert.KernelIdeal.main_arg0))) (nK (m ((c.tc : Thread Cert.KernelIdeal.nD Cert.KernelIdeal.τ).loc Cert.KernelIdeal.main_arg0))) i j :=
    fun i j => adjK (W0 m ρ c) hr i j
  rw [Cert.Ref.lv_apply _ _ _ _ (Cert.Ref.rowW_nodes _ hr) (Cert.Ref.colW_nodes _ hr) _ _ i g,
    W12_v56 m ρ c _ _ _ hadj i g, Cert.Spec.lvK_eq_lvR _ _ _ (nK_nonneg _)]
  rfl

/-- The decoded adjacency. -/
theorem pred_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hr : ∀ i, 0 ≤ ((m ((c.tc : Thread Cert.KernelIdeal.nD Cert.KernelIdeal.τ).loc Cert.KernelIdeal.main_arg0) : Cert.KernelIdeal.S2x262144.Idx → BitVec 32) i).toInt
      ∧ ((m ((c.tc : Thread Cert.KernelIdeal.nD Cert.KernelIdeal.τ).loc Cert.KernelIdeal.main_arg0) : Cert.KernelIdeal.S2x262144.Idx → BitVec 32) i).toInt < 8192) :
    Cert.ReferenceIdeal.ValueP.res_main_v141 m' c = W12 m ρ c (Proc.devRef .tc Cert.KernelIdeal.main_v57) := by
  obtain ⟨h0, h1, h2, h3, h4, h5, h6, h7⟩ := hag
  rw [Cert.Ref.res_pred_eq m' c, h0, h1, h2, h3, h4, h5]
  funext y
  obtain ⟨i, j, rfl⟩ : ∃ (i j : Fin 8192), y = ix2 i j := ⟨y 0, y 1, eq_ix2 y⟩
  have hadj : ∀ i j : Fin 8192, (W3 m ρ c (Proc.devRef .tc Cert.KernelIdeal.main_v46) : Cert.KernelIdeal.S8192x8192.Idx → EReal) (ix2 i j) = Cert.Spec.adj (colK (m ((c.tc : Thread Cert.KernelIdeal.nD Cert.KernelIdeal.τ).loc Cert.KernelIdeal.main_arg0))) (rowK (m ((c.tc : Thread Cert.KernelIdeal.nD Cert.KernelIdeal.τ).loc Cert.KernelIdeal.main_arg0))) (nK (m ((c.tc : Thread Cert.KernelIdeal.nD Cert.KernelIdeal.τ).loc Cert.KernelIdeal.main_arg0))) i j :=
    fun i j => adjK (W0 m ρ c) hr i j
  rw [Cert.Ref.pred_apply _ _ _ _ (Cert.Ref.rowW_nodes _ hr) (Cert.Ref.colW_nodes _ hr) _ _ i j,
    W12_v57 m ρ c _ _ _ hadj i j, Cert.Spec.predK_eq_predR _ _ _ (nK_nonneg _)]
  rfl

end Cert.Equal

end
-- ==== Proof.Assemble.lean ====
/-
  Equal results. Under the precondition every edge index is a node index. The kernel program ends with its result
  buffers at the last contents of the run of its twelve items; the reference ends with its result buffers at its operations'
  composed terms; and those terms are those contents: the mean, the log-variance and the decoded adjacency of the same
  arguments, computed through the dense adjacency matrix on one side and edge by edge on the other.
-/
import proofs.«155600_j21663815041514_2_alg».proof.Defs
import proofs.«155600_j21663815041514_2_alg».proof.Proof.Gen.KernelIdeal
import proofs.«155600_j21663815041514_2_alg».proof.Proof.Gen.ReferenceIdeal
import proofs.«155600_j21663815041514_2_alg».proof.Proof.Gen.Pre_finite_inputs
import proofs.«155600_j21663815041514_2_alg».proof.Proof.KI.Run
import proofs.«155600_j21663815041514_2_alg».proof.Proof.Ref.Run
import proofs.«155600_j21663815041514_2_alg».proof.Proof.PreRange
import proofs.«155600_j21663815041514_2_alg».proof.Proof.Equal

noncomputable section

namespace Cert.Assemble

open Idealize.ShloMosaic Idealize.SL.Sem

theorem algebraic : Cert.algebraic_KernelIdeal_ReferenceIdeal := by
  intro m ρ m' ρ' hpre hagree
  have hr : ∀ c : Dev Cert.KernelIdeal.nD, ∀ i, 0 ≤ ((m ((c.tc : Thread Cert.KernelIdeal.nD Cert.KernelIdeal.τ).loc Cert.KernelIdeal.main_arg0)) i).toInt
      ∧ ((m ((c.tc : Thread Cert.KernelIdeal.nD Cert.KernelIdeal.τ).loc Cert.KernelIdeal.main_arg0)) i).toInt < 8192 :=
    fun c => Cert.PreRange.edge_range_nat _ _ _ _ _ _ _ _ (hpre c)
  refine ⟨fun c => Cert.KernelIdeal.Hand.W12 m ρ c (Proc.devRef .tc Cert.KernelIdeal.main_v57), fun c => Cert.KernelIdeal.Hand.W12 m ρ c (Proc.devRef .tc Cert.KernelIdeal.main_v55),
    fun c => Cert.KernelIdeal.Hand.W12 m ρ c (Proc.devRef .tc Cert.KernelIdeal.main_v56), fun c => Cert.KernelIdeal.Hand.W12 m ρ c (Proc.devRef .tc Cert.KernelIdeal.main_v55), ?_, ?_⟩
  · -- the kernel program's run: every unscoped buffer ends at the last contents
    exact (θ_run Cert.KernelIdeal.defs _ _).mono (fun r h c =>
      ⟨h c _ (Cert.KernelIdeal.Hand.mem_uc Cert.KernelIdeal.main_v57 (by decide)), h c _ (Cert.KernelIdeal.Hand.mem_uc Cert.KernelIdeal.main_v55 (by decide)),
        h c _ (Cert.KernelIdeal.Hand.mem_uc Cert.KernelIdeal.main_v56 (by decide)), h c _ (Cert.KernelIdeal.Hand.mem_uc Cert.KernelIdeal.main_v55 (by decide)),
        (h c _ (Cert.KernelIdeal.Hand.mem_uc Cert.KernelIdeal.main_arg0 (by decide))).trans (Cert.KernelIdeal.Hand.W12_main_arg0 m ρ c),
        (h c _ (Cert.KernelIdeal.Hand.mem_uc Cert.KernelIdeal.main_arg1 (by decide))).trans (Cert.KernelIdeal.Hand.W12_main_arg1 m ρ c),
        (h c _ (Cert.KernelIdeal.Hand.mem_uc Cert.KernelIdeal.main_arg2 (by decide))).trans (Cert.KernelIdeal.Hand.W12_main_arg2 m ρ c),
        (h c _ (Cert.KernelIdeal.Hand.mem_uc Cert.KernelIdeal.main_arg3 (by decide))).trans (Cert.KernelIdeal.Hand.W12_main_arg3 m ρ c),
        (h c _ (Cert.KernelIdeal.Hand.mem_uc Cert.KernelIdeal.main_arg4 (by decide))).trans (Cert.KernelIdeal.Hand.W12_main_arg4 m ρ c),
        (h c _ (Cert.KernelIdeal.Hand.mem_uc Cert.KernelIdeal.main_arg5 (by decide))).trans (Cert.KernelIdeal.Hand.W12_main_arg5 m ρ c),
        (h c _ (Cert.KernelIdeal.Hand.mem_uc Cert.KernelIdeal.main_arg6 (by decide))).trans (Cert.KernelIdeal.Hand.W12_main_arg6 m ρ c),
        (h c _ (Cert.KernelIdeal.Hand.mem_uc Cert.KernelIdeal.main_arg7 (by decide))).trans (Cert.KernelIdeal.Hand.W12_main_arg7 m ρ c)⟩)
      (Cert.KernelIdeal.Hand.run_all (F := Ideal) m ρ)
  · -- the reference's run: its result terms are the kernel program's last contents
    exact (θ_run Cert.ReferenceIdeal.defs _ _).mono (fun r h c =>
      ⟨(h c).1.trans (Cert.Equal.pred_eq m ρ m' c (hagree c) (hr c)), (h c).2.1.trans (Cert.Equal.mu_eq m ρ m' c (hagree c) (hr c)),
        (h c).2.2.1.trans (Cert.Equal.lv_eq m ρ m' c (hagree c) (hr c)), (h c).2.2.2.1.trans (Cert.Equal.mu_eq m ρ m' c (hagree c) (hr c)),
        (h c).2.2.2.2⟩)
      (Cert.ReferenceIdeal.ValueP.run (F := Ideal) m' ρ')

end Cert.Assemble

end
-- ==== Proof.lean ====
/-
  The claim: the graph variational auto-encoder's forward pass computed by five tiled matrix kernels among host
  operations (the normalised adjacency built once as a dense matrix and multiplied by the node features twice,
  the mean and log-variance computed side by side, the decoder the logistic function of the mean's Gram matrix) against
  the reference that aggregates edge by edge, three times.

  * Frames. Each program runs to the end on every core, faults nowhere and leaves its eight argument arrays as launched.
    For the two kernel programs this is the run of the whole program item by item (Proof/K/Run.lean, Proof/KI/Run.lean:
    twelve items, five of them kernel regions, each region's grid run point by point; the aggregation kernels carry
    their accumulator from point to point, the decoder reads one array through two windows). For the reference it is
    its operations' run (Proof/Ref/Run.lean).
  * The idealised kernel is the kernel's own text read over the extended reals: nothing was rewritten.
  * Equal results. Every edge index being a node index (the precondition), no index is wrapped, clamped or dropped on
    either side; the edge weights are non-negative (products of two values each an inverse square root or zero), and
    for non-negative weights multiplying by the dense adjacency matrix IS summing over the arriving edges, on the
    extended reals, whatever the features hold (Proof/SpecLaw.lean over Proof/LibDenseAdjacency.lean). The kernel's results
    are the dense form (Proof/KI/Value.lean), the reference's the edge form (Proof/Ref/Value.lean), of the same
    arguments, edges and weights (Proof/Equal.lean). The finiteness of the float inputs is not needed.
-/
import proofs.«155600_j21663815041514_2_alg».proof.Defs
import proofs.«155600_j21663815041514_2_alg».proof.Proof.Gen.Kernel
import proofs.«155600_j21663815041514_2_alg».proof.Proof.Gen.KernelIdeal
import proofs.«155600_j21663815041514_2_alg».proof.Proof.Gen.ReferenceIdeal
import proofs.«155600_j21663815041514_2_alg».proof.Proof.Gen.Pre_finite_inputs
import proofs.«155600_j21663815041514_2_alg».proof.Proof.K.Run
import proofs.«155600_j21663815041514_2_alg».proof.Proof.KI.Run
import proofs.«155600_j21663815041514_2_alg».proof.Proof.Ref.Run
import proofs.«155600_j21663815041514_2_alg».proof.Proof.Assemble
import Idealize.ShloMosaic.Adequacy
import Idealize.ShloMosaic.Init

noncomputable section

namespace Cert.Proof

open Idealize.ShloMosaic Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2.2.2.2)
    (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Assemble.algebraic⟩

end Cert.Proof

end
